-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v40)) (v3 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S524288 : Shape := ⟨1, ![524288]⟩
abbrev S512x256 : Shape := ⟨2, ![512, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S524288 : S_.BroadcastsInDim S524288 (![] : Fin 0 → Fin S524288.rank)
  reducesTo_S524288_S_d0 : S524288.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S256x64 .f32) (main_arg7 : FVec F S64 .f32) (main_arg8 : FVec F S256x64 .f32) (main_arg9 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x64 .f32 := Host.absf main_arg8
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg9 main_v33

def fn {F : FTy → Type} [FloatOps F] (main_arg0 : FVec F S16384x512 .f32) (main_arg1 : IVec S524288 32) (main_arg2 : IVec S524288 32) (main_arg3 : FVec F S524288 .f32) (main_arg4 : FVec F S512x256 .f32) (main_arg5 : FVec F S256 .f32) (main_arg6 : FVec F S256x64 .f32) (main_arg7 : FVec F S64 .f32) (main_arg8 : FVec F S256x64 .f32) (main_arg9 : FVec F S64 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S524288 .f32 := Host.absf main_arg3
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_v13 main_v16
-- ==== Kernel.lean ====
abbrev S16384x512 : Shape := ⟨2, ![16384, 512]⟩
abbrev S524288 : Shape := ⟨1, ![524288]⟩
abbrev S512x256 : Shape := ⟨2, ![512, 256]⟩
abbrev S256 : Shape := ⟨1, ![256]⟩
abbrev S256x64 : Shape := ⟨2, ![256, 64]⟩
abbrev S64 : Shape := ⟨1, ![64]⟩
abbrev S16384x256 : Shape := ⟨2, ![16384, 256]⟩
abbrev S2048x512 : Shape := ⟨2, ![2048, 512]⟩
abbrev S2048x256 : Shape := ⟨2, ![2048, 256]⟩
abbrev S524288x1 : Shape := ⟨2, ![524288, 1]⟩
abbrev S_ : Shape := ⟨0, ![]⟩
abbrev S524288x256 : Shape := ⟨2, ![524288, 256]⟩
abbrev S1x256 : Shape := ⟨2, ![1, 256]⟩
abbrev S256x128 : Shape := ⟨2, ![256, 128]⟩
abbrev S16384x128 : Shape := ⟨2, ![16384, 128]⟩
abbrev S2048x128 : Shape := ⟨2, ![2048, 128]⟩
abbrev S524288x128 : Shape := ⟨2, ![524288, 128]⟩
abbrev S16384x64 : Shape := ⟨2, ![16384, 64]⟩
abbrev S1x64 : Shape := ⟨2, ![1, 64]⟩
abbrev S16384x16384 : Shape := ⟨2, ![16384, 16384]⟩
abbrev S2048x64 : Shape := ⟨2, ![2048, 64]⟩
abbrev S2048x2048 : Shape := ⟨2, ![2048, 2048]⟩
abbrev S64x2048 : Shape := ⟨2, ![64, 2048]⟩

abbrev nBuf : Space → Nat
  | .hbm => 60
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S524288, .i32⟩
  | .hbm, ⟨2, _⟩ => ⟨S524288, .i32⟩
  | .hbm, ⟨3, _⟩ => ⟨S524288, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S16384x256, .f32⟩
  | .hbm, ⟨11, _⟩ => ⟨S524288x1, .f32⟩
  | .hbm, ⟨12, _⟩ => ⟨S_, .i32⟩
  | .hbm, ⟨13, _⟩ => ⟨S524288, .i32⟩
  | .hbm, ⟨14, _⟩ => ⟨S524288, .i1⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S524288x1, .i32⟩
  | .hbm, ⟨20, _⟩ => ⟨S524288x256, .f32⟩
  | .hbm, ⟨21, _⟩ => ⟨S524288x256, .f32⟩
  | .hbm, ⟨22, _⟩ => ⟨S524288x256, .f32⟩
  | .hbm, ⟨23, _⟩ => ⟨S_, .f32⟩
  | .hbm, ⟨24, _⟩ => ⟨S16384x256, .f32⟩
  | .hbm, ⟨25, _⟩ => ⟨S524288x1, .i32⟩
  | .hbm, ⟨26, _⟩ => ⟨S16384x256, .f32⟩
  | .hbm, ⟨27, _⟩ => ⟨S1x256, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S256x128, .f32⟩
  | .hbm, ⟨34, _⟩ => ⟨S16384x128, .f32⟩
  | .hbm, ⟨35, _⟩ => ⟨S524288x1, .f32⟩
  | .hbm, ⟨36, _⟩ => ⟨S_, .i32⟩
  | .hbm, ⟨37, _⟩ => ⟨S524288, .i32⟩
  | .hbm, ⟨38, _⟩ => ⟨S524288, .i1⟩
  | .hbm, ⟨39, _⟩ => ⟨S_, .i32⟩
  | .hbm, ⟨40, _⟩ => ⟨S524288, .i32⟩
  | .hbm, ⟨41, _⟩ => ⟨S524288, .i32⟩
  | .hbm, ⟨42, _⟩ => ⟨S524288, .i32⟩
  | .hbm, ⟨43, _⟩ => ⟨S524288x1, .i32⟩
  | .hbm, ⟨44, _⟩ => ⟨S524288x128, .f32⟩
  | .hbm, ⟨45, _⟩ => ⟨S524288x128, .f32⟩
  | .hbm, ⟨46, _⟩ => ⟨S524288x128, .f32⟩
  | .hbm, ⟨47, _⟩ => ⟨S_, .f32⟩
  | .hbm, ⟨48, _⟩ => ⟨S16384x128, .f32⟩
  | .hbm, ⟨49, _⟩ => ⟨S524288x1, .i32⟩
  | .hbm, ⟨50, _⟩ => ⟨S16384x128, .f32⟩
  | .hbm, ⟨51, _⟩ => ⟨S16384x64, .f32⟩
  | .hbm, ⟨52, _⟩ => ⟨S1x64, .f32⟩
  | .hbm, ⟨53, _⟩ => ⟨S16384x64, .f32⟩
  | .hbm, ⟨54, _⟩ => ⟨S16384x64, .f32⟩
  | .hbm, ⟨55, _⟩ => ⟨S16384x64, .f32⟩
  | .hbm, ⟨56, _⟩ => ⟨S1x64, .f32⟩
  | .hbm, ⟨57, _⟩ => ⟨S16384x64, .f32⟩
  | .hbm, ⟨58, _⟩ => ⟨S16384x64, .f32⟩
  | .hbm, ⟨59, _⟩ => ⟨S16384x16384, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x128, .f32⟩
  | .local _ .vmem, ⟨8, _⟩ => ⟨S2048x128, .f32⟩
  | .local _ .vmem, ⟨9, _⟩ => ⟨S2048x128, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x2048, .f32⟩
  | .local _ .vmem, ⟨15, _⟩ => ⟨S2048x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  concatenates_S256x64_S256x64_S256x128_d1 : Shape.Concatenates [S256x64, S256x64] S256x128 1
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  bcast_S524288x1_S524288x128_0_1 : S524288x1.BroadcastsInDim S524288x128 (![0, 1] : Fin 2 → Fin S524288x128.rank)
  bcast_S_S16384x128 : S_.BroadcastsInDim S16384x128 (![] : Fin 0 → Fin S16384x128.rank)
  slices_S16384x128_S16384x64_0_0 : S16384x128.Slices ![0, 0] S16384x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  slices_S16384x128_S16384x64_0_64 : S16384x128.Slices ![0, 64] S16384x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  transposes_S2048x64_p1_0_S64x2048 : S2048x64.Transposes [1, 0] S64x2048
  inb_S2048x2048_S2048x2048_0_0 : ∀ a, (![0, 0] : Fin 2 → Nat) a + S2048x2048.size a ≤ S2048x2048.size a
  h_S2048x2048 : 0 < S2048x2048.numel
  dot_S2048x512_S512x256_S2048x256_1_0_0_1_n_n_wf : DotDims.WF S2048x512 S512x256 S2048x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S2048x256_S256x128_S2048x128_1_0_0_1_n_n_wf : DotDims.WF S2048x256 S256x128 S2048x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S2048x64_S64x2048_S2048x2048_1_0_0_1_n_n_wf : DotDims.WF S2048x64 S64x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S16384x256.size a
  hwx1_0 : ∀ i : grid1.Coords, EltTy.bits .f32 = 32 ∨ (Rect.block (s := S16384x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S16384x128.size a
  hwx1_2 : ∀ i : grid1.Coords, EltTy.bits .f32 = 32 ∨ (Rect.block (s := S16384x128) S2048x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S16384x64.size a
  hwx2_0 : ∀ i : grid2.Coords, EltTy.bits .f32 = 32 ∨ (Rect.block (s := S16384x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S16384x64.size a
  hwx2_1 : ∀ i : grid2.Coords, EltTy.bits .f32 = 32 ∨ (Rect.block (s := S16384x64) S2048x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x2048.size a ≤ S16384x16384.size a
  hwx2_2 : ∀ i : grid2.Coords, EltTy.bits .f32 = 32 ∨ (Rect.block (s := S16384x16384) S2048x2048.size (cc2_transform_2 i) (hinb2_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S2048x2048.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S16384x512 : Shape := ⟨2, ![16384, 512]⟩
abbrev S524288 : Shape := ⟨1, ![524288]⟩
abbrev S512x256 : Shape := ⟨2, ![512, 256]⟩
abbrev S256 : Shape := ⟨1, ![256]⟩
abbrev S256x64 : Shape := ⟨2, ![256, 64]⟩
abbrev S64 : Shape := ⟨1, ![64]⟩
abbrev S16384x256 : Shape := ⟨2, ![16384, 256]⟩
abbrev S524288x1 : Shape := ⟨2, ![524288, 1]⟩
abbrev S_ : Shape := ⟨0, ![]⟩
abbrev S524288x256 : Shape := ⟨2, ![524288, 256]⟩
abbrev S1x256 : Shape := ⟨2, ![1, 256]⟩
abbrev S16384x64 : Shape := ⟨2, ![16384, 64]⟩
abbrev S524288x64 : Shape := ⟨2, ![524288, 64]⟩
abbrev S1x64 : Shape := ⟨2, ![1, 64]⟩
abbrev S64x16384 : Shape := ⟨2, ![64, 16384]⟩
abbrev S16384x16384 : Shape := ⟨2, ![16384, 16384]⟩

abbrev nBuf : Space → Nat
  | .hbm => 75
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S524288, .i32⟩
  | .hbm, ⟨2, _⟩ => ⟨S524288, .i32⟩
  | .hbm, ⟨3, _⟩ => ⟨S524288, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S256x64, .f32⟩
  | .hbm, ⟨9, _⟩ => ⟨S64, .f32⟩
  | .hbm, ⟨10, _⟩ => ⟨S16384x256, .f32⟩
  | .hbm, ⟨11, _⟩ => ⟨S524288x1, .f32⟩
  | .hbm, ⟨12, _⟩ => ⟨S_, .i32⟩
  | .hbm, ⟨13, _⟩ => ⟨S524288, .i32⟩
  | .hbm, ⟨14, _⟩ => ⟨S524288, .i1⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S524288x1, .i32⟩
  | .hbm, ⟨20, _⟩ => ⟨S524288x256, .f32⟩
  | .hbm, ⟨21, _⟩ => ⟨S524288x256, .f32⟩
  | .hbm, ⟨22, _⟩ => ⟨S524288x256, .f32⟩
  | .hbm, ⟨23, _⟩ => ⟨S_, .f32⟩
  | .hbm, ⟨24, _⟩ => ⟨S16384x256, .f32⟩
  | .hbm, ⟨25, _⟩ => ⟨S524288x1, .i32⟩
  | .hbm, ⟨26, _⟩ => ⟨S16384x256, .f32⟩
  | .hbm, ⟨27, _⟩ => ⟨S1x256, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S16384x64, .f32⟩
  | .hbm, ⟨34, _⟩ => ⟨S524288x1, .f32⟩
  | .hbm, ⟨35, _⟩ => ⟨S_, .i32⟩
  | .hbm, ⟨36, _⟩ => ⟨S524288, .i32⟩
  | .hbm, ⟨37, _⟩ => ⟨S524288, .i1⟩
  | .hbm, ⟨38, _⟩ => ⟨S_, .i32⟩
  | .hbm, ⟨39, _⟩ => ⟨S524288, .i32⟩
  | .hbm, ⟨40, _⟩ => ⟨S524288, .i32⟩
  | .hbm, ⟨41, _⟩ => ⟨S524288, .i32⟩
  | .hbm, ⟨42, _⟩ => ⟨S524288x1, .i32⟩
  | .hbm, ⟨43, _⟩ => ⟨S524288x64, .f32⟩
  | .hbm, ⟨44, _⟩ => ⟨S524288x64, .f32⟩
  | .hbm, ⟨45, _⟩ => ⟨S524288x64, .f32⟩
  | .hbm, ⟨46, _⟩ => ⟨S_, .f32⟩
  | .hbm, ⟨47, _⟩ => ⟨S16384x64, .f32⟩
  | .hbm, ⟨48, _⟩ => ⟨S524288x1, .i32⟩
  | .hbm, ⟨49, _⟩ => ⟨S16384x64, .f32⟩
  | .hbm, ⟨50, _⟩ => ⟨S1x64, .f32⟩
  | .hbm, ⟨51, _⟩ => ⟨S16384x64, .f32⟩
  | .hbm, ⟨52, _⟩ => ⟨S16384x64, .f32⟩
  | .hbm, ⟨53, _⟩ => ⟨S16384x64, .f32⟩
  | .hbm, ⟨54, _⟩ => ⟨S524288x1, .f32⟩
  | .hbm, ⟨55, _⟩ => ⟨S_, .i32⟩
  | .hbm, ⟨56, _⟩ => ⟨S524288, .i32⟩
  | .hbm, ⟨57, _⟩ => ⟨S524288, .i1⟩
  | .hbm, ⟨58, _⟩ => ⟨S_, .i32⟩
  | .hbm, ⟨59, _⟩ => ⟨S524288, .i32⟩
  | .hbm, ⟨60, _⟩ => ⟨S524288, .i32⟩
  | .hbm, ⟨61, _⟩ => ⟨S524288, .i32⟩
  | .hbm, ⟨62, _⟩ => ⟨S524288x1, .i32⟩
  | .hbm, ⟨63, _⟩ => ⟨S524288x64, .f32⟩
  | .hbm, ⟨64, _⟩ => ⟨S524288x64, .f32⟩
  | .hbm, ⟨65, _⟩ => ⟨S524288x64, .f32⟩
  | .hbm, ⟨66, _⟩ => ⟨S_, .f32⟩
  | .hbm, ⟨67, _⟩ => ⟨S16384x64, .f32⟩
  | .hbm, ⟨68, _⟩ => ⟨S524288x1, .i32⟩
  | .hbm, ⟨69, _⟩ => ⟨S16384x64, .f32⟩
  | .hbm, ⟨70, _⟩ => ⟨S1x64, .f32⟩
  | .hbm, ⟨71, _⟩ => ⟨S16384x64, .f32⟩
  | .hbm, ⟨72, _⟩ => ⟨S16384x64, .f32⟩
  | .hbm, ⟨73, _⟩ => ⟨S64x16384, .f32⟩
  | .hbm, ⟨74, _⟩ => ⟨S16384x16384, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_4 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  bcast_S524288_S524288x1_0 : S524288.BroadcastsInDim S524288x1 (![0] : Fin 1 → Fin S524288x1.rank)
  bcast_S_S524288 : S_.BroadcastsInDim S524288 (![] : Fin 0 → Fin S524288.rank)
  bcast_S524288x1_S524288x256_0_1 : S524288x1.BroadcastsInDim S524288x256 (![0, 1] : Fin 2 → Fin S524288x256.rank)
  bcast_S_S16384x256 : S_.BroadcastsInDim S16384x256 (![] : Fin 0 → Fin S16384x256.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S524288x1_S524288x64_0_1 : S524288x1.BroadcastsInDim S524288x64 (![0, 1] : Fin 2 → Fin S524288x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  dot_S16384x512_S512x256_S16384x256_1_0_0_1_n_n_wf : DotDims.WF S16384x512 S512x256 S16384x256 [1] [0] [0] [1] [] []
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x64_S16384x64_1_0_0_1_n_n_wf : DotDims.WF S16384x256 S256x64 S16384x64 [1] [0] [0] [1] [] []
  gather_S16384x64_S524288x1_S524288x64_1_0_n_n_0_1_164_wf : GatherDims.WF S16384x64 S524288x1 S524288x64 [1] [0] [] [0] [] 1 ![1, 64]
  scatter_S16384x64_S524288x1_S524288x64_1_0_0_1_wf : ScatterDims.WF S16384x64 S524288x1 S524288x64 [1] [0] [0] 1
  dot_S16384x64_S64x16384_S16384x16384_1_0_0_1_n_n_wf : DotDims.WF S16384x64 S64x16384 S16384x16384 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def scatter_S16384x64_S524288x1_S524288x64_1_0_0_1 : ScatterDims S16384x64 S524288x1 S524288x64 where
  updateWindowDims := [1]
  insertedWindowDims := [0]
  scatterDimsToOperandDims := [0]
  indexVectorDim := 1
  wf := scatter_S16384x64_S524288x1_S524288x64_1_0_0_1_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.RegionB0.lean ====
/-
  Pallas call 0 of the program (`cc0__matmul_kernel`): what one run of the kernel body does to its three windows' buffers.

  The body reads its two input windows whole, forms one matrix product, and stores it over the whole output window. So,
  whatever the output window's buffer held before, after the body it holds the product of the two input blocks, and the
  input windows' buffers are as they were. From this the pipeline's proof data follow: after the body at grid point `t`
  each input window's buffer holds that window's block of its array at `t`, and the output window's buffer holds the
  product of those two blocks; nothing is owed to any other core, and every array is held at the share `q` names.
-/
import proofs.«174434_j60601988546853_1_alg».proof.Proof.Gen.Kernel.Launch
import proofs.«174434_j60601988546853_1_alg».proof.Proof.Gen.Kernel.Skeleton
import proofs.«174434_j60601988546853_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the shares at which the two input windows' arrays are held
variable (q0 q1 : PosShare TreeShare)

/-- Window `w`'s block at grid point `t`, read off its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangle the body's one store writes: the whole output window. -/
abbrev storeRect0 : Rect S2048x256 := Rect.unit (s := S2048x256) ![0, 0] S2048x256.size inb_S2048x256_S2048x256_0_0

/-- The output window's buffer after the body: its one store, of the product of the two input blocks. -/
def product0 (x0 : Vec F S2048x512 .f32) (x1 : Vec F S512x256 .f32) : Vec F S2048x256 .f32 :=
  View.canon [⟨storeRect0, k0_pay1 (View.ld x0 (Rect.unit (s := S2048x512) ![0, 0] S2048x512.size inb_S2048x512_S2048x512_0_0))
    (View.ld x1 (Rect.unit (s := S512x256) ![0, 0] S512x256.size inb_S512x256_S512x256_0_0))⟩]

/-- The store covers the whole output window. -/
theorem storeCovers0 (p0 : Vec F S2048x256 .f32) (y : S2048x256.Idx) :
    ∃ pc ∈ ([⟨storeRect0, p0⟩] : List (View.Piece (Elt F) S2048x256 .f32)), y ∈ pc.1.set :=
  View.cover_of_tiled [⟨storeRect0, p0⟩] S2048x256.size (by rfl) y

set_option maxHeartbeats 1000000 in
/-- The body on whole buffers — the inputs' at contents `x0`, `x1`, the output's at anything — ends with the inputs'
    as they were and the output's at the product. -/
theorem bodyRuns0 (c : Dev nD) (E : Set ℕ) (i : grid0.Coords) (a0 : Memref sig .tc .vmem S2048x512 .f32) (h0 : a0.IsWhole)
    (a1 : Memref sig .tc .vmem S512x256 .f32) (h1 : a1.IsWhole) (a2 : Memref sig .tc .vmem S2048x256 .f32) (h2 : a2.IsWhole)
    (x0 : Vec F S2048x512 .f32) (x1 : Vec F S512x256 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (product0 x0 x1)) -∗ K ⟨⟩))
      ⊢ wp frame (wpE (defs₀ (F := F)) Variants.none c none) E (cc0__matmul_kernel i a0 h0 a1 h1 a2 h2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCovers0 _)

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => product0 (blockAt0 V c 0 t) (blockAt0 V c 1 t)
  Φ _ := Pipeline.ΦA spec0 c
  q w := match w with
    | ⟨0, _⟩ => q0
    | ⟨1, _⟩ => q1
    | ⟨2, _⟩ => fullShare
  owed _ := 0

theorem dat0_A (c : Dev nD) (w : Fin cfg0.W) : (dat0 V q0 q1 c).A w = V c (Pipeline.arrRef spec0 w) := by
  dsimp only [dat0]

theorem dat0_after0 (c : Dev nD) (t : Fin cfg0.N) : (dat0 V q0 q1 c).after 0 t = blockAt0 V c 0 t := by dsimp only [dat0]
theorem dat0_after1 (c : Dev nD) (t : Fin cfg0.N) : (dat0 V q0 q1 c).after 1 t = blockAt0 V c 1 t := by dsimp only [dat0]
theorem dat0_after2 (c : Dev nD) (t : Fin cfg0.N) :
    (dat0 V q0 q1 c).after 2 t = product0 (blockAt0 V c 0 t) (blockAt0 V c 1 t) := by dsimp only [dat0]

/-- An input window's current buffer holds its block at every point, whether the pipeline fetched it there or not. -/
theorem dat0_before0 (c : Dev nD) (t : Fin cfg0.N) (d) : (dat0 V q0 q1 c).before 0 t d = blockAt0 V c 0 t :=
  ((dat0 V q0 q1 c).before_in_eq_fetched 0 rfl (fun _ => rfl) (fun _ _ _ => rfl)
      (fun t => by rw [dat0_after0]; unfold Dat.blockOf blockAt0; rw [dat0_A]; try rfl) t d).trans
    (by unfold Dat.fetched Dat.blockOf blockAt0; rw [dat0_A]; try rfl)
theorem dat0_before1 (c : Dev nD) (t : Fin cfg0.N) (d) : (dat0 V q0 q1 c).before 1 t d = blockAt0 V c 1 t :=
  ((dat0 V q0 q1 c).before_in_eq_fetched 1 rfl (fun _ => rfl) (fun _ _ _ => rfl)
      (fun t => by rw [dat0_after1]; unfold Dat.blockOf blockAt0; rw [dat0_A]; try rfl) t d).trans
    (by unfold Dat.fetched Dat.blockOf blockAt0; rw [dat0_A]; try rfl)

/-- What the body is called with at point `t`, the windows one by one, -/
def entry0 (c : Dev nD) (t : Fin cfg0.N) : sProp 𝕄 :=
  iprop((dat0 V q0 q1 c).Φ t.castSucc ∗ (dat0 V q0 q1 c).owesAt () t.castSucc
    ∗ (∃ d, owns (c : Thread nD τ) (st0_0 t) fullShare ((dat0 V q0 q1 c).before 0 t d))
    ∗ (∃ d, owns (c : Thread nD τ) (st0_1 t) fullShare ((dat0 V q0 q1 c).before 1 t d))
    ∗ (∃ d, owns (c : Thread nD τ) (st0_2 t) fullShare ((dat0 V q0 q1 c).before 2 t d)))

/-- and what it returns. -/
def exit0 (c : Dev nD) (t : Fin cfg0.N) : sProp 𝕄 :=
  iprop((dat0 V q0 q1 c).Φ t.succ ∗ (dat0 V q0 q1 c).owesAt () t.succ
    ∗ owns (c : Thread nD τ) (st0_0 t) fullShare ((dat0 V q0 q1 c).after 0 t)
    ∗ owns (c : Thread nD τ) (st0_1 t) fullShare ((dat0 V q0 q1 c).after 1 t)
    ∗ owns (c : Thread nD τ) (st0_2 t) fullShare ((dat0 V q0 q1 c).after 2 t))

/-- The body at any point: the input buffers hold their blocks, so `bodyRuns0` applies; the invariant and what the
    core owes pass through unread. -/
theorem bodyAtPoint0 (c : Dev nD) (t : Fin cfg0.N) :
    entry0 V q0 q1 c t ⊢ wp frame (wpE (defs₀ (F := F)) Variants.none c none) Set.univ (bodyAt0 t) (fun _ => exit0 V q0 q1 c t) := by
  unfold entry0 exit0 bodyAt0
  simp only [dat0_before0, dat0_before1]
  rw [show (dat0 V q0 q1 c).Φ t.succ = (dat0 V q0 q1 c).Φ t.castSucc from rfl,
    show (dat0 V q0 q1 c).owesAt () t.succ = (dat0 V q0 q1 c).owesAt () t.castSucc from rfl,
    dat0_after0, dat0_after1, dat0_after2]
  iintro ⟨HΦ, Ho, ⟨%d0, H0⟩, ⟨%d1, H1⟩, ⟨%d2, H2⟩⟩
  iapply (bodyRuns0 c Set.univ _ _ _ _ _ _ _ (blockAt0 V c 0 t) (blockAt0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem bodyObligation0 (c : Dev nD) : BodyObligation (dat0 (F := F) V q0 q1 c) (defs₀ (F := F)) Variants.none () Set.univ := fun t => by
  rw [bigSep_W0, bigSep_W0]
  exact bodyAtPoint0 V q0 q1 c t

end Cert.Kernel.Hand

end
-- ==== Proof.RegionB1.lean ====
/-
  Pallas call 1 of the program (`cc1__matmul_kernel`): what one run of the kernel body does to its three windows' buffers.

  The body reads its two input windows whole, forms one matrix product, and stores it over the whole output window. So,
  whatever the output window's buffer held before, after the body it holds the product of the two input blocks, and the
  input windows' buffers are as they were. From this the pipeline's proof data follow: after the body at grid point `t`
  each input window's buffer holds that window's block of its array at `t`, and the output window's buffer holds the
  product of those two blocks; nothing is owed to any other core, and every array is held at the share `q` names.
-/
import proofs.«174434_j60601988546853_1_alg».proof.Proof.Gen.Kernel.Launch
import proofs.«174434_j60601988546853_1_alg».proof.Proof.Gen.Kernel.Skeleton
import proofs.«174434_j60601988546853_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the shares at which the two input windows' arrays are held
variable (q0 q1 : PosShare TreeShare)

/-- Window `w`'s block at grid point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangle the body's one store writes: the whole output window. -/
abbrev storeRect1 : Rect S2048x128 := Rect.unit (s := S2048x128) ![0, 0] S2048x128.size inb_S2048x128_S2048x128_0_0

/-- The output window's buffer after the body: its one store, of the product of the two input blocks. -/
def product1 (x0 : Vec F S2048x256 .f32) (x1 : Vec F S256x128 .f32) : Vec F S2048x128 .f32 :=
  View.canon [⟨storeRect1, k1_pay1 (View.ld x0 (Rect.unit (s := S2048x256) ![0, 0] S2048x256.size inb_S2048x256_S2048x256_0_0))
    (View.ld x1 (Rect.unit (s := S256x128) ![0, 0] S256x128.size inb_S256x128_S256x128_0_0))⟩]

/-- The store covers the whole output window. -/
theorem storeCovers1 (p0 : Vec F S2048x128 .f32) (y : S2048x128.Idx) :
    ∃ pc ∈ ([⟨storeRect1, p0⟩] : List (View.Piece (Elt F) S2048x128 .f32)), y ∈ pc.1.set :=
  View.cover_of_tiled [⟨storeRect1, p0⟩] S2048x128.size (by rfl) y

set_option maxHeartbeats 1000000 in
/-- The body on whole buffers — the inputs' at contents `x0`, `x1`, the output's at anything — ends with the inputs'
    as they were and the output's at the product. -/
theorem bodyRuns1 (c : Dev nD) (E : Set ℕ) (i : grid1.Coords) (a0 : Memref sig .tc .vmem S2048x256 .f32) (h0 : a0.IsWhole)
    (a1 : Memref sig .tc .vmem S256x128 .f32) (h1 : a1.IsWhole) (a2 : Memref sig .tc .vmem S2048x128 .f32) (h2 : a2.IsWhole)
    (x0 : Vec F S2048x256 .f32) (x1 : Vec F S256x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (product1 x0 x1)) -∗ K ⟨⟩))
      ⊢ wp frame (wpE (defs₀ (F := F)) Variants.none c none) E (cc1__matmul_kernel i a0 h0 a1 h1 a2 h2) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCovers1 _)

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => product1 (blockAt1 V c 0 t) (blockAt1 V c 1 t)
  Φ _ := Pipeline.ΦA spec1 c
  q w := match w with
    | ⟨0, _⟩ => q0
    | ⟨1, _⟩ => q1
    | ⟨2, _⟩ => fullShare
  owed _ := 0

theorem dat1_A (c : Dev nD) (w : Fin cfg1.W) : (dat1 V q0 q1 c).A w = V c (Pipeline.arrRef spec1 w) := by
  dsimp only [dat1]

theorem dat1_after0 (c : Dev nD) (t : Fin cfg1.N) : (dat1 V q0 q1 c).after 0 t = blockAt1 V c 0 t := by dsimp only [dat1]
theorem dat1_after1 (c : Dev nD) (t : Fin cfg1.N) : (dat1 V q0 q1 c).after 1 t = blockAt1 V c 1 t := by dsimp only [dat1]
theorem dat1_after2 (c : Dev nD) (t : Fin cfg1.N) :
    (dat1 V q0 q1 c).after 2 t = product1 (blockAt1 V c 0 t) (blockAt1 V c 1 t) := by dsimp only [dat1]

/-- An input window's current buffer holds its block at every point, whether the pipeline fetched it there or not. -/
theorem dat1_before0 (c : Dev nD) (t : Fin cfg1.N) (d) : (dat1 V q0 q1 c).before 0 t d = blockAt1 V c 0 t :=
  ((dat1 V q0 q1 c).before_in_eq_fetched 0 rfl (fun _ => rfl) (fun _ _ _ => rfl)
      (fun t => by rw [dat1_after0]; unfold Dat.blockOf blockAt1; rw [dat1_A]; try rfl) t d).trans
    (by unfold Dat.fetched Dat.blockOf blockAt1; rw [dat1_A]; try rfl)
theorem dat1_before1 (c : Dev nD) (t : Fin cfg1.N) (d) : (dat1 V q0 q1 c).before 1 t d = blockAt1 V c 1 t :=
  ((dat1 V q0 q1 c).before_in_eq_fetched 1 rfl (fun _ => rfl) (fun _ _ _ => rfl)
      (fun t => by rw [dat1_after1]; unfold Dat.blockOf blockAt1; rw [dat1_A]; try rfl) t d).trans
    (by unfold Dat.fetched Dat.blockOf blockAt1; rw [dat1_A]; try rfl)

/-- What the body is called with at point `t`, the windows one by one, -/
def entry1 (c : Dev nD) (t : Fin cfg1.N) : sProp 𝕄 :=
  iprop((dat1 V q0 q1 c).Φ t.castSucc ∗ (dat1 V q0 q1 c).owesAt () t.castSucc
    ∗ (∃ d, owns (c : Thread nD τ) (st1_0 t) fullShare ((dat1 V q0 q1 c).before 0 t d))
    ∗ (∃ d, owns (c : Thread nD τ) (st1_1 t) fullShare ((dat1 V q0 q1 c).before 1 t d))
    ∗ (∃ d, owns (c : Thread nD τ) (st1_2 t) fullShare ((dat1 V q0 q1 c).before 2 t d)))

/-- and what it returns. -/
def exit1 (c : Dev nD) (t : Fin cfg1.N) : sProp 𝕄 :=
  iprop((dat1 V q0 q1 c).Φ t.succ ∗ (dat1 V q0 q1 c).owesAt () t.succ
    ∗ owns (c : Thread nD τ) (st1_0 t) fullShare ((dat1 V q0 q1 c).after 0 t)
    ∗ owns (c : Thread nD τ) (st1_1 t) fullShare ((dat1 V q0 q1 c).after 1 t)
    ∗ owns (c : Thread nD τ) (st1_2 t) fullShare ((dat1 V q0 q1 c).after 2 t))

/-- The body at any point: the input buffers hold their blocks, so `bodyRuns1` applies; the invariant and what the
    core owes pass through unread. -/
theorem bodyAtPoint1 (c : Dev nD) (t : Fin cfg1.N) :
    entry1 V q0 q1 c t ⊢ wp frame (wpE (defs₀ (F := F)) Variants.none c none) Set.univ (bodyAt1 t) (fun _ => exit1 V q0 q1 c t) := by
  unfold entry1 exit1 bodyAt1
  simp only [dat1_before0, dat1_before1]
  rw [show (dat1 V q0 q1 c).Φ t.succ = (dat1 V q0 q1 c).Φ t.castSucc from rfl,
    show (dat1 V q0 q1 c).owesAt () t.succ = (dat1 V q0 q1 c).owesAt () t.castSucc from rfl,
    dat1_after0, dat1_after1, dat1_after2]
  iintro ⟨HΦ, Ho, ⟨%d0, H0⟩, ⟨%d1, H1⟩, ⟨%d2, H2⟩⟩
  iapply (bodyRuns1 c Set.univ _ _ _ _ _ _ _ (blockAt1 V c 0 t) (blockAt1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem bodyObligation1 (c : Dev nD) : BodyObligation (dat1 (F := F) V q0 q1 c) (defs₀ (F := F)) Variants.none () Set.univ := fun t => by
  rw [bigSep_W1, bigSep_W1]
  exact bodyAtPoint1 V q0 q1 c t

end Cert.Kernel.Hand

end
-- ==== Proof.RegionB2.lean ====
/-
  Pallas call 2 of the program (`cc2__zzt_kernel`): what one run of the kernel body does to its three windows' buffers.

  The body reads its two input windows whole, forms one matrix product, and stores it over the whole output window. So,
  whatever the output window's buffer held before, after the body it holds the product of the two input blocks, and the
  input windows' buffers are as they were. From this the pipeline's proof data follow: after the body at grid point `t`
  each input window's buffer holds that window's block of its array at `t`, and the output window's buffer holds the
  product of those two blocks; nothing is owed to any other core, and every array is held at the share `q` names.
-/
import proofs.«174434_j60601988546853_1_alg».proof.Proof.Gen.Kernel.Launch
import proofs.«174434_j60601988546853_1_alg».proof.Proof.Gen.Kernel.Skeleton
import proofs.«174434_j60601988546853_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the shares at which the two input windows' arrays are held
variable (q0 q1 : PosShare TreeShare)

/-- Window `w`'s block at grid point `t`, read off its array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangle the body's one store writes: the whole output window. -/
abbrev storeRect2 : Rect S2048x2048 := Rect.unit (s := S2048x2048) ![0, 0] S2048x2048.size inb_S2048x2048_S2048x2048_0_0

/-- The output window's buffer after the body: its one store, of the product of the two input blocks. -/
def product2 (x0 : Vec F S2048x64 .f32) (x1 : Vec F S2048x64 .f32) : Vec F S2048x2048 .f32 :=
  View.canon [⟨storeRect2, k2_pay1 (View.ld x0 (Rect.unit (s := S2048x64) ![0, 0] S2048x64.size inb_S2048x64_S2048x64_0_0))
    (View.ld x1 (Rect.unit (s := S2048x64) ![0, 0] S2048x64.size inb_S2048x64_S2048x64_0_0))⟩]

/-- The store covers the whole output window. -/
theorem storeCovers2 (p0 : Vec F S2048x2048 .f32) (y : S2048x2048.Idx) :
    ∃ pc ∈ ([⟨storeRect2, p0⟩] : List (View.Piece (Elt F) S2048x2048 .f32)), y ∈ pc.1.set :=
  View.cover_of_tiled [⟨storeRect2, p0⟩] S2048x2048.size (by rfl) y

set_option maxHeartbeats 1000000 in
/-- The body on whole buffers — the inputs' at contents `x0`, `x1`, the output's at anything — ends with the inputs'
    as they were and the output's at the product. -/
theorem bodyRuns2 (c : Dev nD) (E : Set ℕ) (i : grid2.Coords) (a0 : Memref sig .tc .vmem S2048x64 .f32) (h0 : a0.IsWhole)
    (a1 : Memref sig .tc .vmem S2048x64 .f32) (h1 : a1.IsWhole) (a2 : Memref sig .tc .vmem S2048x2048 .f32) (h2 : a2.IsWhole)
    (x0 : Vec F S2048x64 .f32) (x1 : Vec F S2048x64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (product2 x0 x1)) -∗ K ⟨⟩))
      ⊢ wp frame (wpE (defs₀ (F := F)) Variants.none c none) E (cc2__zzt_kernel i a0 h0 a1 h1 a2 h2) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCovers2 _)

/-- The proof data of the pipeline on core `c`. -/
def dat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => product2 (blockAt2 V c 0 t) (blockAt2 V c 1 t)
  Φ _ := Pipeline.ΦA spec2 c
  q w := match w with
    | ⟨0, _⟩ => q0
    | ⟨1, _⟩ => q1
    | ⟨2, _⟩ => fullShare
  owed _ := 0

theorem dat2_A (c : Dev nD) (w : Fin cfg2.W) : (dat2 V q0 q1 c).A w = V c (Pipeline.arrRef spec2 w) := by
  dsimp only [dat2]

theorem dat2_after0 (c : Dev nD) (t : Fin cfg2.N) : (dat2 V q0 q1 c).after 0 t = blockAt2 V c 0 t := by dsimp only [dat2]
theorem dat2_after1 (c : Dev nD) (t : Fin cfg2.N) : (dat2 V q0 q1 c).after 1 t = blockAt2 V c 1 t := by dsimp only [dat2]
theorem dat2_after2 (c : Dev nD) (t : Fin cfg2.N) :
    (dat2 V q0 q1 c).after 2 t = product2 (blockAt2 V c 0 t) (blockAt2 V c 1 t) := by dsimp only [dat2]

/-- An input window's current buffer holds its block at every point, whether the pipeline fetched it there or not. -/
theorem dat2_before0 (c : Dev nD) (t : Fin cfg2.N) (d) : (dat2 V q0 q1 c).before 0 t d = blockAt2 V c 0 t :=
  ((dat2 V q0 q1 c).before_in_eq_fetched 0 rfl (fun _ => rfl) (fun _ _ _ => rfl)
      (fun t => by rw [dat2_after0]; unfold Dat.blockOf blockAt2; rw [dat2_A]; try rfl) t d).trans
    (by unfold Dat.fetched Dat.blockOf blockAt2; rw [dat2_A]; try rfl)
theorem dat2_before1 (c : Dev nD) (t : Fin cfg2.N) (d) : (dat2 V q0 q1 c).before 1 t d = blockAt2 V c 1 t :=
  ((dat2 V q0 q1 c).before_in_eq_fetched 1 rfl (fun _ => rfl) (fun _ _ _ => rfl)
      (fun t => by rw [dat2_after1]; unfold Dat.blockOf blockAt2; rw [dat2_A]; try rfl) t d).trans
    (by unfold Dat.fetched Dat.blockOf blockAt2; rw [dat2_A]; try rfl)

/-- What the body is called with at point `t`, the windows one by one, -/
def entry2 (c : Dev nD) (t : Fin cfg2.N) : sProp 𝕄 :=
  iprop((dat2 V q0 q1 c).Φ t.castSucc ∗ (dat2 V q0 q1 c).owesAt () t.castSucc
    ∗ (∃ d, owns (c : Thread nD τ) (st2_0 t) fullShare ((dat2 V q0 q1 c).before 0 t d))
    ∗ (∃ d, owns (c : Thread nD τ) (st2_1 t) fullShare ((dat2 V q0 q1 c).before 1 t d))
    ∗ (∃ d, owns (c : Thread nD τ) (st2_2 t) fullShare ((dat2 V q0 q1 c).before 2 t d)))

/-- and what it returns. -/
def exit2 (c : Dev nD) (t : Fin cfg2.N) : sProp 𝕄 :=
  iprop((dat2 V q0 q1 c).Φ t.succ ∗ (dat2 V q0 q1 c).owesAt () t.succ
    ∗ owns (c : Thread nD τ) (st2_0 t) fullShare ((dat2 V q0 q1 c).after 0 t)
    ∗ owns (c : Thread nD τ) (st2_1 t) fullShare ((dat2 V q0 q1 c).after 1 t)
    ∗ owns (c : Thread nD τ) (st2_2 t) fullShare ((dat2 V q0 q1 c).after 2 t))

/-- The body at any point: the input buffers hold their blocks, so `bodyRuns2` applies; the invariant and what the
    core owes pass through unread. -/
theorem bodyAtPoint2 (c : Dev nD) (t : Fin cfg2.N) :
    entry2 V q0 q1 c t ⊢ wp frame (wpE (defs₀ (F := F)) Variants.none c none) Set.univ (bodyAt2 t) (fun _ => exit2 V q0 q1 c t) := by
  unfold entry2 exit2 bodyAt2
  simp only [dat2_before0, dat2_before1]
  rw [show (dat2 V q0 q1 c).Φ t.succ = (dat2 V q0 q1 c).Φ t.castSucc from rfl,
    show (dat2 V q0 q1 c).owesAt () t.succ = (dat2 V q0 q1 c).owesAt () t.castSucc from rfl,
    dat2_after0, dat2_after1, dat2_after2]
  iintro ⟨HΦ, Ho, ⟨%d0, H0⟩, ⟨%d1, H1⟩, ⟨%d2, H2⟩⟩
  iapply (bodyRuns2 c Set.univ _ _ _ _ _ _ _ (blockAt2 V c 0 t) (blockAt2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem bodyObligation2 (c : Dev nD) : BodyObligation (dat2 (F := F) V q0 q1 c) (defs₀ (F := F)) Variants.none () Set.univ := fun t => by
  rw [bigSep_W2, bigSep_W2]
  exact bodyAtPoint2 V q0 q1 c t

end Cert.Kernel.Hand

end
-- ==== Proof.Split2B.lean ====
/-
  The third Pallas call reads ONE array — the mean — through two input windows (a block of rows and a block of columns of
  the product with its own transpose). The array's buffer is therefore held in two halves, one per input window, while the
  call runs, and whole again afterwards: both halves still hold what the buffer held at entry, since an input window's
  array is never written.
-/
import proofs.«174434_j60601988546853_1_alg».proof.Proof.RegionB2
import Idealize.ShloMosaic.Rules.PointsTo

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The third call's proof data: the two input windows hold the two halves of the mean's buffer. -/
abbrev datZ (c : Dev nD) : Dat τ (Elt F) Unit ℕ (UR sig nD τ) ℕ cfg2 c := dat2 V fullShare.left fullShare.right c

/-- The distinct buffers behind the three windows: the mean's and the product's. -/
theorem arrRefs2 : (Finset.univ.image (Pipeline.arrRef (cfgs (2 : Fin 3)).spec) : Finset (Ref sig .tc)) = {main_v36, main_v41} := by decide
theorem arrRefs2' : (Finset.univ.image (Pipeline.arrRef spec2) : Finset (Ref sig .tc)) = {main_v36, main_v41} := arrRefs2

theorem datZ_share0 (c : Dev nD) : (datZ V c).share 0 = fullShare.left := rfl
theorem datZ_share1 (c : Dev nD) : (datZ V c).share 1 = fullShare.right := rfl
theorem datZ_share2 (c : Dev nD) : (datZ V c).share 2 = fullShare := rfl

/-- The windows' arrays, at contents `G`, window by window. -/
theorem arrays2_eq (c : Dev nD) (G : (w : Fin cfg2.W) → Buf (Elt F) ((cfg2.win w).arr.view.loc (c : Thread nD τ))) :
    ((datZ V c).arrays G : sProp 𝕄)
      = iprop((((c : Thread nD τ).loc main_v36) ↦{fullShare.left} G 0) ∗ (((c : Thread nD τ).loc main_v36) ↦{fullShare.right} G 1)
          ∗ (((c : Thread nD τ).loc main_v41) ↦{fullShare} G 2)) := by
  unfold Dat.arrays
  have h0 : (cfg2.win 0).arr.view.set = Finset.univ := (arr_whole2 0).set_eq_univ
  have h2 : (cfg2.win 2).arr.view.set = Finset.univ := (arr_whole2 2).set_eq_univ
  rw [bigSep_W2, h0, h2, datZ_share0, datZ_share1, datZ_share2]

/-- ENTRY: the core's unscoped buffers at contents `V` are the three windows' arrays — the mean's buffer in two halves —
    and the rest. -/
theorem arrays2_split (c : Dev nD) :
    (unscopedBufs c (V c) : sProp 𝕄) ⊢ iprop((datZ V c).arrays ((datZ V c).arrAt · 0) ∗ Pipeline.unscopedRest spec2 c (V c)) := by
  rw [Pipeline.unscopedBufs_split₀ cfgs 2 winFacts₀2.arr_unscoped c (V c), arrays2_eq]
  refine sep_mono ?_ .rfl
  unfold Pipeline.arrBufs
  rw [arrRefs2, BI.bigSep_insert (by decide), BI.bigSep_singleton]
  exact (sep_mono (pointsTo_share (IsOp.posShare_halves fullShare).mem_op).1 .rfl).trans sep_assoc.1

/-- EXIT: the three windows' arrays at their final contents and the rest are the core's unscoped buffers at any
    contents `V'` that has the product's buffer at what the write-backs left and every other buffer as at entry. -/
theorem arrays2_join (c : Dev nD) (V' : (b : Ref sig .tc) → Buf (Elt F) ((c : Thread nD τ).loc b))
    (hout : (datZ V c).arrAt 2 cfg2.N = V' main_v41) (hrest : ∀ b, b ≠ main_v41 → V' b = V c b) :
    iprop((datZ V c).arrays ((datZ V c).arrAt · cfg2.N) ∗ Pipeline.unscopedRest spec2 c (V c)) ⊢ (unscopedBufs c V' : sProp 𝕄) := by
  rw [Pipeline.unscopedBufs_split₀ cfgs 2 winFacts₀2.arr_unscoped c V', arrays2_eq,
    (datZ V c).arrAt_in 0 rfl, (datZ V c).arrAt_in 1 rfl, hout]
  refine sep_mono ?_ (Entails.of_eq ?_)
  · unfold Pipeline.arrBufs
    rw [arrRefs2, BI.bigSep_insert (by decide), BI.bigSep_singleton, hrest main_v36 (by decide)]
    exact sep_assoc.2.trans (sep_mono (pointsTo_share (IsOp.posShare_halves fullShare).mem_op).2 .rfl)
  · unfold Pipeline.unscopedRest
    exact bigSep_congr fun b hb => by
      rw [hrest b fun e => (Finset.mem_sdiff.mp hb).2 (by rw [arrRefs2', e]; decide)]

end Cert.Kernel.Hand

end
-- ==== Proof.RunB.lean ====
/-
  The whole program as a run: three Pallas calls among stretches of host operations.

  Between two items of the program a core holds every buffer that outlives a kernel at known contents: the launch
  memory, then, item by item, what a host stretch computes from the contents before it, and what a Pallas call's
  write-backs leave in its output array (every other buffer as the call found it). The three calls are entered from these
  contents and left at the next ones; the run of the program is their composition, and its final memory holds every such
  buffer at the last contents.
-/
import proofs.«174434_j60601988546853_1_alg».proof.Proof.RegionB0
import proofs.«174434_j60601988546853_1_alg».proof.Proof.RegionB1
import proofs.«174434_j60601988546853_1_alg».proof.Proof.Split2B
import proofs.«174434_j60601988546853_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev mem0 : Dev nD → Valuation τ sig (Elt F) := fun c b => m (c, b)
abbrev at0 : (c : Dev nD) → (b : Ref sig .tc) → Buf (Elt F) ((c : Thread nD τ).loc b) := fun c b => mem0 m c b
/-- The first call's proof data, at the launch contents. -/
abbrev datX (c : Dev nD) : Dat τ (Elt F) Unit ℕ (UR sig nD τ) ℕ cfg0 c := dat0 (at0 m) fullShare fullShare c
/-- After the first call: its arrays at what the pipeline leaves, every other buffer as launched. -/
def mem1 (c : Dev nD) : Valuation τ sig (Elt F) :=
  Pipeline.withArrays spec0 c (mem0 m c) fun w => (datX m c).arrAt w cfg0.N
theorem mem1_arr (c : Dev nD) (w : Fin cfg0.W) :
    mem1 m c (Proc.devRef .tc (Pipeline.arrRef spec0 w)) = (datX m c).arrAt w cfg0.N := by
  unfold mem1; exact Pipeline.withArrays_arr spec0 launch0.win.arr_inj c _ _ w
theorem mem1_of_ne (c : Dev nD) (b : Ref sig .tc) (hb : ∀ w, Pipeline.arrRef spec0 w ≠ b) :
    mem1 m c (Proc.devRef .tc b) = mem0 m c (Proc.devRef .tc b) := by
  unfold mem1; exact Pipeline.withArrays_of_ne spec0 c _ _ b hb
abbrev at1 : (c : Dev nD) → (b : Ref sig .tc) → Buf (Elt F) ((c : Thread nD τ).loc b) := fun c b => mem1 m c b
/-- After the first host stretch (the first layer's sparse product and bias), -/
abbrev mem2 : Dev nD → Valuation τ sig (Elt F) := fun c => StableHlo.after hostOps1 (mem1 m c)
/-- the rectifier, -/
abbrev mem3 : Dev nD → Valuation τ sig (Elt F) := fun c => StableHlo.after hostOps1_1 (mem2 m c)
/-- and the two weight matrices laid side by side. -/
abbrev mem4 : Dev nD → Valuation τ sig (Elt F) := fun c => StableHlo.after hostOps1_2 (mem3 m c)
abbrev at4 : (c : Dev nD) → (b : Ref sig .tc) → Buf (Elt F) ((c : Thread nD τ).loc b) := fun c b => mem4 m c b
/-- The second call's proof data, at its entry contents. -/
abbrev datY (c : Dev nD) : Dat τ (Elt F) Unit ℕ (UR sig nD τ) ℕ cfg1 c := dat1 (at4 m) fullShare fullShare c
/-- After the second call. -/
def mem5 (c : Dev nD) : Valuation τ sig (Elt F) :=
  Pipeline.withArrays spec1 c (mem4 m c) fun w => (datY m c).arrAt w cfg1.N
theorem mem5_arr (c : Dev nD) (w : Fin cfg1.W) :
    mem5 m c (Proc.devRef .tc (Pipeline.arrRef spec1 w)) = (datY m c).arrAt w cfg1.N := by
  unfold mem5; exact Pipeline.withArrays_arr spec1 launch1.win.arr_inj c _ _ w
theorem mem5_of_ne (c : Dev nD) (b : Ref sig .tc) (hb : ∀ w, Pipeline.arrRef spec1 w ≠ b) :
    mem5 m c (Proc.devRef .tc b) = mem4 m c (Proc.devRef .tc b) := by
  unfold mem5; exact Pipeline.withArrays_of_ne spec1 c _ _ b hb
abbrev at5 : (c : Dev nD) → (b : Ref sig .tc) → Buf (Elt F) ((c : Thread nD τ).loc b) := fun c b => mem5 m c b
/-- After the second host stretch (the second layer's sparse product, the two column ranges and their biases). -/
abbrev mem6 : Dev nD → Valuation τ sig (Elt F) := fun c => StableHlo.after hostOps2 (mem5 m c)
abbrev at6 : (c : Dev nD) → (b : Ref sig .tc) → Buf (Elt F) ((c : Thread nD τ).loc b) := fun c b => mem6 m c b
/-- After the third call: the product's buffer at what the write-backs leave, every other buffer as the call found it. -/
def mem7 (c : Dev nD) : Valuation τ sig (Elt F) :=
  Function.update (mem6 m c) (Proc.devRef .tc main_v41) ((datZ (at6 m) c).arrAt 2 cfg2.N)
abbrev at7 : (c : Dev nD) → (b : Ref sig .tc) → Buf (Elt F) ((c : Thread nD τ).loc b) := fun c b => mem7 m c b
theorem mem7_out (c : Dev nD) : mem7 m c (Proc.devRef .tc main_v41) = (datZ (at6 m) c).arrAt 2 cfg2.N := by
  unfold mem7; exact Function.update_self ..
theorem mem7_of_ne (c : Dev nD) (b : Ref sig .tc) (hb : b ≠ main_v41) :
    mem7 m c (Proc.devRef .tc b) = mem6 m c (Proc.devRef .tc b) := by
  unfold mem7; exact Function.update_of_ne (StableHlo.devRef_ne_of_ne hb) ..

theorem datX_share (c : Dev nD) (w : Fin cfg0.W) : (datX m c).share w = fullShare :=
  (datX m c).share_full (fun w => by match w with | ⟨0, _⟩ => rfl | ⟨1, _⟩ => rfl | ⟨2, _⟩ => rfl) w
theorem datY_share (c : Dev nD) (w : Fin cfg1.W) : (datY m c).share w = fullShare :=
  (datY m c).share_full (fun w => by match w with | ⟨0, _⟩ => rfl | ⟨1, _⟩ => rfl | ⟨2, _⟩ => rfl) w

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => datX m c
  | ⟨1, _⟩ => fun c => datY m c
  | ⟨2, _⟩ => fun c => datZ (at6 m) c
abbrev noVariants : Variants := Variants.none
abbrev noLevels : GSem nD τ sig → Finset Unit := fun _ => ∅
abbrev levelOf : GSem nD τ sig → Unit → ℕ := fun _ _ => 0
/-- What rides beside the buffers through every item: the generator register at some state, and nothing owed. -/
abbrev riding (c : Dev nD) : sProp 𝕄 := iprop((∃ r, prngReg c r) ∗ ∃ W, owes (c : Thread nD τ) (0 : CellTallies nD τ sig Unit) W)
/-- A host stretch as a segment, from the contents before it. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every buffer at the last contents, the generator register at some state. -/
abbrev lastState (c : Dev nD) : sProp 𝕄 := iprop(StableHlo.held (c : Thread nD τ) (Pipeline.ucRefs τ sig) (mem7 m c) ∗ ∃ r, prngReg c r)

theorem exitX (c : Dev nD) (w : Fin cfg0.W) : (datX m c).arrAt w cfg0.N = at1 m c (Pipeline.arrRef spec0 w) := (mem1_arr m c w).symm
theorem restX (c : Dev nD) : ∀ b, b ∉ Finset.univ.image (Pipeline.arrRef spec0) → at1 m c b = at0 m c b :=
  fun b hb => mem1_of_ne m c b fun w e => hb (Finset.mem_image.mpr ⟨w, Finset.mem_univ _, e⟩)
theorem exitY (c : Dev nD) (w : Fin cfg1.W) : (datY m c).arrAt w cfg1.N = at5 m c (Pipeline.arrRef spec1 w) := (mem5_arr m c w).symm
theorem restY (c : Dev nD) : ∀ b, b ∉ Finset.univ.image (Pipeline.arrRef spec1) → at5 m c b = at4 m c b :=
  fun b hb => mem5_of_ne m c b fun w e => hb (Finset.mem_image.mpr ⟨w, Finset.mem_univ _, e⟩)

/-! ## The calls as segments -/

set_option backward.isDefEq.respectTransparency.types false in
/-- The first call: entered from the launch contents, left at `mem1`. -/
def callX : Pipeline.RegionSeg (pcfgs (F := F)) adm (pdats m) () defs₀ noVariants noLevels levelOf 0 where
  win := launch0.win.to₀
  block_pos := launch0.block_pos
  stage_whole := launch0.stage_whole
  K := PEmpty
  osem k := k.elim
  ho := Pipeline.OwnSemFacts.none _
  hbody c := (bodyObligation0 (at0 m) fullShare fullShare c).loose
  hwaits := Pipeline.hwaits_of_owed_zero _ _ _ _ noLevels levelOf 0 fun _ _ => rfl
  pre c := iprop(StableHlo.held (c : Thread nD τ) (Pipeline.ucRefs τ sig) (mem0 m c) ∗ riding c)
  post c := iprop(StableHlo.held (c : Thread nD τ) (Pipeline.ucRefs τ sig) (mem1 m c) ∗ riding c)
  X c := iprop(∃ r, prngReg c r)
  Y c := iprop(∃ r, prngReg c r)
  Z c := Pipeline.unscopedRest (Ix := Unit) (Name := ℕ) (U := UR sig nD τ) (Lvl := ℕ) spec0 c (at0 m c)
  hentry c := by
    rw [Pipeline.ownSems0_none]
    have hsplit := Pipeline.arrays_of_unscopedBufs (p := 0) (pcfgs (F := F)) adm (pdats m) launch0.win launch0.arr_whole c
      (datX_share m c) (at0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) (datX_share m c)
      (at0 m c) (at1 m c) ((pdats m 0 c).arrAt · cfg0.N) (exitX m c) (restX m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from `mem4`, left at `mem5`. -/
def callY : Pipeline.RegionSeg (pcfgs (F := F)) adm (pdats m) () defs₀ noVariants noLevels levelOf 1 where
  win := launch1.win.to₀
  block_pos := launch1.block_pos
  stage_whole := launch1.stage_whole
  K := PEmpty
  osem k := k.elim
  ho := Pipeline.OwnSemFacts.none _
  hbody c := (bodyObligation1 (at4 m) fullShare fullShare c).loose
  hwaits := Pipeline.hwaits_of_owed_zero _ _ _ _ noLevels levelOf 1 fun _ _ => rfl
  pre c := iprop(StableHlo.held (c : Thread nD τ) (Pipeline.ucRefs τ sig) (mem4 m c) ∗ riding c)
  post c := iprop(StableHlo.held (c : Thread nD τ) (Pipeline.ucRefs τ sig) (mem5 m c) ∗ riding c)
  X c := iprop(∃ r, prngReg c r)
  Y c := iprop(∃ r, prngReg c r)
  Z c := Pipeline.unscopedRest (Ix := Unit) (Name := ℕ) (U := UR sig nD τ) (Lvl := ℕ) spec1 c (at4 m c)
  hentry c := by
    rw [Pipeline.ownSems0_none]
    have hsplit := Pipeline.arrays_of_unscopedBufs (p := 1) (pcfgs (F := F)) adm (pdats m) launch1.win launch1.arr_whole c
      (datY_share m c) (at4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) (datY_share m c)
      (at4 m c) (at5 m c) ((pdats m 1 c).arrAt · cfg1.N) (exitY m c) (restY m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call: entered from `mem6`, left at `mem7`; the mean's buffer goes in as two halves and comes back whole. -/
def callZ : Pipeline.RegionSeg (pcfgs (F := F)) adm (pdats m) () defs₀ noVariants noLevels levelOf 2 where
  win := winFacts₀2
  block_pos := block_pos2
  stage_whole := stage_whole2
  K := PEmpty
  osem k := k.elim
  ho := Pipeline.OwnSemFacts.none _
  hbody c := (bodyObligation2 (at6 m) fullShare.left fullShare.right c).loose
  hwaits := Pipeline.hwaits_of_owed_zero _ _ _ _ noLevels levelOf 2 fun _ _ => rfl
  pre c := iprop(StableHlo.held (c : Thread nD τ) (Pipeline.ucRefs τ sig) (mem6 m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (at6 m c)
  hentry c := by
    rw [Pipeline.ownSems0_none]
    have hsplit := arrays2_split (at6 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest (Ix := Unit) (Name := ℕ) (U := UR sig nD τ) (Lvl := ℕ) spec2 c (at6 m c))
        ⊢ (unscopedBufs c (at7 m c) : sProp 𝕄) :=
      arrays2_join (at6 m) c (at7 m c) (mem7_out m c).symm (fun b hb => mem7_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev items : List (Pipeline.Seg (pcfgs (F := F)) adm (pdats m) () defs₀ noVariants noLevels levelOf) :=
  [ .region (callX m),
    .host (hostItem hostOps1 hostOps1_sub hostOps1_fresh (mem1 m)),
    .host (hostItem hostOps1_1 hostOps1_1_sub hostOps1_1_fresh (mem2 m)),
    .host (hostItem hostOps1_2 hostOps1_2_sub hostOps1_2_fresh (mem3 m)),
    .region (callY m),
    .host (hostItem hostOps2 hostOps2_sub hostOps2_fresh (mem5 m)),
    .region (callZ m) ]

theorem main_items (c : Dev nD) : main (F := F) c = Pipeline.Seg.run (items m) := (main_chain c).trans (by chain_rfl)

set_option backward.isDefEq.respectTransparency.types false in
/-- THE RUN: from any memory with zero counters every weakly fair execution of the program terminates, nothing
    faulting, and the final memory holds every buffer that outlives a kernel at the last contents `mem7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = mem7 m c b) :=
  Pipeline.θ_run_regions_kit (pcfgs (F := F)) adm (pdats m) () cellOf_inj emb₁ defs₀ noVariants noLevels levelOf m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ riding c)) (Tₙ := lastState m)
    (hch := ⟨fun _ => .rfl, fun _ => .rfl, fun _ => .rfl, fun _ => .rfl, fun _ => .rfl, fun _ => .rfl, fun _ => .rfl, fun _ => .rfl⟩)
    (hinit := by
      refine Pipeline.initEach noLevels levelOf fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem7 m c b)
    (hfin := fun c s' => by
      iintro ⟨⟨Hh, -⟩, HSI⟩
      unfold StableHlo.held
      imodintro
      iapply (pointsTo_read_all (Pipeline.ucRefs τ sig) (fun b => (((c : Thread nD τ)).1, b)) (mem7 m c) s')
      isplitl [Hh] <;> iassumption)
    (hQ := fun s h => h)

/-! ## No item writes an argument -/

/-- Past the second call nothing but the second host stretch and the third call's output changes. -/
theorem mem7_keep (c : Dev nD) (r : Ref sig .tc) (h41 : r ≠ main_v41) (h2 : r ∉ hostOps2_W) : mem7 m c r = mem5 m c r :=
  (mem7_of_ne m c r h41).trans (StableHlo.after_of_writes_sub hostOps2 _ hostOps2_writes h2)
/-- Between the first call and the second call's exit only the first three host stretches and the second call's
    arrays change. -/
theorem mem5_keep (c : Dev nD) (r : Ref sig .tc) (hY : ∀ w, Pipeline.arrRef spec1 w ≠ r) (h12 : r ∉ hostOps1_2_W)
    (h11 : r ∉ hostOps1_1_W) (h1 : r ∉ hostOps1_W) : mem5 m c r = mem1 m c r :=
  (mem5_of_ne m c r hY).trans <| (StableHlo.after_of_writes_sub hostOps1_2 _ hostOps1_2_writes h12).trans <|
    (StableHlo.after_of_writes_sub hostOps1_1 _ hostOps1_1_writes h11).trans (StableHlo.after_of_writes_sub hostOps1 _ hostOps1_writes h1)
/-- An input window's array of the first call is left as launched. -/
theorem mem1_in (c : Dev nD) (w : Fin cfg0.W) (hin : (cfg0.win w).isOut = false) :
    mem1 m c (Proc.devRef .tc (Pipeline.arrRef spec0 w)) = m ((c : Thread nD τ).loc (Pipeline.arrRef spec0 w)) :=
  (mem1_arr m c w).trans (((datX m c).arrAt_in w hin _).trans (dat0_A (at0 m) fullShare fullShare c w))
theorem mem7_main_arg0 (c : Dev nD) : mem7 m c main_arg0 = m ((c : Thread nD τ).loc main_arg0) :=
  (mem7_keep m c main_arg0 (by decide) (by decide)).trans <| (mem5_keep m c main_arg0 (by decide) (by decide) (by decide) (by decide)).trans (mem1_in m c 0 rfl)
theorem mem7_main_arg1 (c : Dev nD) : mem7 m c main_arg1 = m ((c : Thread nD τ).loc main_arg1) :=
  (mem7_keep m c main_arg1 (by decide) (by decide)).trans <| (mem5_keep m c main_arg1 (by decide) (by decide) (by decide) (by decide)).trans ((mem1_of_ne m c main_arg1 (by decide)).trans rfl)
theorem mem7_main_arg2 (c : Dev nD) : mem7 m c main_arg2 = m ((c : Thread nD τ).loc main_arg2) :=
  (mem7_keep m c main_arg2 (by decide) (by decide)).trans <| (mem5_keep m c main_arg2 (by decide) (by decide) (by decide) (by decide)).trans ((mem1_of_ne m c main_arg2 (by decide)).trans rfl)
theorem mem7_main_arg3 (c : Dev nD) : mem7 m c main_arg3 = m ((c : Thread nD τ).loc main_arg3) :=
  (mem7_keep m c main_arg3 (by decide) (by decide)).trans <| (mem5_keep m c main_arg3 (by decide) (by decide) (by decide) (by decide)).trans ((mem1_of_ne m c main_arg3 (by decide)).trans rfl)
theorem mem7_main_arg4 (c : Dev nD) : mem7 m c main_arg4 = m ((c : Thread nD τ).loc main_arg4) :=
  (mem7_keep m c main_arg4 (by decide) (by decide)).trans <| (mem5_keep m c main_arg4 (by decide) (by decide) (by decide) (by decide)).trans (mem1_in m c 1 rfl)
theorem mem7_main_arg5 (c : Dev nD) : mem7 m c main_arg5 = m ((c : Thread nD τ).loc main_arg5) :=
  (mem7_keep m c main_arg5 (by decide) (by decide)).trans <| (mem5_keep m c main_arg5 (by decide) (by decide) (by decide) (by decide)).trans ((mem1_of_ne m c main_arg5 (by decide)).trans rfl)
theorem mem7_main_arg6 (c : Dev nD) : mem7 m c main_arg6 = m ((c : Thread nD τ).loc main_arg6) :=
  (mem7_keep m c main_arg6 (by decide) (by decide)).trans <| (mem5_keep m c main_arg6 (by decide) (by decide) (by decide) (by decide)).trans ((mem1_of_ne m c main_arg6 (by decide)).trans rfl)
theorem mem7_main_arg7 (c : Dev nD) : mem7 m c main_arg7 = m ((c : Thread nD τ).loc main_arg7) :=
  (mem7_keep m c main_arg7 (by decide) (by decide)).trans <| (mem5_keep m c main_arg7 (by decide) (by decide) (by decide) (by decide)).trans ((mem1_of_ne m c main_arg7 (by decide)).trans rfl)
theorem mem7_main_arg8 (c : Dev nD) : mem7 m c main_arg8 = m ((c : Thread nD τ).loc main_arg8) :=
  (mem7_keep m c main_arg8 (by decide) (by decide)).trans <| (mem5_keep m c main_arg8 (by decide) (by decide) (by decide) (by decide)).trans ((mem1_of_ne m c main_arg8 (by decide)).trans rfl)
theorem mem7_main_arg9 (c : Dev nD) : mem7 m c main_arg9 = m ((c : Thread nD τ).loc main_arg9) :=
  (mem7_keep m c main_arg9 (by decide) (by decide)).trans <| (mem5_keep m c main_arg9 (by decide) (by decide) (by decide) (by decide)).trans ((mem1_of_ne m c main_arg9 (by decide)).trans rfl)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (mem7_main_arg0 m c),
      (h c _ (mem_uc main_arg1 (by decide))).trans (mem7_main_arg1 m c),
      (h c _ (mem_uc main_arg2 (by decide))).trans (mem7_main_arg2 m c),
      (h c _ (mem_uc main_arg3 (by decide))).trans (mem7_main_arg3 m c),
      (h c _ (mem_uc main_arg4 (by decide))).trans (mem7_main_arg4 m c),
      (h c _ (mem_uc main_arg5 (by decide))).trans (mem7_main_arg5 m c),
      (h c _ (mem_uc main_arg6 (by decide))).trans (mem7_main_arg6 m c),
      (h c _ (mem_uc main_arg7 (by decide))).trans (mem7_main_arg7 m c),
      (h c _ (mem_uc main_arg8 (by decide))).trans (mem7_main_arg8 m c),
      (h c _ (mem_uc main_arg9 (by decide))).trans (mem7_main_arg9 m c)⟩) (run m ρ)

end Cert.Kernel.Hand

end
-- ==== Proof.RegionI0.lean ====
/-
  Pallas call 0 of the program (`cc0__matmul_kernel`): what one run of the kernel body does to its three windows' buffers.

  The body reads its two input windows whole, forms one matrix product, and stores it over the whole output window. So,
  whatever the output window's buffer held before, after the body it holds the product of the two input blocks, and the
  input windows' buffers are as they were. From this the pipeline's proof data follow: after the body at grid point `t`
  each input window's buffer holds that window's block of its array at `t`, and the output window's buffer holds the
  product of those two blocks; nothing is owed to any other core, and every array is held at the share `q` names.
-/
import proofs.«174434_j60601988546853_1_alg».proof.Proof.Gen.KernelIdeal.Launch
import proofs.«174434_j60601988546853_1_alg».proof.Proof.Gen.KernelIdeal.Skeleton
import proofs.«174434_j60601988546853_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the shares at which the two input windows' arrays are held
variable (q0 q1 : PosShare TreeShare)

/-- Window `w`'s block at grid point `t`, read off its array as the region finds it. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rectangle the body's one store writes: the whole output window. -/
abbrev storeRect0 : Rect S2048x256 := Rect.unit (s := S2048x256) ![0, 0] S2048x256.size inb_S2048x256_S2048x256_0_0

/-- The output window's buffer after the body: its one store, of the product of the two input blocks. -/
def product0 (x0 : Vec F S2048x512 .f32) (x1 : Vec F S512x256 .f32) : Vec F S2048x256 .f32 :=
  View.canon [⟨storeRect0, k0_pay1 (View.ld x0 (Rect.unit (s := S2048x512) ![0, 0] S2048x512.size inb_S2048x512_S2048x512_0_0))
    (View.ld x1 (Rect.unit (s := S512x256) ![0, 0] S512x256.size inb_S512x256_S512x256_0_0))⟩]

/-- The store covers the whole output window. -/
theorem storeCovers0 (p0 : Vec F S2048x256 .f32) (y : S2048x256.Idx) :
    ∃ pc ∈ ([⟨storeRect0, p0⟩] : List (View.Piece (Elt F) S2048x256 .f32)), y ∈ pc.1.set :=
  View.cover_of_tiled [⟨storeRect0, p0⟩] S2048x256.size (by rfl) y

set_option maxHeartbeats 1000000 in
/-- The body on whole buffers — the inputs' at contents `x0`, `x1`, the output's at anything — ends with the inputs'
    as they were and the output's at the product. -/
theorem bodyRuns0 (c : Dev nD) (E : Set ℕ) (i : grid0.Coords) (a0 : Memref sig .tc .vmem S2048x512 .f32) (h0 : a0.IsWhole)
    (a1 : Memref sig .tc .vmem S512x256 .f32) (h1 : a1.IsWhole) (a2 : Memref sig .tc .vmem S2048x256 .f32) (h2 : a2.IsWhole)
    (x0 : Vec F S2048x512 .f32) (x1 : Vec F S512x256 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (product0 x0 x1)) -∗ K ⟨⟩))
      ⊢ wp frame (wpE (defs₀ (F := F)) Variants.none c none) E (cc0__matmul_kernel i a0 h0 a1 h1 a2 h2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCovers0 _)

/-- The proof data of the pipeline on core `c`. -/
def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => product0 (blockAt0 V c 0 t) (blockAt0 V c 1 t)
  Φ _ := Pipeline.ΦA spec0 c
  q w := match w with
    | ⟨0, _⟩ => q0
    | ⟨1, _⟩ => q1
    | ⟨2, _⟩ => fullShare
  owed _ := 0

theorem dat0_A (c : Dev nD) (w : Fin cfg0.W) : (dat0 V q0 q1 c).A w = V c (Pipeline.arrRef spec0 w) := by
  dsimp only [dat0]

theorem dat0_after0 (c : Dev nD) (t : Fin cfg0.N) : (dat0 V q0 q1 c).after 0 t = blockAt0 V c 0 t := by dsimp only [dat0]
theorem dat0_after1 (c : Dev nD) (t : Fin cfg0.N) : (dat0 V q0 q1 c).after 1 t = blockAt0 V c 1 t := by dsimp only [dat0]
theorem dat0_after2 (c : Dev nD) (t : Fin cfg0.N) :
    (dat0 V q0 q1 c).after 2 t = product0 (blockAt0 V c 0 t) (blockAt0 V c 1 t) := by dsimp only [dat0]

/-- An input window's current buffer holds its block at every point, whether the pipeline fetched it there or not. -/
theorem dat0_before0 (c : Dev nD) (t : Fin cfg0.N) (d) : (dat0 V q0 q1 c).before 0 t d = blockAt0 V c 0 t :=
  ((dat0 V q0 q1 c).before_in_eq_fetched 0 rfl (fun _ => rfl) (fun _ _ _ => rfl)
      (fun t => by rw [dat0_after0]; unfold Dat.blockOf blockAt0; rw [dat0_A]; try rfl) t d).trans
    (by unfold Dat.fetched Dat.blockOf blockAt0; rw [dat0_A]; try rfl)
theorem dat0_before1 (c : Dev nD) (t : Fin cfg0.N) (d) : (dat0 V q0 q1 c).before 1 t d = blockAt0 V c 1 t :=
  ((dat0 V q0 q1 c).before_in_eq_fetched 1 rfl (fun _ => rfl) (fun _ _ _ => rfl)
      (fun t => by rw [dat0_after1]; unfold Dat.blockOf blockAt0; rw [dat0_A]; try rfl) t d).trans
    (by unfold Dat.fetched Dat.blockOf blockAt0; rw [dat0_A]; try rfl)

/-- What the body is called with at point `t`, the windows one by one, -/
def entry0 (c : Dev nD) (t : Fin cfg0.N) : sProp 𝕄 :=
  iprop((dat0 V q0 q1 c).Φ t.castSucc ∗ (dat0 V q0 q1 c).owesAt () t.castSucc
    ∗ (∃ d, owns (c : Thread nD τ) (st0_0 t) fullShare ((dat0 V q0 q1 c).before 0 t d))
    ∗ (∃ d, owns (c : Thread nD τ) (st0_1 t) fullShare ((dat0 V q0 q1 c).before 1 t d))
    ∗ (∃ d, owns (c : Thread nD τ) (st0_2 t) fullShare ((dat0 V q0 q1 c).before 2 t d)))

/-- and what it returns. -/
def exit0 (c : Dev nD) (t : Fin cfg0.N) : sProp 𝕄 :=
  iprop((dat0 V q0 q1 c).Φ t.succ ∗ (dat0 V q0 q1 c).owesAt () t.succ
    ∗ owns (c : Thread nD τ) (st0_0 t) fullShare ((dat0 V q0 q1 c).after 0 t)
    ∗ owns (c : Thread nD τ) (st0_1 t) fullShare ((dat0 V q0 q1 c).after 1 t)
    ∗ owns (c : Thread nD τ) (st0_2 t) fullShare ((dat0 V q0 q1 c).after 2 t))

/-- The body at any point: the input buffers hold their blocks, so `bodyRuns0` applies; the invariant and what the
    core owes pass through unread. -/
theorem bodyAtPoint0 (c : Dev nD) (t : Fin cfg0.N) :
    entry0 V q0 q1 c t ⊢ wp frame (wpE (defs₀ (F := F)) Variants.none c none) Set.univ (bodyAt0 t) (fun _ => exit0 V q0 q1 c t) := by
  unfold entry0 exit0 bodyAt0
  simp only [dat0_before0, dat0_before1]
  rw [show (dat0 V q0 q1 c).Φ t.succ = (dat0 V q0 q1 c).Φ t.castSucc from rfl,
    show (dat0 V q0 q1 c).owesAt () t.succ = (dat0 V q0 q1 c).owesAt () t.castSucc from rfl,
    dat0_after0, dat0_after1, dat0_after2]
  iintro ⟨HΦ, Ho, ⟨%d0, H0⟩, ⟨%d1, H1⟩, ⟨%d2, H2⟩⟩
  iapply (bodyRuns0 c Set.univ _ _ _ _ _ _ _ (blockAt0 V c 0 t) (blockAt0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem bodyObligation0 (c : Dev nD) : BodyObligation (dat0 (F := F) V q0 q1 c) (defs₀ (F := F)) Variants.none () Set.univ := fun t => by
  rw [bigSep_W0, bigSep_W0]
  exact bodyAtPoint0 V q0 q1 c t

end Cert.KernelIdeal.Hand

end
-- ==== Proof.RegionI1.lean ====
/-
  Pallas call 1 of the program (`cc1__matmul_kernel`): what one run of the kernel body does to its three windows' buffers.

  The body reads its two input windows whole, forms one matrix product, and stores it over the whole output window. So,
  whatever the output window's buffer held before, after the body it holds the product of the two input blocks, and the
  input windows' buffers are as they were. From this the pipeline's proof data follow: after the body at grid point `t`
  each input window's buffer holds that window's block of its array at `t`, and the output window's buffer holds the
  product of those two blocks; nothing is owed to any other core, and every array is held at the share `q` names.
-/
import proofs.«174434_j60601988546853_1_alg».proof.Proof.Gen.KernelIdeal.Launch
import proofs.«174434_j60601988546853_1_alg».proof.Proof.Gen.KernelIdeal.Skeleton
import proofs.«174434_j60601988546853_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the shares at which the two input windows' arrays are held
variable (q0 q1 : PosShare TreeShare)

/-- Window `w`'s block at grid point `t`, read off its array as the region finds it. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangle the body's one store writes: the whole output window. -/
abbrev storeRect1 : Rect S2048x128 := Rect.unit (s := S2048x128) ![0, 0] S2048x128.size inb_S2048x128_S2048x128_0_0

/-- The output window's buffer after the body: its one store, of the product of the two input blocks. -/
def product1 (x0 : Vec F S2048x256 .f32) (x1 : Vec F S256x128 .f32) : Vec F S2048x128 .f32 :=
  View.canon [⟨storeRect1, k1_pay1 (View.ld x0 (Rect.unit (s := S2048x256) ![0, 0] S2048x256.size inb_S2048x256_S2048x256_0_0))
    (View.ld x1 (Rect.unit (s := S256x128) ![0, 0] S256x128.size inb_S256x128_S256x128_0_0))⟩]

/-- The store covers the whole output window. -/
theorem storeCovers1 (p0 : Vec F S2048x128 .f32) (y : S2048x128.Idx) :
    ∃ pc ∈ ([⟨storeRect1, p0⟩] : List (View.Piece (Elt F) S2048x128 .f32)), y ∈ pc.1.set :=
  View.cover_of_tiled [⟨storeRect1, p0⟩] S2048x128.size (by rfl) y

set_option maxHeartbeats 1000000 in
/-- The body on whole buffers — the inputs' at contents `x0`, `x1`, the output's at anything — ends with the inputs'
    as they were and the output's at the product. -/
theorem bodyRuns1 (c : Dev nD) (E : Set ℕ) (i : grid1.Coords) (a0 : Memref sig .tc .vmem S2048x256 .f32) (h0 : a0.IsWhole)
    (a1 : Memref sig .tc .vmem S256x128 .f32) (h1 : a1.IsWhole) (a2 : Memref sig .tc .vmem S2048x128 .f32) (h2 : a2.IsWhole)
    (x0 : Vec F S2048x256 .f32) (x1 : Vec F S256x128 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (product1 x0 x1)) -∗ K ⟨⟩))
      ⊢ wp frame (wpE (defs₀ (F := F)) Variants.none c none) E (cc1__matmul_kernel i a0 h0 a1 h1 a2 h2) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCovers1 _)

/-- The proof data of the pipeline on core `c`. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => product1 (blockAt1 V c 0 t) (blockAt1 V c 1 t)
  Φ _ := Pipeline.ΦA spec1 c
  q w := match w with
    | ⟨0, _⟩ => q0
    | ⟨1, _⟩ => q1
    | ⟨2, _⟩ => fullShare
  owed _ := 0

theorem dat1_A (c : Dev nD) (w : Fin cfg1.W) : (dat1 V q0 q1 c).A w = V c (Pipeline.arrRef spec1 w) := by
  dsimp only [dat1]

theorem dat1_after0 (c : Dev nD) (t : Fin cfg1.N) : (dat1 V q0 q1 c).after 0 t = blockAt1 V c 0 t := by dsimp only [dat1]
theorem dat1_after1 (c : Dev nD) (t : Fin cfg1.N) : (dat1 V q0 q1 c).after 1 t = blockAt1 V c 1 t := by dsimp only [dat1]
theorem dat1_after2 (c : Dev nD) (t : Fin cfg1.N) :
    (dat1 V q0 q1 c).after 2 t = product1 (blockAt1 V c 0 t) (blockAt1 V c 1 t) := by dsimp only [dat1]

/-- An input window's current buffer holds its block at every point, whether the pipeline fetched it there or not. -/
theorem dat1_before0 (c : Dev nD) (t : Fin cfg1.N) (d) : (dat1 V q0 q1 c).before 0 t d = blockAt1 V c 0 t :=
  ((dat1 V q0 q1 c).before_in_eq_fetched 0 rfl (fun _ => rfl) (fun _ _ _ => rfl)
      (fun t => by rw [dat1_after0]; unfold Dat.blockOf blockAt1; rw [dat1_A]; try rfl) t d).trans
    (by unfold Dat.fetched Dat.blockOf blockAt1; rw [dat1_A]; try rfl)
theorem dat1_before1 (c : Dev nD) (t : Fin cfg1.N) (d) : (dat1 V q0 q1 c).before 1 t d = blockAt1 V c 1 t :=
  ((dat1 V q0 q1 c).before_in_eq_fetched 1 rfl (fun _ => rfl) (fun _ _ _ => rfl)
      (fun t => by rw [dat1_after1]; unfold Dat.blockOf blockAt1; rw [dat1_A]; try rfl) t d).trans
    (by unfold Dat.fetched Dat.blockOf blockAt1; rw [dat1_A]; try rfl)

/-- What the body is called with at point `t`, the windows one by one, -/
def entry1 (c : Dev nD) (t : Fin cfg1.N) : sProp 𝕄 :=
  iprop((dat1 V q0 q1 c).Φ t.castSucc ∗ (dat1 V q0 q1 c).owesAt () t.castSucc
    ∗ (∃ d, owns (c : Thread nD τ) (st1_0 t) fullShare ((dat1 V q0 q1 c).before 0 t d))
    ∗ (∃ d, owns (c : Thread nD τ) (st1_1 t) fullShare ((dat1 V q0 q1 c).before 1 t d))
    ∗ (∃ d, owns (c : Thread nD τ) (st1_2 t) fullShare ((dat1 V q0 q1 c).before 2 t d)))

/-- and what it returns. -/
def exit1 (c : Dev nD) (t : Fin cfg1.N) : sProp 𝕄 :=
  iprop((dat1 V q0 q1 c).Φ t.succ ∗ (dat1 V q0 q1 c).owesAt () t.succ
    ∗ owns (c : Thread nD τ) (st1_0 t) fullShare ((dat1 V q0 q1 c).after 0 t)
    ∗ owns (c : Thread nD τ) (st1_1 t) fullShare ((dat1 V q0 q1 c).after 1 t)
    ∗ owns (c : Thread nD τ) (st1_2 t) fullShare ((dat1 V q0 q1 c).after 2 t))

/-- The body at any point: the input buffers hold their blocks, so `bodyRuns1` applies; the invariant and what the
    core owes pass through unread. -/
theorem bodyAtPoint1 (c : Dev nD) (t : Fin cfg1.N) :
    entry1 V q0 q1 c t ⊢ wp frame (wpE (defs₀ (F := F)) Variants.none c none) Set.univ (bodyAt1 t) (fun _ => exit1 V q0 q1 c t) := by
  unfold entry1 exit1 bodyAt1
  simp only [dat1_before0, dat1_before1]
  rw [show (dat1 V q0 q1 c).Φ t.succ = (dat1 V q0 q1 c).Φ t.castSucc from rfl,
    show (dat1 V q0 q1 c).owesAt () t.succ = (dat1 V q0 q1 c).owesAt () t.castSucc from rfl,
    dat1_after0, dat1_after1, dat1_after2]
  iintro ⟨HΦ, Ho, ⟨%d0, H0⟩, ⟨%d1, H1⟩, ⟨%d2, H2⟩⟩
  iapply (bodyRuns1 c Set.univ _ _ _ _ _ _ _ (blockAt1 V c 0 t) (blockAt1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem bodyObligation1 (c : Dev nD) : BodyObligation (dat1 (F := F) V q0 q1 c) (defs₀ (F := F)) Variants.none () Set.univ := fun t => by
  rw [bigSep_W1, bigSep_W1]
  exact bodyAtPoint1 V q0 q1 c t

end Cert.KernelIdeal.Hand

end
-- ==== Proof.RegionI2.lean ====
/-
  Pallas call 2 of the program (`cc2__zzt_kernel`): what one run of the kernel body does to its three windows' buffers.

  The body reads its two input windows whole, forms one matrix product, and stores it over the whole output window. So,
  whatever the output window's buffer held before, after the body it holds the product of the two input blocks, and the
  input windows' buffers are as they were. From this the pipeline's proof data follow: after the body at grid point `t`
  each input window's buffer holds that window's block of its array at `t`, and the output window's buffer holds the
  product of those two blocks; nothing is owed to any other core, and every array is held at the share `q` names.
-/
import proofs.«174434_j60601988546853_1_alg».proof.Proof.Gen.KernelIdeal.Launch
import proofs.«174434_j60601988546853_1_alg».proof.Proof.Gen.KernelIdeal.Skeleton
import proofs.«174434_j60601988546853_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))
-- the shares at which the two input windows' arrays are held
variable (q0 q1 : PosShare TreeShare)

/-- Window `w`'s block at grid point `t`, read off its array as the region finds it. -/
def blockAt2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The rectangle the body's one store writes: the whole output window. -/
abbrev storeRect2 : Rect S2048x2048 := Rect.unit (s := S2048x2048) ![0, 0] S2048x2048.size inb_S2048x2048_S2048x2048_0_0

/-- The output window's buffer after the body: its one store, of the product of the two input blocks. -/
def product2 (x0 : Vec F S2048x64 .f32) (x1 : Vec F S2048x64 .f32) : Vec F S2048x2048 .f32 :=
  View.canon [⟨storeRect2, k2_pay1 (View.ld x0 (Rect.unit (s := S2048x64) ![0, 0] S2048x64.size inb_S2048x64_S2048x64_0_0))
    (View.ld x1 (Rect.unit (s := S2048x64) ![0, 0] S2048x64.size inb_S2048x64_S2048x64_0_0))⟩]

/-- The store covers the whole output window. -/
theorem storeCovers2 (p0 : Vec F S2048x2048 .f32) (y : S2048x2048.Idx) :
    ∃ pc ∈ ([⟨storeRect2, p0⟩] : List (View.Piece (Elt F) S2048x2048 .f32)), y ∈ pc.1.set :=
  View.cover_of_tiled [⟨storeRect2, p0⟩] S2048x2048.size (by rfl) y

set_option maxHeartbeats 1000000 in
/-- The body on whole buffers — the inputs' at contents `x0`, `x1`, the output's at anything — ends with the inputs'
    as they were and the output's at the product. -/
theorem bodyRuns2 (c : Dev nD) (E : Set ℕ) (i : grid2.Coords) (a0 : Memref sig .tc .vmem S2048x64 .f32) (h0 : a0.IsWhole)
    (a1 : Memref sig .tc .vmem S2048x64 .f32) (h1 : a1.IsWhole) (a2 : Memref sig .tc .vmem S2048x2048 .f32) (h2 : a2.IsWhole)
    (x0 : Vec F S2048x64 .f32) (x1 : Vec F S2048x64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1
            ∗ owns (c : Thread nD τ) a2 fullShare (product2 x0 x1)) -∗ K ⟨⟩))
      ⊢ wp frame (wpE (defs₀ (F := F)) Variants.none c none) E (cc2__zzt_kernel i a0 h0 a1 h1 a2 h2) K := by
  simp only [cc2__zzt_kernel_eq_skeleton]; unfold cc2__zzt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (storeCovers2 _)

/-- The proof data of the pipeline on core `c`. -/
def dat2 (c : Dev nD) : Dat τ (Elt F) Unit ℕ (UR sig nD τ) ℕ cfg2 c where
  A w := V c (Pipeline.arrRef spec2 w)
  after w t := match w with
    | ⟨0, _⟩ => blockAt2 V c 0 t
    | ⟨1, _⟩ => blockAt2 V c 1 t
    | ⟨2, _⟩ => product2 (blockAt2 V c 0 t) (blockAt2 V c 1 t)
  Φ _ := Pipeline.ΦA spec2 c
  q w := match w with
    | ⟨0, _⟩ => q0
    | ⟨1, _⟩ => q1
    | ⟨2, _⟩ => fullShare
  owed _ := 0

theorem dat2_A (c : Dev nD) (w : Fin cfg2.W) : (dat2 V q0 q1 c).A w = V c (Pipeline.arrRef spec2 w) := by
  dsimp only [dat2]

theorem dat2_after0 (c : Dev nD) (t : Fin cfg2.N) : (dat2 V q0 q1 c).after 0 t = blockAt2 V c 0 t := by dsimp only [dat2]
theorem dat2_after1 (c : Dev nD) (t : Fin cfg2.N) : (dat2 V q0 q1 c).after 1 t = blockAt2 V c 1 t := by dsimp only [dat2]
theorem dat2_after2 (c : Dev nD) (t : Fin cfg2.N) :
    (dat2 V q0 q1 c).after 2 t = product2 (blockAt2 V c 0 t) (blockAt2 V c 1 t) := by dsimp only [dat2]

/-- An input window's current buffer holds its block at every point, whether the pipeline fetched it there or not. -/
theorem dat2_before0 (c : Dev nD) (t : Fin cfg2.N) (d) : (dat2 V q0 q1 c).before 0 t d = blockAt2 V c 0 t :=
  ((dat2 V q0 q1 c).before_in_eq_fetched 0 rfl (fun _ => rfl) (fun _ _ _ => rfl)
      (fun t => by rw [dat2_after0]; unfold Dat.blockOf blockAt2; rw [dat2_A]; try rfl) t d).trans
    (by unfold Dat.fetched Dat.blockOf blockAt2; rw [dat2_A]; try rfl)
theorem dat2_before1 (c : Dev nD) (t : Fin cfg2.N) (d) : (dat2 V q0 q1 c).before 1 t d = blockAt2 V c 1 t :=
  ((dat2 V q0 q1 c).before_in_eq_fetched 1 rfl (fun _ => rfl) (fun _ _ _ => rfl)
      (fun t => by rw [dat2_after1]; unfold Dat.blockOf blockAt2; rw [dat2_A]; try rfl) t d).trans
    (by unfold Dat.fetched Dat.blockOf blockAt2; rw [dat2_A]; try rfl)

/-- What the body is called with at point `t`, the windows one by one, -/
def entry2 (c : Dev nD) (t : Fin cfg2.N) : sProp 𝕄 :=
  iprop((dat2 V q0 q1 c).Φ t.castSucc ∗ (dat2 V q0 q1 c).owesAt () t.castSucc
    ∗ (∃ d, owns (c : Thread nD τ) (st2_0 t) fullShare ((dat2 V q0 q1 c).before 0 t d))
    ∗ (∃ d, owns (c : Thread nD τ) (st2_1 t) fullShare ((dat2 V q0 q1 c).before 1 t d))
    ∗ (∃ d, owns (c : Thread nD τ) (st2_2 t) fullShare ((dat2 V q0 q1 c).before 2 t d)))

/-- and what it returns. -/
def exit2 (c : Dev nD) (t : Fin cfg2.N) : sProp 𝕄 :=
  iprop((dat2 V q0 q1 c).Φ t.succ ∗ (dat2 V q0 q1 c).owesAt () t.succ
    ∗ owns (c : Thread nD τ) (st2_0 t) fullShare ((dat2 V q0 q1 c).after 0 t)
    ∗ owns (c : Thread nD τ) (st2_1 t) fullShare ((dat2 V q0 q1 c).after 1 t)
    ∗ owns (c : Thread nD τ) (st2_2 t) fullShare ((dat2 V q0 q1 c).after 2 t))

/-- The body at any point: the input buffers hold their blocks, so `bodyRuns2` applies; the invariant and what the
    core owes pass through unread. -/
theorem bodyAtPoint2 (c : Dev nD) (t : Fin cfg2.N) :
    entry2 V q0 q1 c t ⊢ wp frame (wpE (defs₀ (F := F)) Variants.none c none) Set.univ (bodyAt2 t) (fun _ => exit2 V q0 q1 c t) := by
  unfold entry2 exit2 bodyAt2
  simp only [dat2_before0, dat2_before1]
  rw [show (dat2 V q0 q1 c).Φ t.succ = (dat2 V q0 q1 c).Φ t.castSucc from rfl,
    show (dat2 V q0 q1 c).owesAt () t.succ = (dat2 V q0 q1 c).owesAt () t.castSucc from rfl,
    dat2_after0, dat2_after1, dat2_after2]
  iintro ⟨HΦ, Ho, ⟨%d0, H0⟩, ⟨%d1, H1⟩, ⟨%d2, H2⟩⟩
  iapply (bodyRuns2 c Set.univ _ _ _ _ _ _ _ (blockAt2 V c 0 t) (blockAt2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem bodyObligation2 (c : Dev nD) : BodyObligation (dat2 (F := F) V q0 q1 c) (defs₀ (F := F)) Variants.none () Set.univ := fun t => by
  rw [bigSep_W2, bigSep_W2]
  exact bodyAtPoint2 V q0 q1 c t

end Cert.KernelIdeal.Hand

end
-- ==== Proof.Split2I.lean ====
/-
  The third Pallas call reads ONE array — the mean — through two input windows (a block of rows and a block of columns of
  the product with its own transpose). The array's buffer is therefore held in two halves, one per input window, while the
  call runs, and whole again afterwards: both halves still hold what the buffer held at entry, since an input window's
  array is never written.
-/
import proofs.«174434_j60601988546853_1_alg».proof.Proof.RegionI2
import Idealize.ShloMosaic.Rules.PointsTo

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The third call's proof data: the two input windows hold the two halves of the mean's buffer. -/
abbrev datZ (c : Dev nD) : Dat τ (Elt F) Unit ℕ (UR sig nD τ) ℕ cfg2 c := dat2 V fullShare.left fullShare.right c

/-- The distinct buffers behind the three windows: the mean's and the product's. -/
theorem arrRefs2 : (Finset.univ.image (Pipeline.arrRef (cfgs (2 : Fin 3)).spec) : Finset (Ref sig .tc)) = {main_v36, main_v41} := by decide
theorem arrRefs2' : (Finset.univ.image (Pipeline.arrRef spec2) : Finset (Ref sig .tc)) = {main_v36, main_v41} := arrRefs2

theorem datZ_share0 (c : Dev nD) : (datZ V c).share 0 = fullShare.left := rfl
theorem datZ_share1 (c : Dev nD) : (datZ V c).share 1 = fullShare.right := rfl
theorem datZ_share2 (c : Dev nD) : (datZ V c).share 2 = fullShare := rfl

/-- The windows' arrays, at contents `G`, window by window. -/
theorem arrays2_eq (c : Dev nD) (G : (w : Fin cfg2.W) → Buf (Elt F) ((cfg2.win w).arr.view.loc (c : Thread nD τ))) :
    ((datZ V c).arrays G : sProp 𝕄)
      = iprop((((c : Thread nD τ).loc main_v36) ↦{fullShare.left} G 0) ∗ (((c : Thread nD τ).loc main_v36) ↦{fullShare.right} G 1)
          ∗ (((c : Thread nD τ).loc main_v41) ↦{fullShare} G 2)) := by
  unfold Dat.arrays
  have h0 : (cfg2.win 0).arr.view.set = Finset.univ := (arr_whole2 0).set_eq_univ
  have h2 : (cfg2.win 2).arr.view.set = Finset.univ := (arr_whole2 2).set_eq_univ
  rw [bigSep_W2, h0, h2, datZ_share0, datZ_share1, datZ_share2]

/-- ENTRY: the core's unscoped buffers at contents `V` are the three windows' arrays — the mean's buffer in two halves —
    and the rest. -/
theorem arrays2_split (c : Dev nD) :
    (unscopedBufs c (V c) : sProp 𝕄) ⊢ iprop((datZ V c).arrays ((datZ V c).arrAt · 0) ∗ Pipeline.unscopedRest spec2 c (V c)) := by
  rw [Pipeline.unscopedBufs_split₀ cfgs 2 winFacts₀2.arr_unscoped c (V c), arrays2_eq]
  refine sep_mono ?_ .rfl
  unfold Pipeline.arrBufs
  rw [arrRefs2, BI.bigSep_insert (by decide), BI.bigSep_singleton]
  exact (sep_mono (pointsTo_share (IsOp.posShare_halves fullShare).mem_op).1 .rfl).trans sep_assoc.1

/-- EXIT: the three windows' arrays at their final contents and the rest are the core's unscoped buffers at any
    contents `V'` that has the product's buffer at what the write-backs left and every other buffer as at entry. -/
theorem arrays2_join (c : Dev nD) (V' : (b : Ref sig .tc) → Buf (Elt F) ((c : Thread nD τ).loc b))
    (hout : (datZ V c).arrAt 2 cfg2.N = V' main_v41) (hrest : ∀ b, b ≠ main_v41 → V' b = V c b) :
    iprop((datZ V c).arrays ((datZ V c).arrAt · cfg2.N) ∗ Pipeline.unscopedRest spec2 c (V c)) ⊢ (unscopedBufs c V' : sProp 𝕄) := by
  rw [Pipeline.unscopedBufs_split₀ cfgs 2 winFacts₀2.arr_unscoped c V', arrays2_eq,
    (datZ V c).arrAt_in 0 rfl, (datZ V c).arrAt_in 1 rfl, hout]
  refine sep_mono ?_ (Entails.of_eq ?_)
  · unfold Pipeline.arrBufs
    rw [arrRefs2, BI.bigSep_insert (by decide), BI.bigSep_singleton, hrest main_v36 (by decide)]
    exact sep_assoc.2.trans (sep_mono (pointsTo_share (IsOp.posShare_halves fullShare).mem_op).2 .rfl)
  · unfold Pipeline.unscopedRest
    exact bigSep_congr fun b hb => by
      rw [hrest b fun e => (Finset.mem_sdiff.mp hb).2 (by rw [arrRefs2', e]; decide)]

end Cert.KernelIdeal.Hand

end
-- ==== Proof.RunI.lean ====
/-
  The whole program as a run: three Pallas calls among stretches of host operations.

  Between two items of the program a core holds every buffer that outlives a kernel at known contents: the launch
  memory, then, item by item, what a host stretch computes from the contents before it, and what a Pallas call's
  write-backs leave in its output array (every other buffer as the call found it). The three calls are entered from these
  contents and left at the next ones; the run of the program is their composition, and its final memory holds every such
  buffer at the last contents.
-/
import proofs.«174434_j60601988546853_1_alg».proof.Proof.RegionI0
import proofs.«174434_j60601988546853_1_alg».proof.Proof.RegionI1
import proofs.«174434_j60601988546853_1_alg».proof.Proof.Split2I
import proofs.«174434_j60601988546853_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev mem0 : Dev nD → Valuation τ sig (Elt F) := fun c b => m (c, b)
abbrev at0 : (c : Dev nD) → (b : Ref sig .tc) → Buf (Elt F) ((c : Thread nD τ).loc b) := fun c b => mem0 m c b
/-- The first call's proof data, at the launch contents. -/
abbrev datX (c : Dev nD) : Dat τ (Elt F) Unit ℕ (UR sig nD τ) ℕ cfg0 c := dat0 (at0 m) fullShare fullShare c
/-- After the first call: its arrays at what the pipeline leaves, every other buffer as launched. -/
def mem1 (c : Dev nD) : Valuation τ sig (Elt F) :=
  Pipeline.withArrays spec0 c (mem0 m c) fun w => (datX m c).arrAt w cfg0.N
theorem mem1_arr (c : Dev nD) (w : Fin cfg0.W) :
    mem1 m c (Proc.devRef .tc (Pipeline.arrRef spec0 w)) = (datX m c).arrAt w cfg0.N := by
  unfold mem1; exact Pipeline.withArrays_arr spec0 launch0.win.arr_inj c _ _ w
theorem mem1_of_ne (c : Dev nD) (b : Ref sig .tc) (hb : ∀ w, Pipeline.arrRef spec0 w ≠ b) :
    mem1 m c (Proc.devRef .tc b) = mem0 m c (Proc.devRef .tc b) := by
  unfold mem1; exact Pipeline.withArrays_of_ne spec0 c _ _ b hb
abbrev at1 : (c : Dev nD) → (b : Ref sig .tc) → Buf (Elt F) ((c : Thread nD τ).loc b) := fun c b => mem1 m c b
/-- After the first host stretch (the first layer's sparse product and bias), -/
abbrev mem2 : Dev nD → Valuation τ sig (Elt F) := fun c => StableHlo.after hostOps1 (mem1 m c)
/-- the rectifier, -/
abbrev mem3 : Dev nD → Valuation τ sig (Elt F) := fun c => StableHlo.after hostOps1_1 (mem2 m c)
/-- and the two weight matrices laid side by side. -/
abbrev mem4 : Dev nD → Valuation τ sig (Elt F) := fun c => StableHlo.after hostOps1_2 (mem3 m c)
abbrev at4 : (c : Dev nD) → (b : Ref sig .tc) → Buf (Elt F) ((c : Thread nD τ).loc b) := fun c b => mem4 m c b
/-- The second call's proof data, at its entry contents. -/
abbrev datY (c : Dev nD) : Dat τ (Elt F) Unit ℕ (UR sig nD τ) ℕ cfg1 c := dat1 (at4 m) fullShare fullShare c
/-- After the second call. -/
def mem5 (c : Dev nD) : Valuation τ sig (Elt F) :=
  Pipeline.withArrays spec1 c (mem4 m c) fun w => (datY m c).arrAt w cfg1.N
theorem mem5_arr (c : Dev nD) (w : Fin cfg1.W) :
    mem5 m c (Proc.devRef .tc (Pipeline.arrRef spec1 w)) = (datY m c).arrAt w cfg1.N := by
  unfold mem5; exact Pipeline.withArrays_arr spec1 launch1.win.arr_inj c _ _ w
theorem mem5_of_ne (c : Dev nD) (b : Ref sig .tc) (hb : ∀ w, Pipeline.arrRef spec1 w ≠ b) :
    mem5 m c (Proc.devRef .tc b) = mem4 m c (Proc.devRef .tc b) := by
  unfold mem5; exact Pipeline.withArrays_of_ne spec1 c _ _ b hb
abbrev at5 : (c : Dev nD) → (b : Ref sig .tc) → Buf (Elt F) ((c : Thread nD τ).loc b) := fun c b => mem5 m c b
/-- After the second host stretch (the second layer's sparse product, the two column ranges and their biases). -/
abbrev mem6 : Dev nD → Valuation τ sig (Elt F) := fun c => StableHlo.after hostOps2 (mem5 m c)
abbrev at6 : (c : Dev nD) → (b : Ref sig .tc) → Buf (Elt F) ((c : Thread nD τ).loc b) := fun c b => mem6 m c b
/-- After the third call: the product's buffer at what the write-backs leave, every other buffer as the call found it. -/
def mem7 (c : Dev nD) : Valuation τ sig (Elt F) :=
  Function.update (mem6 m c) (Proc.devRef .tc main_v41) ((datZ (at6 m) c).arrAt 2 cfg2.N)
abbrev at7 : (c : Dev nD) → (b : Ref sig .tc) → Buf (Elt F) ((c : Thread nD τ).loc b) := fun c b => mem7 m c b
theorem mem7_out (c : Dev nD) : mem7 m c (Proc.devRef .tc main_v41) = (datZ (at6 m) c).arrAt 2 cfg2.N := by
  unfold mem7; exact Function.update_self ..
theorem mem7_of_ne (c : Dev nD) (b : Ref sig .tc) (hb : b ≠ main_v41) :
    mem7 m c (Proc.devRef .tc b) = mem6 m c (Proc.devRef .tc b) := by
  unfold mem7; exact Function.update_of_ne (StableHlo.devRef_ne_of_ne hb) ..

theorem datX_share (c : Dev nD) (w : Fin cfg0.W) : (datX m c).share w = fullShare :=
  (datX m c).share_full (fun w => by match w with | ⟨0, _⟩ => rfl | ⟨1, _⟩ => rfl | ⟨2, _⟩ => rfl) w
theorem datY_share (c : Dev nD) (w : Fin cfg1.W) : (datY m c).share w = fullShare :=
  (datY m c).share_full (fun w => by match w with | ⟨0, _⟩ => rfl | ⟨1, _⟩ => rfl | ⟨2, _⟩ => rfl) w

/-! ## The proof data family and the thread state -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => datX m c
  | ⟨1, _⟩ => fun c => datY m c
  | ⟨2, _⟩ => fun c => datZ (at6 m) c
abbrev noVariants : Variants := Variants.none
abbrev noLevels : GSem nD τ sig → Finset Unit := fun _ => ∅
abbrev levelOf : GSem nD τ sig → Unit → ℕ := fun _ _ => 0
/-- What rides beside the buffers through every item: the generator register at some state, and nothing owed. -/
abbrev riding (c : Dev nD) : sProp 𝕄 := iprop((∃ r, prngReg c r) ∗ ∃ W, owes (c : Thread nD τ) (0 : CellTallies nD τ sig Unit) W)
/-- A host stretch as a segment, from the contents before it. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels levelOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every buffer at the last contents, the generator register at some state. -/
abbrev lastState (c : Dev nD) : sProp 𝕄 := iprop(StableHlo.held (c : Thread nD τ) (Pipeline.ucRefs τ sig) (mem7 m c) ∗ ∃ r, prngReg c r)

theorem exitX (c : Dev nD) (w : Fin cfg0.W) : (datX m c).arrAt w cfg0.N = at1 m c (Pipeline.arrRef spec0 w) := (mem1_arr m c w).symm
theorem restX (c : Dev nD) : ∀ b, b ∉ Finset.univ.image (Pipeline.arrRef spec0) → at1 m c b = at0 m c b :=
  fun b hb => mem1_of_ne m c b fun w e => hb (Finset.mem_image.mpr ⟨w, Finset.mem_univ _, e⟩)
theorem exitY (c : Dev nD) (w : Fin cfg1.W) : (datY m c).arrAt w cfg1.N = at5 m c (Pipeline.arrRef spec1 w) := (mem5_arr m c w).symm
theorem restY (c : Dev nD) : ∀ b, b ∉ Finset.univ.image (Pipeline.arrRef spec1) → at5 m c b = at4 m c b :=
  fun b hb => mem5_of_ne m c b fun w e => hb (Finset.mem_image.mpr ⟨w, Finset.mem_univ _, e⟩)

/-! ## The calls as segments -/

set_option backward.isDefEq.respectTransparency.types false in
/-- The first call: entered from the launch contents, left at `mem1`. -/
def callX : Pipeline.RegionSeg (pcfgs (F := F)) adm (pdats m) () defs₀ noVariants noLevels levelOf 0 where
  win := launch0.win.to₀
  block_pos := launch0.block_pos
  stage_whole := launch0.stage_whole
  K := PEmpty
  osem k := k.elim
  ho := Pipeline.OwnSemFacts.none _
  hbody c := (bodyObligation0 (at0 m) fullShare fullShare c).loose
  hwaits := Pipeline.hwaits_of_owed_zero _ _ _ _ noLevels levelOf 0 fun _ _ => rfl
  pre c := iprop(StableHlo.held (c : Thread nD τ) (Pipeline.ucRefs τ sig) (mem0 m c) ∗ riding c)
  post c := iprop(StableHlo.held (c : Thread nD τ) (Pipeline.ucRefs τ sig) (mem1 m c) ∗ riding c)
  X c := iprop(∃ r, prngReg c r)
  Y c := iprop(∃ r, prngReg c r)
  Z c := Pipeline.unscopedRest (Ix := Unit) (Name := ℕ) (U := UR sig nD τ) (Lvl := ℕ) spec0 c (at0 m c)
  hentry c := by
    rw [Pipeline.ownSems0_none]
    have hsplit := Pipeline.arrays_of_unscopedBufs (p := 0) (pcfgs (F := F)) adm (pdats m) launch0.win launch0.arr_whole c
      (datX_share m c) (at0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) (datX_share m c)
      (at0 m c) (at1 m c) ((pdats m 0 c).arrAt · cfg0.N) (exitX m c) (restX m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call: entered from `mem4`, left at `mem5`. -/
def callY : Pipeline.RegionSeg (pcfgs (F := F)) adm (pdats m) () defs₀ noVariants noLevels levelOf 1 where
  win := launch1.win.to₀
  block_pos := launch1.block_pos
  stage_whole := launch1.stage_whole
  K := PEmpty
  osem k := k.elim
  ho := Pipeline.OwnSemFacts.none _
  hbody c := (bodyObligation1 (at4 m) fullShare fullShare c).loose
  hwaits := Pipeline.hwaits_of_owed_zero _ _ _ _ noLevels levelOf 1 fun _ _ => rfl
  pre c := iprop(StableHlo.held (c : Thread nD τ) (Pipeline.ucRefs τ sig) (mem4 m c) ∗ riding c)
  post c := iprop(StableHlo.held (c : Thread nD τ) (Pipeline.ucRefs τ sig) (mem5 m c) ∗ riding c)
  X c := iprop(∃ r, prngReg c r)
  Y c := iprop(∃ r, prngReg c r)
  Z c := Pipeline.unscopedRest (Ix := Unit) (Name := ℕ) (U := UR sig nD τ) (Lvl := ℕ) spec1 c (at4 m c)
  hentry c := by
    rw [Pipeline.ownSems0_none]
    have hsplit := Pipeline.arrays_of_unscopedBufs (p := 1) (pcfgs (F := F)) adm (pdats m) launch1.win launch1.arr_whole c
      (datY_share m c) (at4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) (datY_share m c)
      (at4 m c) (at5 m c) ((pdats m 1 c).arrAt · cfg1.N) (exitY m c) (restY m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call: entered from `mem6`, left at `mem7`; the mean's buffer goes in as two halves and comes back whole. -/
def callZ : Pipeline.RegionSeg (pcfgs (F := F)) adm (pdats m) () defs₀ noVariants noLevels levelOf 2 where
  win := winFacts₀2
  block_pos := block_pos2
  stage_whole := stage_whole2
  K := PEmpty
  osem k := k.elim
  ho := Pipeline.OwnSemFacts.none _
  hbody c := (bodyObligation2 (at6 m) fullShare.left fullShare.right c).loose
  hwaits := Pipeline.hwaits_of_owed_zero _ _ _ _ noLevels levelOf 2 fun _ _ => rfl
  pre c := iprop(StableHlo.held (c : Thread nD τ) (Pipeline.ucRefs τ sig) (mem6 m c) ∗ riding c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (at6 m c)
  hentry c := by
    rw [Pipeline.ownSems0_none]
    have hsplit := arrays2_split (at6 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest (Ix := Unit) (Name := ℕ) (U := UR sig nD τ) (Lvl := ℕ) spec2 c (at6 m c))
        ⊢ (unscopedBufs c (at7 m c) : sProp 𝕄) :=
      arrays2_join (at6 m) c (at7 m c) (mem7_out m c).symm (fun b hb => mem7_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev items : List (Pipeline.Seg (pcfgs (F := F)) adm (pdats m) () defs₀ noVariants noLevels levelOf) :=
  [ .region (callX m),
    .host (hostItem hostOps1 hostOps1_sub hostOps1_fresh (mem1 m)),
    .host (hostItem hostOps1_1 hostOps1_1_sub hostOps1_1_fresh (mem2 m)),
    .host (hostItem hostOps1_2 hostOps1_2_sub hostOps1_2_fresh (mem3 m)),
    .region (callY m),
    .host (hostItem hostOps2 hostOps2_sub hostOps2_fresh (mem5 m)),
    .region (callZ m) ]

theorem main_items (c : Dev nD) : main (F := F) c = Pipeline.Seg.run (items m) := (main_chain c).trans (by chain_rfl)

set_option backward.isDefEq.respectTransparency.types false in
/-- THE RUN: from any memory with zero counters every weakly fair execution of the program terminates, nothing
    faulting, and the final memory holds every buffer that outlives a kernel at the last contents `mem7`. -/
theorem run : θ_run defs (onTc (τ := τ) (main (F := F))) ⟨m, fun _ => 0, ρ⟩ (fun r => ∀ c : Dev nD,
      ∀ b ∈ Pipeline.ucRefs τ sig, r.2.mem (((c : Thread nD τ)).1, b) = mem7 m c b) :=
  Pipeline.θ_run_regions_kit (pcfgs (F := F)) adm (pdats m) () cellOf_inj emb₁ defs₀ noVariants noLevels levelOf m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ riding c)) (Tₙ := lastState m)
    (hch := ⟨fun _ => .rfl, fun _ => .rfl, fun _ => .rfl, fun _ => .rfl, fun _ => .rfl, fun _ => .rfl, fun _ => .rfl, fun _ => .rfl⟩)
    (hinit := by
      refine Pipeline.initEach noLevels levelOf fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem7 m c b)
    (hfin := fun c s' => by
      iintro ⟨⟨Hh, -⟩, HSI⟩
      unfold StableHlo.held
      imodintro
      iapply (pointsTo_read_all (Pipeline.ucRefs τ sig) (fun b => (((c : Thread nD τ)).1, b)) (mem7 m c) s')
      isplitl [Hh] <;> iassumption)
    (hQ := fun s h => h)

/-! ## No item writes an argument -/

/-- Past the second call nothing but the second host stretch and the third call's output changes. -/
theorem mem7_keep (c : Dev nD) (r : Ref sig .tc) (h41 : r ≠ main_v41) (h2 : r ∉ hostOps2_W) : mem7 m c r = mem5 m c r :=
  (mem7_of_ne m c r h41).trans (StableHlo.after_of_writes_sub hostOps2 _ hostOps2_writes h2)
/-- Between the first call and the second call's exit only the first three host stretches and the second call's
    arrays change. -/
theorem mem5_keep (c : Dev nD) (r : Ref sig .tc) (hY : ∀ w, Pipeline.arrRef spec1 w ≠ r) (h12 : r ∉ hostOps1_2_W)
    (h11 : r ∉ hostOps1_1_W) (h1 : r ∉ hostOps1_W) : mem5 m c r = mem1 m c r :=
  (mem5_of_ne m c r hY).trans <| (StableHlo.after_of_writes_sub hostOps1_2 _ hostOps1_2_writes h12).trans <|
    (StableHlo.after_of_writes_sub hostOps1_1 _ hostOps1_1_writes h11).trans (StableHlo.after_of_writes_sub hostOps1 _ hostOps1_writes h1)
/-- An input window's array of the first call is left as launched. -/
theorem mem1_in (c : Dev nD) (w : Fin cfg0.W) (hin : (cfg0.win w).isOut = false) :
    mem1 m c (Proc.devRef .tc (Pipeline.arrRef spec0 w)) = m ((c : Thread nD τ).loc (Pipeline.arrRef spec0 w)) :=
  (mem1_arr m c w).trans (((datX m c).arrAt_in w hin _).trans (dat0_A (at0 m) fullShare fullShare c w))
theorem mem7_main_arg0 (c : Dev nD) : mem7 m c main_arg0 = m ((c : Thread nD τ).loc main_arg0) :=
  (mem7_keep m c main_arg0 (by decide) (by decide)).trans <| (mem5_keep m c main_arg0 (by decide) (by decide) (by decide) (by decide)).trans (mem1_in m c 0 rfl)
theorem mem7_main_arg1 (c : Dev nD) : mem7 m c main_arg1 = m ((c : Thread nD τ).loc main_arg1) :=
  (mem7_keep m c main_arg1 (by decide) (by decide)).trans <| (mem5_keep m c main_arg1 (by decide) (by decide) (by decide) (by decide)).trans ((mem1_of_ne m c main_arg1 (by decide)).trans rfl)
theorem mem7_main_arg2 (c : Dev nD) : mem7 m c main_arg2 = m ((c : Thread nD τ).loc main_arg2) :=
  (mem7_keep m c main_arg2 (by decide) (by decide)).trans <| (mem5_keep m c main_arg2 (by decide) (by decide) (by decide) (by decide)).trans ((mem1_of_ne m c main_arg2 (by decide)).trans rfl)
theorem mem7_main_arg3 (c : Dev nD) : mem7 m c main_arg3 = m ((c : Thread nD τ).loc main_arg3) :=
  (mem7_keep m c main_arg3 (by decide) (by decide)).trans <| (mem5_keep m c main_arg3 (by decide) (by decide) (by decide) (by decide)).trans ((mem1_of_ne m c main_arg3 (by decide)).trans rfl)
theorem mem7_main_arg4 (c : Dev nD) : mem7 m c main_arg4 = m ((c : Thread nD τ).loc main_arg4) :=
  (mem7_keep m c main_arg4 (by decide) (by decide)).trans <| (mem5_keep m c main_arg4 (by decide) (by decide) (by decide) (by decide)).trans (mem1_in m c 1 rfl)
theorem mem7_main_arg5 (c : Dev nD) : mem7 m c main_arg5 = m ((c : Thread nD τ).loc main_arg5) :=
  (mem7_keep m c main_arg5 (by decide) (by decide)).trans <| (mem5_keep m c main_arg5 (by decide) (by decide) (by decide) (by decide)).trans ((mem1_of_ne m c main_arg5 (by decide)).trans rfl)
theorem mem7_main_arg6 (c : Dev nD) : mem7 m c main_arg6 = m ((c : Thread nD τ).loc main_arg6) :=
  (mem7_keep m c main_arg6 (by decide) (by decide)).trans <| (mem5_keep m c main_arg6 (by decide) (by decide) (by decide) (by decide)).trans ((mem1_of_ne m c main_arg6 (by decide)).trans rfl)
theorem mem7_main_arg7 (c : Dev nD) : mem7 m c main_arg7 = m ((c : Thread nD τ).loc main_arg7) :=
  (mem7_keep m c main_arg7 (by decide) (by decide)).trans <| (mem5_keep m c main_arg7 (by decide) (by decide) (by decide) (by decide)).trans ((mem1_of_ne m c main_arg7 (by decide)).trans rfl)
theorem mem7_main_arg8 (c : Dev nD) : mem7 m c main_arg8 = m ((c : Thread nD τ).loc main_arg8) :=
  (mem7_keep m c main_arg8 (by decide) (by decide)).trans <| (mem5_keep m c main_arg8 (by decide) (by decide) (by decide) (by decide)).trans ((mem1_of_ne m c main_arg8 (by decide)).trans rfl)
theorem mem7_main_arg9 (c : Dev nD) : mem7 m c main_arg9 = m ((c : Thread nD τ).loc main_arg9) :=
  (mem7_keep m c main_arg9 (by decide) (by decide)).trans <| (mem5_keep m c main_arg9 (by decide) (by decide) (by decide) (by decide)).trans ((mem1_of_ne m c main_arg9 (by decide)).trans rfl)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (mem7_main_arg0 m c),
      (h c _ (mem_uc main_arg1 (by decide))).trans (mem7_main_arg1 m c),
      (h c _ (mem_uc main_arg2 (by decide))).trans (mem7_main_arg2 m c),
      (h c _ (mem_uc main_arg3 (by decide))).trans (mem7_main_arg3 m c),
      (h c _ (mem_uc main_arg4 (by decide))).trans (mem7_main_arg4 m c),
      (h c _ (mem_uc main_arg5 (by decide))).trans (mem7_main_arg5 m c),
      (h c _ (mem_uc main_arg6 (by decide))).trans (mem7_main_arg6 m c),
      (h c _ (mem_uc main_arg7 (by decide))).trans (mem7_main_arg7 m c),
      (h c _ (mem_uc main_arg8 (by decide))).trans (mem7_main_arg8 m c),
      (h c _ (mem_uc main_arg9 (by decide))).trans (mem7_main_arg9 m c)⟩) (run m ρ)

end Cert.KernelIdeal.Hand

end
-- ==== Proof.Net.lean ====
/-
  The host-side arithmetic of the graph network, as functions of whole arrays on the extended reals.

  A sparse adjacency in coordinate form (row indices, column indices, values) acts on a dense matrix `D` by
  gathering row `cols[e]` of `D` for every edge `e`, scaling it by `vals[e]`, and adding it into row `rows[e]` of a
  zero matrix. The first layer is the rectified sum of that product and a bias row; the second layer applies the same
  sparse product to a matrix of 128 columns — the hidden features times the two weight matrices laid side by side —
  and reads the mean from columns 0..63 and the log-variance from columns 64..127, each plus its bias row.
-/
import proofs.«174434_j60601988546853_1_alg».proof.KernelIdeal
import Idealize.ShloMosaic.PureOps.Ideal

noncomputable section

namespace Cert.KernelIdeal.Net

open Idealize.ShloMosaic Cert.KernelIdeal
open Cert.KernelIdeal.Facts₀

variable [Cert.KernelIdeal.Facts]

/-- The column indices as the gather reads them: a negative index is first wrapped by the row count 16384, and the
    result stood up as a column. -/
def colIdx (cols : (⟨S524288, .i32⟩ : BufTy).Contents (Elt Ideal)) : (⟨S524288x1, .i32⟩ : BufTy).Contents (Elt Ideal) :=
  broadcastInDim S524288x1 ![0] bcast_S524288_S524288x1_0
    (select (cmpi .slt cols (broadcastInDim S524288 ![] bcast_S_S524288 (constantI S_ 32 0#32)))
      (addi cols (broadcastInDim S524288 ![] bcast_S_S524288 (constantI S_ 32 16384#32))) cols)

/-- The row indices stood up as a column. -/
def rowIdx (rows : (⟨S524288, .i32⟩ : BufTy).Contents (Elt Ideal)) : (⟨S524288x1, .i32⟩ : BufTy).Contents (Elt Ideal) :=
  broadcastInDim S524288x1 ![0] bcast_S524288_S524288x1_0 rows

/-- The sparse product with a matrix of 256 columns. -/
def spmm256 (rows cols : (⟨S524288, .i32⟩ : BufTy).Contents (Elt Ideal)) (vals : (⟨S524288, .f32⟩ : BufTy).Contents (Elt Ideal))
    (D : (⟨S16384x256, .f32⟩ : BufTy).Contents (Elt Ideal)) : (⟨S16384x256, .f32⟩ : BufTy).Contents (Elt Ideal) :=
  Host.scatterAdd (F := Ideal) scatter_S16384x256_S524288x1_S524288x256_1_0_0_1
    (broadcastInDim S16384x256 ![] bcast_S_S16384x256 (constant (F := Ideal) S_ .f32 0x00000000#32))
    (rowIdx rows)
    (mulf (broadcastInDim S524288x256 ![0, 1] bcast_S524288x1_S524288x256_0_1 (broadcastInDim S524288x1 ![0] bcast_S524288_S524288x1_0 vals))
      (Host.gather gather_S16384x256_S524288x1_S524288x256_1_0_n_n_0_1_1256 D (colIdx cols)))

/-- The first layer's output: the rectified sparse product plus the bias row. -/
def hidden (rows cols : (⟨S524288, .i32⟩ : BufTy).Contents (Elt Ideal)) (vals : (⟨S524288, .f32⟩ : BufTy).Contents (Elt Ideal))
    (b1 : (⟨S256, .f32⟩ : BufTy).Contents (Elt Ideal)) (D : (⟨S16384x256, .f32⟩ : BufTy).Contents (Elt Ideal)) :
    (⟨S16384x256, .f32⟩ : BufTy).Contents (Elt Ideal) :=
  maximumf (addf (spmm256 rows cols vals D)
      (broadcastInDim S16384x256 ![0, 1] bcast_S1x256_S16384x256_0_1 (broadcastInDim S1x256 ![1] bcast_S256_S1x256_1 b1)))
    (broadcastInDim S16384x256 ![] bcast_S_S16384x256 (constant (F := Ideal) S_ .f32 0x00000000#32))

/-- The two second-layer weight matrices side by side. -/
def weights23 (w2 w3 : (⟨S256x64, .f32⟩ : BufTy).Contents (Elt Ideal)) : (⟨S256x128, .f32⟩ : BufTy).Contents (Elt Ideal) :=
  concatenate S256x128 1 [⟨S256x64, w2⟩, ⟨S256x64, w3⟩] concatenates_S256x64_S256x64_S256x128_d1

/-- The sparse product with a matrix of 128 columns. -/
def spmm128 (rows cols : (⟨S524288, .i32⟩ : BufTy).Contents (Elt Ideal)) (vals : (⟨S524288, .f32⟩ : BufTy).Contents (Elt Ideal))
    (D : (⟨S16384x128, .f32⟩ : BufTy).Contents (Elt Ideal)) : (⟨S16384x128, .f32⟩ : BufTy).Contents (Elt Ideal) :=
  Host.scatterAdd (F := Ideal) scatter_S16384x128_S524288x1_S524288x128_1_0_0_1
    (broadcastInDim S16384x128 ![] bcast_S_S16384x128 (constant (F := Ideal) S_ .f32 0x00000000#32))
    (rowIdx rows)
    (mulf (broadcastInDim S524288x128 ![0, 1] bcast_S524288x1_S524288x128_0_1 (broadcastInDim S524288x1 ![0] bcast_S524288_S524288x1_0 vals))
      (Host.gather gather_S16384x128_S524288x1_S524288x128_1_0_n_n_0_1_1128 D (colIdx cols)))

/-- The mean: columns 0..63 of the 128-column sparse product, plus the bias row. -/
def meanOf (rows cols : (⟨S524288, .i32⟩ : BufTy).Contents (Elt Ideal)) (vals : (⟨S524288, .f32⟩ : BufTy).Contents (Elt Ideal))
    (b2 : (⟨S64, .f32⟩ : BufTy).Contents (Elt Ideal)) (D : (⟨S16384x128, .f32⟩ : BufTy).Contents (Elt Ideal)) :
    FVec Ideal S16384x64 .f32 :=
  addf (F := Ideal) (extractStridedSlice S16384x64 ![0, 0] (spmm128 rows cols vals D : FVec Ideal S16384x128 .f32) slices_S16384x128_S16384x64_0_0)
    (broadcastInDim S16384x64 ![0, 1] bcast_S1x64_S16384x64_0_1 (broadcastInDim S1x64 ![1] bcast_S64_S1x64_1 b2))

/-- The log-variance: columns 64..127 of the 128-column sparse product, plus the bias row. -/
def logvarOf (rows cols : (⟨S524288, .i32⟩ : BufTy).Contents (Elt Ideal)) (vals : (⟨S524288, .f32⟩ : BufTy).Contents (Elt Ideal))
    (b3 : (⟨S64, .f32⟩ : BufTy).Contents (Elt Ideal)) (D : (⟨S16384x128, .f32⟩ : BufTy).Contents (Elt Ideal)) :
    FVec Ideal S16384x64 .f32 :=
  addf (F := Ideal) (extractStridedSlice S16384x64 ![0, 64] (spmm128 rows cols vals D : FVec Ideal S16384x128 .f32) slices_S16384x128_S16384x64_0_64)
    (broadcastInDim S16384x64 ![0, 1] bcast_S1x64_S16384x64_0_1 (broadcastInDim S1x64 ![1] bcast_S64_S1x64_1 b3))

end Cert.KernelIdeal.Net

end
-- ==== Proof.HostI.lean ====
/-
  What the host stretches compute, read off the buffers' contents: the first layer's hidden features, the two weight
  matrices side by side, and the mean and log-variance, each as the network's function of the contents before the stretch.
-/
import proofs.«174434_j60601988546853_1_alg».proof.Proof.RunI
import proofs.«174434_j60601988546853_1_alg».proof.Proof.Net

set_option maxRecDepth 16384

noncomputable section

namespace Cert.KernelIdeal.Hand

open Idealize.ShloMosaic Idealize.ShloMosaic.TcCoe Idealize.ShloMosaic.StableHlo
open Idealize.SL.Sem
open Cert.KernelIdeal Cert.KernelIdeal.Gen Cert.KernelIdeal.Net

/-- The first host stretch leaves the sparse product of the first call's output, plus the bias row, in the buffer the
    rectifier reads. -/
theorem layer1_after (W : Valuation τ sig (Elt Ideal)) :
    StableHlo.after (hostOps1 (F := Ideal)) W (Proc.devRef .tc main_v16)
      = addf (F := Ideal) (φ := .f32) (spmm256 (W (Proc.devRef .tc main_arg1)) (W (Proc.devRef .tc main_arg2)) (W (Proc.devRef .tc main_arg3)) (W (Proc.devRef .tc main_v0)))
          (broadcastInDim S16384x256 ![0, 1] bcast_S1x256_S16384x256_0_1 (broadcastInDim S1x256 ![1] bcast_S256_S1x256_1 (W (Proc.devRef .tc main_arg5)))) := by
  after_results_simp <;> rfl

/-- The rectifier. -/
theorem rectify_after (W : Valuation τ sig (Elt Ideal)) :
    StableHlo.after (hostOps1_1 (F := Ideal)) W (Proc.devRef .tc main_v17)
      = maximumf (F := Ideal) (W (Proc.devRef .tc main_v16))
          (broadcastInDim S16384x256 ![] bcast_S_S16384x256 (constant (F := Ideal) S_ .f32 0x00000000#32)) := by
  after_results_simp <;> rfl

/-- The two weight matrices side by side. -/
theorem weights_after (W : Valuation τ sig (Elt Ideal)) :
    StableHlo.after (hostOps1_2 (F := Ideal)) W (Proc.devRef .tc main_v18)
      = weights23 (W (Proc.devRef .tc main_arg6)) (W (Proc.devRef .tc main_arg8)) := by
  after_results_simp <;> rfl

/-- The mean. -/
theorem mean_after (W : Valuation τ sig (Elt Ideal)) :
    StableHlo.after (hostOps2 (F := Ideal)) W (Proc.devRef .tc main_v36)
      = meanOf (W (Proc.devRef .tc main_arg1)) (W (Proc.devRef .tc main_arg2)) (W (Proc.devRef .tc main_arg3)) (W (Proc.devRef .tc main_arg7)) (W (Proc.devRef .tc main_v19)) := by
  after_results_simp <;> rfl

/-- The log-variance. -/
theorem logvar_after (W : Valuation τ sig (Elt Ideal)) :
    StableHlo.after (hostOps2 (F := Ideal)) W (Proc.devRef .tc main_v40)
      = logvarOf (W (Proc.devRef .tc main_arg1)) (W (Proc.devRef .tc main_arg2)) (W (Proc.devRef .tc main_arg3)) (W (Proc.devRef .tc main_arg9)) (W (Proc.devRef .tc main_v19)) := by
  after_results_simp <;> rfl

end Cert.KernelIdeal.Hand

end
-- ==== Proof.Reals.lean ====
/-
  An array of 32-bit floats on the extended reals, read at an index as an extended real.
-/
import Idealize.ShloMosaic.PureOps.Ideal

noncomputable section

namespace Cert.KernelIdeal.Hand

open Idealize.ShloMosaic

/-- The entry of an array at an index, as an extended real. -/
abbrev entry {S : Shape} (f : FVec Ideal S .f32) (i : S.Idx) : EReal := f i

end Cert.KernelIdeal.Hand

end
-- ==== Proof.Blocks0.lean ====
/-
  Pallas call 0 of the program: the output array after all write-backs, as one function of the two input arrays.

  The body at grid point `t` multiplies row block `t` of the first array (2048 rows of 512) by the whole second array
  (512 by 256) and the pipeline writes the product back as row block `t` of the output. The eight row blocks tile the
  16384 rows, so the output ends as the matrix product of the two arrays as the region finds them: entry (p, j) is
  `∑ k, a (p, k) · b (k, j)` on the extended reals.

  The steps: the body's matrix product into a zero accumulator read at an entry; the printed index maps over the grid;
  each input block read at an entry as an entry of its array (a block's element sits at block index × block size + its
  own coordinate); what point `t` writes back as block `t` of the whole product; the cover (row `r` lies in the block
  of point `r / 2048`); the whole-array equation.
-/
import proofs.«174434_j60601988546853_1_alg».proof.Proof.RegionI0
import proofs.«174434_j60601988546853_1_alg».proof.Proof.Reals
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.ValueIdx Idealize.ShloMosaic.TcCoe Idealize.SL.Sem
open Idealize.SL Idealize.SL.RA
open Idealize.ShloMosaic.Pipeline (Dat)
open Cert.KernelIdeal Cert.KernelIdeal.Gen

/-- At output entry `i` and contraction position `q` the product's left operand is read at row `i 0`, -/
theorem dot0_lhs_row (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
/-- column `q`; -/
theorem dot0_lhs_col (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
/-- the right operand at row `q`, -/
theorem dot0_rhs_row (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
/-- column `i 1`. -/
theorem dot0_rhs_col (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl

/-- The body's payload at entry (p, j): the matrix product of the two loaded blocks there. -/
theorem pay0_apply (x0 : Vec Ideal S2048x512 .f32) (x1 : Vec Ideal S512x256 .f32) (p : Fin 2048) (j : Fin 256) :
    k0_pay1 x0 x1 (ix2 p j) = ∑ k : Fin 512, x0 (ix2 p k) * x1 (ix2 k j) := by
  unfold k0_pay1
  show FloatOps.matmul (F := Ideal) (φ₁ := .f32) (φ₂ := .f32) dot_S2048x512_S512x256_S2048x256_1_0_0_1_n_n none x0 x1 (constant S2048x256 .f32 0x00000000#32) (ix2 p j) = _
  rw [Ideal.matmul_constant_zero_apply (φ₁ := .f32) (φ₂ := .f32), ← Equiv.sum_comp (contrEquiv1 dot_S2048x512_S512x256_S2048x256_1_0_0_1_n_n 512 rfl rfl).symm]
  refine Finset.sum_congr rfl fun k _ => ?_
  have hk := contrEquiv1_symm_val dot_S2048x512_S512x256_S2048x256_1_0_0_1_n_n 512 rfl rfl k
  have el : dot_S2048x512_S512x256_S2048x256_1_0_0_1_n_n.lhsIdx (ix2 p j) ((contrEquiv1 dot_S2048x512_S512x256_S2048x256_1_0_0_1_n_n 512 rfl rfl).symm k) = ix2 p k := funext fun a => Fin.ext (by
    match a with
    | ⟨0, _⟩ => exact dot0_lhs_row _ _
    | ⟨1, _⟩ => exact (dot0_lhs_col _ _).trans hk)
  have er : dot_S2048x512_S512x256_S2048x256_1_0_0_1_n_n.rhsIdx (ix2 p j) ((contrEquiv1 dot_S2048x512_S512x256_S2048x256_1_0_0_1_n_n 512 rfl rfl).symm k) = ix2 k j := funext fun a => Fin.ext (by
    match a with
    | ⟨0, _⟩ => exact (dot0_rhs_row _ _).trans hk
    | ⟨1, _⟩ => exact dot0_rhs_col _ _)
  rw [el, er]

theorem zero_offsets0 : (![0, 0] : Fin 2 → Nat) = fun _ => 0 := funext fun a => by fin_cases a <;> rfl

/-- The output window's buffer after the body, at entry (p, j): the product of the two blocks there. -/
theorem product0_apply (x0 : Vec Ideal S2048x512 .f32) (x1 : Vec Ideal S512x256 .f32) (p : Fin 2048) (j : Fin 256) :
    product0 (F := Ideal) x0 x1 (ix2 p j) = ∑ k : Fin 512, x0 (ix2 p k) * x1 (ix2 k j) := by
  unfold product0
  rw [View.canon_unit_zero zero_offsets0]
  simp only [View.ld_unit_zero (S := S2048x512) zero_offsets0, View.ld_unit_zero (S := S512x256) zero_offsets0]
  exact pay0_apply x0 x1 p j

/-- The whole output array: the product of the two whole input arrays, entry by entry. -/
def wholeProduct0 (a : S16384x512.Idx → EReal) (b : S512x256.Idx → EReal) : S16384x256.Idx → EReal :=
  fun i => ∑ k : Fin 512, a (ix2 (i 0 : Fin 16384) k) * b (ix2 k (i 1 : Fin 256))

/-- The printed index maps over the grid: at point `t` the first input's and the output's block is row block `t`,
    the second input's block is the whole array. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One grid point: when the first block is rows `n·2048 …` of `a` and the second block is `b`, the product of the
    blocks at `y` is the whole product at row `n·2048 + y 0`, column `y 1`. -/
theorem point0 (a : S16384x512.Idx → EReal) (b : S512x256.Idx → EReal)
    (x0 : Vec Ideal S2048x512 .f32) (x1 : Vec Ideal S512x256 .f32) (n : Nat)
    (hx0 : ∀ (p : Fin 2048) (k : Fin 512) (r : Fin 16384), r.val = n * 2048 + p.val → x0 (ix2 p k) = a (ix2 r k))
    (hx1 : ∀ (k : Fin 512) (j : Fin 256), x1 (ix2 k j) = b (ix2 k j))
    (y : S2048x256.Idx) (i : S16384x256.Idx) (hi0 : (i 0).val = n * 2048 + (y 0).val) (hi1 : (i 1).val = (y 1).val) :
    product0 (F := Ideal) x0 x1 y = wholeProduct0 a b i := by
  obtain ⟨p, j, rfl⟩ : ∃ (p : Fin 2048) (j : Fin 256), y = ix2 p j := ⟨y 0, y 1, eq_ix2 y⟩
  obtain ⟨r, j', rfl⟩ : ∃ (r : Fin 16384) (j' : Fin 256), i = ix2 r j' := ⟨i 0, i 1, eq_ix2 i⟩
  obtain rfl : j = j' := Fin.ext hi1.symm
  rw [product0_apply]
  show _ = ∑ k : Fin 512, a (ix2 r k) * b (ix2 k j)
  refine Finset.sum_congr rfl fun k _ => ?_
  rw [hx0 p k r hi0, hx1 k j]

variable (V : (c : Dev nD) → (b : Ref sig .tc) → Buf (Elt Ideal) ((c : Thread nD τ).loc b))
variable (q0 q1 : PosShare TreeShare)

/-- The first input window's block at point `t` is rows `t·2048 …` of its array. -/
theorem blockAt0_0_apply (c : Dev nD) (t : Fin cfg0.N) (p : Fin 2048) (k : Fin 512) (r : Fin 16384)
    (hr : r.val = t.val * 2048 + p.val) :
    (blockAt0 V c 0 t : S2048x512.Idx → EReal) (ix2 p k) = (V c main_arg0 : S16384x512.Idx → EReal) (ix2 r k) := by
  obtain ⟨e0, e1, -⟩ := index_facts0 t
  unfold blockAt0
  rw [View.read_apply]
  show (V c main_arg0 : S16384x512.Idx → EReal) _ = (V c main_arg0 : S16384x512.Idx → EReal) _
  congr 1
  funext a
  apply Fin.ext
  match a with
  | ⟨0, _⟩ => show win0_0.index t (0 : Fin 2) * 2048 + 1 * p.val = r.val; omega
  | ⟨1, _⟩ => show win0_0.index t (1 : Fin 2) * 512 + 1 * k.val = k.val; omega

/-- The second input window's block at any point is its whole array. -/
theorem blockAt0_1_apply (c : Dev nD) (t : Fin cfg0.N) (k : Fin 512) (j : Fin 256) :
    (blockAt0 V c 1 t : S512x256.Idx → EReal) (ix2 k j) = (V c main_arg4 : S512x256.Idx → EReal) (ix2 k j) := by
  obtain ⟨-, -, e2, e3, -⟩ := index_facts0 t
  unfold blockAt0
  rw [View.read_apply]
  show (V c main_arg4 : S512x256.Idx → EReal) _ = (V c main_arg4 : S512x256.Idx → EReal) _
  congr 1
  funext a
  apply Fin.ext
  match a with
  | ⟨0, _⟩ => show win0_1.index t (0 : Fin 2) * 512 + 1 * k.val = k.val; omega
  | ⟨1, _⟩ => show win0_1.index t (1 : Fin 2) * 256 + 1 * j.val = j.val; omega

/-- What point `t` writes back is block `t` of the whole product of the arrays as the region finds them. -/
theorem flushed0_eq (c : Dev nD) (t : Fin cfg0.N) :
    (dat0 V q0 q1 c).flushed 2 t
      = ((cfg0.win 2).blk t).view.read (Elt Ideal) (wholeProduct0 (V c main_arg0) (V c main_arg4)) := by
  show (cfg0.win 2).cut (grid0.coords t) ((dat0 V q0 q1 c).after 2 t) = _
  rw [dat0_after2]
  obtain ⟨-, -, -, -, e4, e5⟩ := index_facts0 t
  funext y
  rw [View.read_apply]
  show product0 (F := Ideal) (blockAt0 V c 0 t) (blockAt0 V c 1 t) ((cfg0.win 2).xinj (grid0.coords t) y)
    = wholeProduct0 (V c main_arg0) (V c main_arg4) (((cfg0.win 2).blk t).view.emb y)
  refine point0 _ _ _ _ t.val (fun p k r hr => blockAt0_0_apply V c t p k r hr) (fun k j => blockAt0_1_apply V c t k j) _ _ ?_ ?_
  · show win0_2.index t (0 : Fin 2) * 2048 + 1 * (y 0).val = t.val * 2048 + (y 0).val; omega
  · show win0_2.index t (1 : Fin 2) * 256 + 1 * (y 1).val = (y 1).val; omega

/-- An index of the output array is in point `t`'s block iff each coordinate is in the block's range on its axis. -/
theorem mem_blk0 (t : Fin cfg0.N) (i : S16384x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v0).slice (win0_2.rect t)).set ↔ _
  rw [View.set_slice_whole, Rect.mem_set_unit]
  exact Iff.rfl

/-- Every index of the output array is in some point's block: row `r` is in the block of point `r / 2048`. -/
theorem cover0 (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  have hN : grid0.N = 8 := N_0
  obtain ⟨t, ht⟩ : ∃ t : Fin cfg0.N, t.val = (i 0).val / 2048 :=
    ⟨⟨(i 0).val / 2048, by show (i 0).val / 2048 < grid0.N; omega⟩, rfl⟩
  obtain ⟨-, -, -, -, e4, e5⟩ := index_facts0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The output array after all write-backs is the whole product. -/
theorem product0_array (c : Dev nD) :
    (dat0 V q0 q1 c).arrAt 2 cfg0.N = wholeProduct0 (V c main_arg0) (V c main_arg4) :=
  (dat0 V q0 q1 c).arrAt_eq_of_cover 2 (wholeProduct0 (V c main_arg0) (V c main_arg4))
    (fun t _ => flushed0_eq V q0 q1 c t) cover0

/-- Entry by entry. -/
theorem product0_whole (c : Dev nD) (p : Fin 16384) (j : Fin 256) :
    entry (S := S16384x256) ((dat0 V q0 q1 c).arrAt 2 cfg0.N) (ix2 p j)
      = ∑ k : Fin 512, entry (S := S16384x512) (V c main_arg0) (ix2 p k) * entry (S := S512x256) (V c main_arg4) (ix2 k j) := by
  rw [product0_array]
  rfl

end Cert.KernelIdeal.Hand

end
-- ==== Proof.Blocks1.lean ====
/-
  Pallas call 1 of the program: the output array after all write-backs, as one function of the two input arrays.

  The body at grid point `t` multiplies row block `t` of the first array (2048 rows of 256) by the whole second array
  (256 by 128) — each through a shape cast to its own shape, the identity — and the pipeline writes the product back as
  row block `t` of the output. The eight row blocks tile the 16384 rows, so the output ends as the matrix product of the
  two arrays as the region finds them: entry (p, j) is `∑ k, a (p, k) · b (k, j)` on the extended reals.

  The steps: the body's matrix product into a zero accumulator read at an entry; the printed index maps over the grid;
  each input block read at an entry as an entry of its array (a block's element sits at block index × block size + its
  own coordinate); what point `t` writes back as block `t` of the whole product; the cover (row `r` lies in the block
  of point `r / 2048`); the whole-array equation.
-/
import proofs.«174434_j60601988546853_1_alg».proof.Proof.RegionI1
import proofs.«174434_j60601988546853_1_alg».proof.Proof.Reals
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.ValueIdx Idealize.ShloMosaic.TcCoe Idealize.SL.Sem
open Idealize.SL Idealize.SL.RA
open Idealize.ShloMosaic.Pipeline (Dat)
open Cert.KernelIdeal Cert.KernelIdeal.Gen

/-- At output entry `i` and contraction position `q` the product's left operand is read at row `i 0`, -/
theorem dot1_lhs_row (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
/-- column `q`; -/
theorem dot1_lhs_col (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
/-- the right operand at row `q`, -/
theorem dot1_rhs_row (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
/-- column `i 1`. -/
theorem dot1_rhs_col (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The body's payload at entry (p, j): the two shape casts are to the operands' own shapes, so it is the matrix
    product of the two loaded blocks there. -/
theorem pay1_apply (x0 : Vec Ideal S2048x256 .f32) (x1 : Vec Ideal S256x128 .f32) (p : Fin 2048) (j : Fin 128) :
    k1_pay1 x0 x1 (ix2 p j) = ∑ k : Fin 256, x0 (ix2 p k) * x1 (ix2 k j) := by
  unfold k1_pay1
  show FloatOps.matmul (F := Ideal) (φ₁ := .f32) (φ₂ := .f32) dot_S2048x256_S256x128_S2048x128_1_0_0_1_n_n none
    (shapeCast S2048x256 x0 shapeCasts_S2048x256_S2048x256) (shapeCast S256x128 x1 shapeCasts_S256x128_S256x128)
    (constant S2048x128 .f32 0x00000000#32) (ix2 p j) = _
  rw [shapeCast_self, shapeCast_self]
  rw [Ideal.matmul_constant_zero_apply (φ₁ := .f32) (φ₂ := .f32), ← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p j) ((contrEquiv1 dot_S2048x256_S256x128_S2048x128_1_0_0_1_n_n 256 rfl rfl).symm k) = ix2 p k := funext fun a => Fin.ext (by
    match a with
    | ⟨0, _⟩ => exact dot1_lhs_row _ _
    | ⟨1, _⟩ => exact (dot1_lhs_col _ _).trans hk)
  have er : dot_S2048x256_S256x128_S2048x128_1_0_0_1_n_n.rhsIdx (ix2 p j) ((contrEquiv1 dot_S2048x256_S256x128_S2048x128_1_0_0_1_n_n 256 rfl rfl).symm k) = ix2 k j := funext fun a => Fin.ext (by
    match a with
    | ⟨0, _⟩ => exact (dot1_rhs_row _ _).trans hk
    | ⟨1, _⟩ => exact dot1_rhs_col _ _)
  rw [el, er]

theorem zero_offsets1 : (![0, 0] : Fin 2 → Nat) = fun _ => 0 := funext fun a => by fin_cases a <;> rfl

/-- The output window's buffer after the body, at entry (p, j): the product of the two blocks there. -/
theorem product1_apply (x0 : Vec Ideal S2048x256 .f32) (x1 : Vec Ideal S256x128 .f32) (p : Fin 2048) (j : Fin 128) :
    product1 (F := Ideal) x0 x1 (ix2 p j) = ∑ k : Fin 256, x0 (ix2 p k) * x1 (ix2 k j) := by
  unfold product1
  rw [View.canon_unit_zero zero_offsets1]
  simp only [View.ld_unit_zero (S := S2048x256) zero_offsets1, View.ld_unit_zero (S := S256x128) zero_offsets1]
  exact pay1_apply x0 x1 p j

/-- The whole output array: the product of the two whole input arrays, entry by entry. -/
def wholeProduct1 (a : S16384x256.Idx → EReal) (b : S256x128.Idx → EReal) : S16384x128.Idx → EReal :=
  fun i => ∑ k : Fin 256, a (ix2 (i 0 : Fin 16384) k) * b (ix2 k (i 1 : Fin 128))

/-- The printed index maps over the grid: at point `t` the first input's and the output's block is row block `t`,
    the second input's block is the whole array. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One grid point: when the first block is rows `n·2048 …` of `a` and the second block is `b`, the product of the
    blocks at `y` is the whole product at row `n·2048 + y 0`, column `y 1`. -/
theorem point1 (a : S16384x256.Idx → EReal) (b : S256x128.Idx → EReal)
    (x0 : Vec Ideal S2048x256 .f32) (x1 : Vec Ideal S256x128 .f32) (n : Nat)
    (hx0 : ∀ (p : Fin 2048) (k : Fin 256) (r : Fin 16384), r.val = n * 2048 + p.val → x0 (ix2 p k) = a (ix2 r k))
    (hx1 : ∀ (k : Fin 256) (j : Fin 128), x1 (ix2 k j) = b (ix2 k j))
    (y : S2048x128.Idx) (i : S16384x128.Idx) (hi0 : (i 0).val = n * 2048 + (y 0).val) (hi1 : (i 1).val = (y 1).val) :
    product1 (F := Ideal) x0 x1 y = wholeProduct1 a b i := by
  obtain ⟨p, j, rfl⟩ : ∃ (p : Fin 2048) (j : Fin 128), y = ix2 p j := ⟨y 0, y 1, eq_ix2 y⟩
  obtain ⟨r, j', rfl⟩ : ∃ (r : Fin 16384) (j' : Fin 128), i = ix2 r j' := ⟨i 0, i 1, eq_ix2 i⟩
  obtain rfl : j = j' := Fin.ext hi1.symm
  rw [product1_apply]
  show _ = ∑ k : Fin 256, a (ix2 r k) * b (ix2 k j)
  refine Finset.sum_congr rfl fun k _ => ?_
  rw [hx0 p k r hi0, hx1 k j]

variable (V : (c : Dev nD) → (b : Ref sig .tc) → Buf (Elt Ideal) ((c : Thread nD τ).loc b))
variable (q0 q1 : PosShare TreeShare)

/-- The first input window's block at point `t` is rows `t·2048 …` of its array. -/
theorem blockAt1_0_apply (c : Dev nD) (t : Fin cfg1.N) (p : Fin 2048) (k : Fin 256) (r : Fin 16384)
    (hr : r.val = t.val * 2048 + p.val) :
    (blockAt1 V c 0 t : S2048x256.Idx → EReal) (ix2 p k) = (V c main_v17 : S16384x256.Idx → EReal) (ix2 r k) := by
  obtain ⟨e0, e1, -⟩ := index_facts1 t
  unfold blockAt1
  rw [View.read_apply]
  show (V c main_v17 : S16384x256.Idx → EReal) _ = (V c main_v17 : S16384x256.Idx → EReal) _
  congr 1
  funext a
  apply Fin.ext
  match a with
  | ⟨0, _⟩ => show win1_0.index t (0 : Fin 2) * 2048 + 1 * p.val = r.val; omega
  | ⟨1, _⟩ => show win1_0.index t (1 : Fin 2) * 256 + 1 * k.val = k.val; omega

/-- The second input window's block at any point is its whole array. -/
theorem blockAt1_1_apply (c : Dev nD) (t : Fin cfg1.N) (k : Fin 256) (j : Fin 128) :
    (blockAt1 V c 1 t : S256x128.Idx → EReal) (ix2 k j) = (V c main_v18 : S256x128.Idx → EReal) (ix2 k j) := by
  obtain ⟨-, -, e2, e3, -⟩ := index_facts1 t
  unfold blockAt1
  rw [View.read_apply]
  show (V c main_v18 : S256x128.Idx → EReal) _ = (V c main_v18 : S256x128.Idx → EReal) _
  congr 1
  funext a
  apply Fin.ext
  match a with
  | ⟨0, _⟩ => show win1_1.index t (0 : Fin 2) * 256 + 1 * k.val = k.val; omega
  | ⟨1, _⟩ => show win1_1.index t (1 : Fin 2) * 128 + 1 * j.val = j.val; omega

/-- What point `t` writes back is block `t` of the whole product of the arrays as the region finds them. -/
theorem flushed1_eq (c : Dev nD) (t : Fin cfg1.N) :
    (dat1 V q0 q1 c).flushed 2 t
      = ((cfg1.win 2).blk t).view.read (Elt Ideal) (wholeProduct1 (V c main_v17) (V c main_v18)) := by
  show (cfg1.win 2).cut (grid1.coords t) ((dat1 V q0 q1 c).after 2 t) = _
  rw [dat1_after2]
  obtain ⟨-, -, -, -, e4, e5⟩ := index_facts1 t
  funext y
  rw [View.read_apply]
  show product1 (F := Ideal) (blockAt1 V c 0 t) (blockAt1 V c 1 t) ((cfg1.win 2).xinj (grid1.coords t) y)
    = wholeProduct1 (V c main_v17) (V c main_v18) (((cfg1.win 2).blk t).view.emb y)
  refine point1 _ _ _ _ t.val (fun p k r hr => blockAt1_0_apply V c t p k r hr) (fun k j => blockAt1_1_apply V c t k j) _ _ ?_ ?_
  · show win1_2.index t (0 : Fin 2) * 2048 + 1 * (y 0).val = t.val * 2048 + (y 0).val; omega
  · show win1_2.index t (1 : Fin 2) * 128 + 1 * (y 1).val = (y 1).val; omega

/-- An index of the output array is in point `t`'s block iff each coordinate is in the block's range on its axis. -/
theorem mem_blk1 (t : Fin cfg1.N) (i : S16384x128.Idx) :
    i ∈ ((cfg1.win 2).blk t).view.set ↔ ∀ a : Fin 2, win1_2.index t a * S2048x128.size a ≤ (i a).val
      ∧ (i a).val < win1_2.index t a * S2048x128.size a + S2048x128.size a := by
  show i ∈ ((View.whole main_v19).slice (win1_2.rect t)).set ↔ _
  rw [View.set_slice_whole, Rect.mem_set_unit]
  exact Iff.rfl

/-- Every index of the output array is in some point's block: row `r` is in the block of point `r / 2048`. -/
theorem cover1 (i : S16384x128.Idx) :
    ∃ t : Fin cfg1.N, (cfg1.win 2).flush t = true ∧ i ∈ ((cfg1.win 2).blk t).view.set := by
  have hi0 : (i 0).val < 16384 := (i 0).isLt
  have hi1 : (i 1).val < 128 := (i 1).isLt
  have hN : grid1.N = 8 := N_1
  obtain ⟨t, ht⟩ : ∃ t : Fin cfg1.N, t.val = (i 0).val / 2048 :=
    ⟨⟨(i 0).val / 2048, by show (i 0).val / 2048 < grid1.N; omega⟩, rfl⟩
  obtain ⟨-, -, -, -, e4, e5⟩ := index_facts1 t
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 128 ≤ (i 1).val ∧ (i 1).val < win1_2.index t (1 : Fin 2) * 128 + 128; omega

/-- The output array after all write-backs is the whole product. -/
theorem product1_array (c : Dev nD) :
    (dat1 V q0 q1 c).arrAt 2 cfg1.N = wholeProduct1 (V c main_v17) (V c main_v18) :=
  (dat1 V q0 q1 c).arrAt_eq_of_cover 2 (wholeProduct1 (V c main_v17) (V c main_v18))
    (fun t _ => flushed1_eq V q0 q1 c t) cover1

/-- Entry by entry. -/
theorem product1_whole (c : Dev nD) (p : Fin 16384) (j : Fin 128) :
    entry (S := S16384x128) ((dat1 V q0 q1 c).arrAt 2 cfg1.N) (ix2 p j)
      = ∑ k : Fin 256, entry (S := S16384x256) (V c main_v17) (ix2 p k) * entry (S := S256x128) (V c main_v18) (ix2 k j) := by
  rw [product1_array]
  rfl

end Cert.KernelIdeal.Hand

end
-- ==== Proof.Blocks2.lean ====
/-
  Pallas call 2 of the program: the output array after all write-backs, as one function of the input array.

  The grid is 8 × 8; point `t` has coordinates (t / 8, t % 8). The body reads the one input array (16384 rows of 64)
  through two windows — row block `t / 8` and row block `t % 8`, 2048 rows each —, multiplies the first block by the
  transpose of the second (the shape casts are to the operands' own shapes, the identity), and the pipeline writes the
  2048 × 2048 product back as block (t / 8, t % 8) of the output. The 64 blocks tile the 16384 × 16384 output, so it ends
  as the array times its own transpose: entry (i, j) is `∑ k, a (i, k) · a (j, k)` on the extended reals.

  The steps: the transpose and the matrix product into a zero accumulator read at an entry; the printed index maps over
  the grid; each input block read at an entry as an entry of the array (a block's element sits at block index × block
  size + its own coordinate); what point `t` writes back as block `t` of the whole product; the cover (entry (r, s) lies
  in the block of point `8·(r / 2048) + s / 2048`); the whole-array equation.
-/
import proofs.«174434_j60601988546853_1_alg».proof.Proof.RegionI2
import proofs.«174434_j60601988546853_1_alg».proof.Proof.Reals
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.ValueIdx Idealize.ShloMosaic.TcCoe Idealize.SL.Sem
open Idealize.SL Idealize.SL.RA
open Idealize.ShloMosaic.Pipeline (Dat)
open Cert.KernelIdeal Cert.KernelIdeal.Gen

/-- At output entry `i` and contraction position `q` the product's left operand is read at row `i 0`, -/
theorem dot2_lhs_row (i : S2048x2048.Idx) (q : dot_S2048x64_S64x2048_S2048x2048_1_0_0_1_n_n.contr.Idx) :
    (dot_S2048x64_S64x2048_S2048x2048_1_0_0_1_n_n.lhsIdx i q 0).val = (i 0).val := by
  unfold DotDims.lhsIdx
  rw [dif_neg (show ¬(0 : Fin S2048x64.rank) ∈ dot_S2048x64_S64x2048_S2048x2048_1_0_0_1_n_n.lhsBatch by decide), dif_pos (show (0 : Fin S2048x64.rank) ∈ dot_S2048x64_S64x2048_S2048x2048_1_0_0_1_n_n.lhsNonContracting by decide)]
  rfl
/-- column `q`; -/
theorem dot2_lhs_col (i : S2048x2048.Idx) (q : dot_S2048x64_S64x2048_S2048x2048_1_0_0_1_n_n.contr.Idx) :
    (dot_S2048x64_S64x2048_S2048x2048_1_0_0_1_n_n.lhsIdx i q 1).val = (q ⟨0, by decide⟩).val :=
  dot_S2048x64_S64x2048_S2048x2048_1_0_0_1_n_n.lhsIdx_val_of_single rfl i q
/-- the right operand at row `q`, -/
theorem dot2_rhs_row (i : S2048x2048.Idx) (q : dot_S2048x64_S64x2048_S2048x2048_1_0_0_1_n_n.contr.Idx) :
    (dot_S2048x64_S64x2048_S2048x2048_1_0_0_1_n_n.rhsIdx i q 0).val = (q ⟨0, by decide⟩).val :=
  dot_S2048x64_S64x2048_S2048x2048_1_0_0_1_n_n.rhsIdx_val_of_single rfl i q
/-- column `i 1`. -/
theorem dot2_rhs_col (i : S2048x2048.Idx) (q : dot_S2048x64_S64x2048_S2048x2048_1_0_0_1_n_n.contr.Idx) :
    (dot_S2048x64_S64x2048_S2048x2048_1_0_0_1_n_n.rhsIdx i q 1).val = (i 1).val := by
  unfold DotDims.rhsIdx
  rw [dif_neg (show ¬(1 : Fin S64x2048.rank) ∈ dot_S2048x64_S64x2048_S2048x2048_1_0_0_1_n_n.rhsBatch by decide), dif_pos (show (1 : Fin S64x2048.rank) ∈ dot_S2048x64_S64x2048_S2048x2048_1_0_0_1_n_n.rhsNonContracting by decide)]
  rfl

/-- The transpose of a 2048 × 64 block read at (k, q) is the block at (q, k). -/
theorem transpose2_apply (x : Vec Ideal S2048x64 .f32) (k : Fin 64) (q : Fin 2048) :
    transpose S64x2048 [1, 0] x transposes_S2048x64_p1_0_S64x2048 (ix2 k q) = x (ix2 q k) :=
  transpose_apply [1, 0] x transposes_S2048x64_p1_0_S64x2048 (ix2 k q) (ix2 q k)
    (fun b => by match b with | ⟨0, _⟩ => rfl | ⟨1, _⟩ => rfl)

/-- The body's payload at entry (p, q): the shape casts are to the operands' own shapes, so it is the product of the
    first loaded block with the transpose of the second there: row `p` of the first against row `q` of the second. -/
theorem pay2_apply (x0 x1 : Vec Ideal S2048x64 .f32) (p q : Fin 2048) :
    k2_pay1 x0 x1 (ix2 p q) = ∑ k : Fin 64, x0 (ix2 p k) * x1 (ix2 q k) := by
  unfold k2_pay1
  show FloatOps.matmul (F := Ideal) (φ₁ := .f32) (φ₂ := .f32) dot_S2048x64_S64x2048_S2048x2048_1_0_0_1_n_n none
    (shapeCast S2048x64 x0 shapeCasts_S2048x64_S2048x64)
    (transpose S64x2048 [1, 0] (shapeCast S2048x64 x1 shapeCasts_S2048x64_S2048x64) transposes_S2048x64_p1_0_S64x2048)
    (constant S2048x2048 .f32 0x00000000#32) (ix2 p q) = _
  rw [shapeCast_self, shapeCast_self]
  rw [Ideal.matmul_constant_zero_apply (φ₁ := .f32) (φ₂ := .f32), ← Equiv.sum_comp (contrEquiv1 dot_S2048x64_S64x2048_S2048x2048_1_0_0_1_n_n 64 rfl rfl).symm]
  refine Finset.sum_congr rfl fun k _ => ?_
  have hk := contrEquiv1_symm_val dot_S2048x64_S64x2048_S2048x2048_1_0_0_1_n_n 64 rfl rfl k
  have el : dot_S2048x64_S64x2048_S2048x2048_1_0_0_1_n_n.lhsIdx (ix2 p q) ((contrEquiv1 dot_S2048x64_S64x2048_S2048x2048_1_0_0_1_n_n 64 rfl rfl).symm k) = ix2 p k := funext fun a => Fin.ext (by
    match a with
    | ⟨0, _⟩ => exact dot2_lhs_row _ _
    | ⟨1, _⟩ => exact (dot2_lhs_col _ _).trans hk)
  have er : dot_S2048x64_S64x2048_S2048x2048_1_0_0_1_n_n.rhsIdx (ix2 p q) ((contrEquiv1 dot_S2048x64_S64x2048_S2048x2048_1_0_0_1_n_n 64 rfl rfl).symm k) = ix2 k q := funext fun a => Fin.ext (by
    match a with
    | ⟨0, _⟩ => exact (dot2_rhs_row _ _).trans hk
    | ⟨1, _⟩ => exact dot2_rhs_col _ _)
  rw [el, er]
  exact congrArg (x0 (ix2 p k) * ·) (transpose2_apply x1 k q)

theorem zero_offsets2 : (![0, 0] : Fin 2 → Nat) = fun _ => 0 := funext fun a => by fin_cases a <;> rfl

/-- The output window's buffer after the body, at entry (p, q). -/
theorem product2_apply (x0 x1 : Vec Ideal S2048x64 .f32) (p q : Fin 2048) :
    product2 (F := Ideal) x0 x1 (ix2 p q) = ∑ k : Fin 64, x0 (ix2 p k) * x1 (ix2 q k) := by
  unfold product2
  rw [View.canon_unit_zero zero_offsets2]
  simp only [View.ld_unit_zero (S := S2048x64) zero_offsets2]
  exact pay2_apply x0 x1 p q

/-- The whole output array: the input array times its own transpose, entry by entry. -/
def wholeProduct2 (a : S16384x64.Idx → EReal) : S16384x16384.Idx → EReal :=
  fun i => ∑ k : Fin 64, a (ix2 (i 0 : Fin 16384) k) * a (ix2 (i 1 : Fin 16384) k)

/-- The printed index maps over the 8 × 8 grid, whose point `t` has coordinates (t / 8, t % 8): the first window's
    block is row block `t / 8` of the input, the second's is row block `t % 8`, the output's is block (t / 8, t % 8). -/
theorem index_facts2 : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

/-- One grid point: when the first block is rows `n·2048 …` of `a` and the second block is rows `m·2048 …` of `a`,
    the product of the blocks at `y` is the whole product at row `n·2048 + y 0`, column `m·2048 + y 1`. -/
theorem point2 (a : S16384x64.Idx → EReal) (x0 x1 : Vec Ideal S2048x64 .f32) (n m : Nat)
    (hx0 : ∀ (p : Fin 2048) (k : Fin 64) (r : Fin 16384), r.val = n * 2048 + p.val → x0 (ix2 p k) = a (ix2 r k))
    (hx1 : ∀ (q : Fin 2048) (k : Fin 64) (s : Fin 16384), s.val = m * 2048 + q.val → x1 (ix2 q k) = a (ix2 s k))
    (y : S2048x2048.Idx) (i : S16384x16384.Idx) (hi0 : (i 0).val = n * 2048 + (y 0).val)
    (hi1 : (i 1).val = m * 2048 + (y 1).val) :
    product2 (F := Ideal) x0 x1 y = wholeProduct2 a i := by
  obtain ⟨p, q, rfl⟩ : ∃ (p q : Fin 2048), y = ix2 p q := ⟨y 0, y 1, eq_ix2 y⟩
  obtain ⟨r, s, rfl⟩ : ∃ (r s : Fin 16384), i = ix2 r s := ⟨i 0, i 1, eq_ix2 i⟩
  rw [product2_apply]
  show _ = ∑ k : Fin 64, a (ix2 r k) * a (ix2 s k)
  refine Finset.sum_congr rfl fun k _ => ?_
  rw [hx0 p k r hi0, hx1 q k s hi1]

variable (V : (c : Dev nD) → (b : Ref sig .tc) → Buf (Elt Ideal) ((c : Thread nD τ).loc b))
variable (q0 q1 : PosShare TreeShare)

/-- The first window's block at point `t` is rows `(t / 8)·2048 …` of the input array. -/
theorem blockAt2_0_apply (c : Dev nD) (t : Fin cfg2.N) (p : Fin 2048) (k : Fin 64) (r : Fin 16384)
    (hr : r.val = t.val / 8 * 2048 + p.val) :
    (blockAt2 V c 0 t : S2048x64.Idx → EReal) (ix2 p k) = (V c main_v36 : S16384x64.Idx → EReal) (ix2 r k) := by
  obtain ⟨e0, e1, -⟩ := index_facts2 t
  unfold blockAt2
  rw [View.read_apply]
  show (V c main_v36 : S16384x64.Idx → EReal) _ = (V c main_v36 : S16384x64.Idx → EReal) _
  congr 1
  funext a
  apply Fin.ext
  match a with
  | ⟨0, _⟩ => show win2_0.index t (0 : Fin 2) * 2048 + 1 * p.val = r.val; omega
  | ⟨1, _⟩ => show win2_0.index t (1 : Fin 2) * 64 + 1 * k.val = k.val; omega

/-- The second window's block at point `t` is rows `(t % 8)·2048 …` of the same array. -/
theorem blockAt2_1_apply (c : Dev nD) (t : Fin cfg2.N) (q : Fin 2048) (k : Fin 64) (s : Fin 16384)
    (hs : s.val = t.val % 8 * 2048 + q.val) :
    (blockAt2 V c 1 t : S2048x64.Idx → EReal) (ix2 q k) = (V c main_v36 : S16384x64.Idx → EReal) (ix2 s k) := by
  obtain ⟨-, -, e2, e3, -⟩ := index_facts2 t
  unfold blockAt2
  rw [View.read_apply]
  show (V c main_v36 : S16384x64.Idx → EReal) _ = (V c main_v36 : S16384x64.Idx → EReal) _
  congr 1
  funext a
  apply Fin.ext
  match a with
  | ⟨0, _⟩ => show win2_1.index t (0 : Fin 2) * 2048 + 1 * q.val = s.val; omega
  | ⟨1, _⟩ => show win2_1.index t (1 : Fin 2) * 64 + 1 * k.val = k.val; omega

/-- What point `t` writes back is block `t` of the whole product of the array as the region finds it. -/
theorem flushed2_eq (c : Dev nD) (t : Fin cfg2.N) :
    (dat2 V q0 q1 c).flushed 2 t
      = ((cfg2.win 2).blk t).view.read (Elt Ideal) (wholeProduct2 (V c main_v36)) := by
  show (cfg2.win 2).cut (grid2.coords t) ((dat2 V q0 q1 c).after 2 t) = _
  rw [dat2_after2]
  obtain ⟨-, -, -, -, e4, e5⟩ := index_facts2 t
  funext y
  rw [View.read_apply]
  show product2 (F := Ideal) (blockAt2 V c 0 t) (blockAt2 V c 1 t) ((cfg2.win 2).xinj (grid2.coords t) y)
    = wholeProduct2 (V c main_v36) (((cfg2.win 2).blk t).view.emb y)
  refine point2 _ _ _ (t.val / 8) (t.val % 8) (fun p k r hr => blockAt2_0_apply V c t p k r hr)
    (fun q k s hs => blockAt2_1_apply V c t q k s hs) _ _ ?_ ?_
  · show win2_2.index t (0 : Fin 2) * 2048 + 1 * (y 0).val = t.val / 8 * 2048 + (y 0).val; omega
  · show win2_2.index t (1 : Fin 2) * 2048 + 1 * (y 1).val = t.val % 8 * 2048 + (y 1).val; omega

/-- An index of the output array is in point `t`'s block iff each coordinate is in the block's range on its axis. -/
theorem mem_blk2 (t : Fin cfg2.N) (i : S16384x16384.Idx) :
    i ∈ ((cfg2.win 2).blk t).view.set ↔ ∀ a : Fin 2, win2_2.index t a * S2048x2048.size a ≤ (i a).val
      ∧ (i a).val < win2_2.index t a * S2048x2048.size a + S2048x2048.size a := by
  show i ∈ ((View.whole main_v41).slice (win2_2.rect t)).set ↔ _
  rw [View.set_slice_whole, Rect.mem_set_unit]
  exact Iff.rfl

/-- Every index of the output array is in some point's block: entry (r, s) is in the block of point
    `8·(r / 2048) + s / 2048`. -/
theorem cover2 (i : S16384x16384.Idx) :
    ∃ t : Fin cfg2.N, (cfg2.win 2).flush t = true ∧ i ∈ ((cfg2.win 2).blk t).view.set := by
  have hi0 : (i 0).val < 16384 := (i 0).isLt
  have hi1 : (i 1).val < 16384 := (i 1).isLt
  have hN : grid2.N = 64 := N_2
  obtain ⟨t, ht⟩ : ∃ t : Fin cfg2.N, t.val = 8 * ((i 0).val / 2048) + (i 1).val / 2048 :=
    ⟨⟨8 * ((i 0).val / 2048) + (i 1).val / 2048, by show 8 * ((i 0).val / 2048) + (i 1).val / 2048 < grid2.N; omega⟩, rfl⟩
  obtain ⟨-, -, -, -, e4, e5⟩ := index_facts2 t
  refine ⟨t, flush2_2 t, ?_⟩
  rw [mem_blk2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 2048 ≤ (i 1).val ∧ (i 1).val < win2_2.index t (1 : Fin 2) * 2048 + 2048; omega

/-- The output array after all write-backs is the whole product. -/
theorem product2_array (c : Dev nD) :
    (dat2 V q0 q1 c).arrAt 2 cfg2.N = wholeProduct2 (V c main_v36) :=
  (dat2 V q0 q1 c).arrAt_eq_of_cover 2 (wholeProduct2 (V c main_v36))
    (fun t _ => flushed2_eq V q0 q1 c t) cover2

/-- Entry by entry. -/
theorem product2_whole (c : Dev nD) (i j : Fin 16384) :
    entry (S := S16384x16384) ((dat2 V q0 q1 c).arrAt 2 cfg2.N) (ix2 i j)
      = ∑ k : Fin 64, entry (S := S16384x64) (V c main_v36) (ix2 i k) * entry (S := S16384x64) (V c main_v36) (ix2 j k) := by
  rw [product2_array]
  rfl

end Cert.KernelIdeal.Hand

end
-- ==== Proof.LibConcatCols.lean ====
/-
  Two matrices with the same number of rows laid side by side (a concatenation along axis 1), read at an
  entry: the entry in row `p` and column `c` of `[x₁ | x₂]` is `x₁ (p, c)` when `c` is a column of the first
  matrix, and `x₂ (p, c - n₁)` when it lies past the first matrix's `n₁` columns. General in the extents.
-/
import Idealize.ShloMosaic.Lib.Pipeline.Value
import Idealize.ShloMosaic.Lib.ValueIdx

namespace Idealize.ShloMosaic.ValueIdx

open Idealize.ShloMosaic

variable {α : Type}

/-- Row `p`, column `c` of `[x₁ | x₂]`, for a column `c` of the first matrix (`c = k < n₁`), is `x₁ (p, k)`. -/
theorem concatenate_cols_left {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₁) (hc : c.val = k.val) :
    concatenate (⟨2, ![a, N]⟩ : Shape) 1 [⟨(⟨2, ![a, n₁]⟩ : Shape), x₁⟩, ⟨(⟨2, ![a, n₂]⟩ : Shape), x₂⟩] h (ix2 p c) = x₁ (ix2 p k) :=
  concatenate_pair_apply_left 1 x₁ x₂ h _ rfl _ (fun b => by
    match b with
    | ⟨0, _⟩ => rfl
    | ⟨1, _⟩ => exact hc.symm)

/-- Row `p`, column `c` of `[x₁ | x₂]`, for a column past the first matrix (`c = n₁ + k`), is `x₂ (p, k)`. -/
theorem concatenate_cols_right {a n₁ n₂ N : Nat} (x₁ : (⟨2, ![a, n₁]⟩ : Shape).Idx → α) (x₂ : (⟨2, ![a, n₂]⟩ : Shape).Idx → α)
    (h : Shape.Concatenates [(⟨2, ![a, n₁]⟩ : Shape), (⟨2, ![a, n₂]⟩ : Shape)] (⟨2, ![a, N]⟩ : Shape) 1)
    (p : Fin a) (c : Fin N) (k : Fin n₂) (hc : k.val + n₁ = c.val) :
    concatenate (⟨2, ![a, N]⟩ : Shape) 1 [⟨(⟨2, ![a, n₁]⟩ : Shape), x₁⟩, ⟨(⟨2, ![a, n₂]⟩ : Shape), x₂⟩] h (ix2 p c) = x₂ (ix2 p k) :=
  concatenate_pair_apply_right 1 x₁ x₂ h _ rfl rfl _
    (fun b hb => by
      match b with
      | ⟨0, _⟩ => rfl
      | ⟨1, _⟩ => exact absurd rfl hb)
    hc

end Idealize.ShloMosaic.ValueIdx
-- ==== Proof.BridgeDefs.lean ====
/-
  The reference network's three results as functions of its ten argument arrays on the extended reals, and the
  reference run's result terms as those functions of the arguments' launch contents.

  The mean is the second layer's sparse product of the hidden features times the mean's weight matrix, plus its
  bias row; the log-variance the same with its own weight matrix and bias row; the adjacency the product of the
  mean with its own transpose.
-/
import proofs.«174434_j60601988546853_1_alg».proof.Proof.Gen.ReferenceIdeal.Read

noncomputable section

namespace Cert.Bridge

open Cert.ReferenceIdeal Cert.ReferenceIdeal.Gen Idealize.ShloMosaic Idealize.ShloMosaic.TcCoe Idealize.SL.Sem Idealize.ShloMosaic.StableHlo

/-- The reference's mean, of the features, the sparse matrix's row indices, column indices and values, the first
    layer's weights and bias, and the mean's weights and bias. -/
def refMean (x : (⟨S16384x512, .f32⟩ : BufTy).Contents (Elt Ideal)) (rows cols : (⟨S524288, .i32⟩ : BufTy).Contents (Elt Ideal))
    (vals : (⟨S524288, .f32⟩ : BufTy).Contents (Elt Ideal)) (W1 : (⟨S512x256, .f32⟩ : BufTy).Contents (Elt Ideal))
    (b1 : (⟨S256, .f32⟩ : BufTy).Contents (Elt Ideal)) (W2 : (⟨S256x64, .f32⟩ : BufTy).Contents (Elt Ideal))
    (b2 : (⟨S64, .f32⟩ : BufTy).Contents (Elt Ideal)) : FVec Ideal S16384x64 .f32 :=
  Cert.ReferenceIdeal.Read.val_main_v34 (F := Ideal) x rows cols vals W1 b1 W2 b2

/-- The reference's log-variance, of the same arrays with the log-variance's weights and bias. -/
def refLogvar (x : (⟨S16384x512, .f32⟩ : BufTy).Contents (Elt Ideal)) (rows cols : (⟨S524288, .i32⟩ : BufTy).Contents (Elt Ideal))
    (vals : (⟨S524288, .f32⟩ : BufTy).Contents (Elt Ideal)) (W1 : (⟨S512x256, .f32⟩ : BufTy).Contents (Elt Ideal))
    (b1 : (⟨S256, .f32⟩ : BufTy).Contents (Elt Ideal)) (W3 : (⟨S256x64, .f32⟩ : BufTy).Contents (Elt Ideal))
    (b3 : (⟨S64, .f32⟩ : BufTy).Contents (Elt Ideal)) : FVec Ideal S16384x64 .f32 :=
  Cert.ReferenceIdeal.Read.val_main_v51 (F := Ideal) x rows cols vals W1 b1 W3 b3

/-- The reference's adjacency: the mean times its own transpose. -/
def refAdj (x : (⟨S16384x512, .f32⟩ : BufTy).Contents (Elt Ideal)) (rows cols : (⟨S524288, .i32⟩ : BufTy).Contents (Elt Ideal))
    (vals : (⟨S524288, .f32⟩ : BufTy).Contents (Elt Ideal)) (W1 : (⟨S512x256, .f32⟩ : BufTy).Contents (Elt Ideal))
    (b1 : (⟨S256, .f32⟩ : BufTy).Contents (Elt Ideal)) (W2 : (⟨S256x64, .f32⟩ : BufTy).Contents (Elt Ideal))
    (b2 : (⟨S64, .f32⟩ : BufTy).Contents (Elt Ideal)) : FVec Ideal S16384x16384 .f32 :=
  Cert.ReferenceIdeal.Read.val_main_v53 (F := Ideal) x rows cols vals W1 b1 W2 b2

/-- The run's adjacency term is `refAdj` of the arguments' launch contents. -/
theorem run_adj (m : (ℓ : Loc nD τ sig) → Buf (Elt Ideal) ℓ) (c : Dev nD) :
    Cert.ReferenceIdeal.Value.res_main_v53 m c = refAdj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Cert.ReferenceIdeal.Read.val_main_v53_eq m c

/-- The run's mean term — the generated reading module's `val_main_v34`, to which `val_main_v34_eq` folds the run's
    composed term — is `refMean` of the arguments' launch contents. -/
theorem run_mean (m : (ℓ : Loc nD τ sig) → Buf (Elt Ideal) ℓ) (c : Dev nD) :
    Cert.ReferenceIdeal.Read.val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      = refMean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := rfl

/-- The run's log-variance term, `val_main_v51`, is `refLogvar` of the arguments' launch contents. -/
theorem run_logvar (m : (ℓ : Loc nD τ sig) → Buf (Elt Ideal) ℓ) (c : Dev nD) :
    Cert.ReferenceIdeal.Read.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))
      = refLogvar (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) := rfl

/-- The reference's run with its three results named: on every device every weakly fair execution terminates with the
    adjacency, the mean and the log-variance at `refAdj`, `refMean` and `refLogvar` of the arguments' launch contents,
    the arguments unchanged. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53) = refAdj (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v34) = refMean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v51) = refLogvar (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run _ _ _).mono (fun _ h c => ⟨(h c).1.trans (run_adj m c), (h c).2.1.trans (Cert.ReferenceIdeal.Read.val_main_v34_eq (F := Ideal) _ _ _ _ _ _ _ _),
      (h c).2.2.1.trans (Cert.ReferenceIdeal.Read.val_main_v51_eq (F := Ideal) _ _ _ _ _ _ _ _),
      (h c).2.2.2.2⟩) (Cert.ReferenceIdeal.Value.run (F := Ideal) m ρ)

end Cert.Bridge

end
-- ==== Proof.LibScatterRows.lean ====
/-
  A reusable general lemma: the host's accumulating scatter of WHOLE ROWS into a rank-2 operand, read at an index,
  on the extended reals.

  What `segment_sum(u, idx, N)` (or `x.at[idx].add(u)`) of update rows `u : [E, C]` at an integer array `idx : [E]`
  lowers to: a scatter with an `add` body, update_window_dims `[1]`, inserted_window_dims `[0]`,
  scatter_dims_to_operand_dims `[0]` and index_vector_dim 1 over the indices as a column `[E, 1]`. Update entry
  `(e, c)` lands on operand entry `(idx[e, 0], c)`: the row is the index read as a SIGNED integer and NOT clamped, so
  an update whose row is negative or at least `N` lands nowhere and is dropped; the column is the update's own. On the
  extended reals the result at `(n, c)` is therefore the operand's entry plus the sum, over the update rows `e` whose
  index is `n`, of `u (e, c)`. Stated at any extents `N`, `E`, `C` and any index width.
-/
import Idealize.ShloMosaic.Lib.ValueIdx
import Idealize.ShloMosaic.PureOps.Ideal

noncomputable section

open scoped BigOperators

namespace Idealize.ShloMosaic.ScatterRows

open Idealize.ShloMosaic Idealize.ShloMosaic.ValueIdx

/-- The row scatter's dimension numbers for an operand `[N, C]`, scatter indices `[E, 1]` and updates `[E, C]`; their
    conditions `wf` are decided on a program's literal shapes. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window of update `(e, c)` starts at the index `idx[e, 0]`, read signed. -/
theorem start_row (idx : IVec ⟨2, ![E, 1]⟩ w) (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The column axis is not named by the index map: the window starts at `0` there. -/
theorem start_col (idx : IVec ⟨2, ![E, 1]⟩ w) (e : Fin E) (c : Fin C) :
    (rowDims N E C wf).start (ix2 e c) idx 1 = 0 := by
  unfold ScatterDims.start
  rw [dif_neg (show (1 : Fin 2) ∉ (rowDims N E C wf).scatterDimsToOperandDims from (by decide : (1 : Fin 2) ∉ [(0 : Fin 2)]))]

/-- The row axis is an inserted one: the window coordinate is `0` there. -/
theorem window_row (e : Fin E) (c : Fin C) : (rowDims N E C wf).window (ix2 e c) 0 = 0 := by
  unfold ScatterDims.window
  rw [dif_neg (show (0 : Fin 2) ∉ (rowDims N E C wf).sKept from
    (by decide : (0 : Fin 2) ∉ (List.finRange 2).filter (· ∉ [(0 : Fin 2)])))]

/-- On the column axis the window coordinate is the update's own column. -/
theorem window_col (e : Fin E) (c : Fin C) : (rowDims N E C wf).window (ix2 e c) 1 = c.val := by
  unfold ScatterDims.window
  rw [dif_pos (show (1 : Fin 2) ∈ (rowDims N E C wf).sKept from
    (by decide : (1 : Fin 2) ∈ (List.finRange 2).filter (· ∉ [(0 : Fin 2)])))]
  rfl

/-- Update `(e, c')` lands on `(n, c)` exactly when its index, read signed, is `n` and its column is `c`. -/
theorem resultIdx?_eq_some_iff (idx : IVec ⟨2, ![E, 1]⟩ w) (e : Fin E) (c' c : Fin C) (n : Fin N) :
    (rowDims N E C wf).resultIdx? (ix2 e c') idx = some (ix2 n c)
      ↔ ((idx (ix2 e (0 : Fin 1))).toInt = (n.val : Int) ∧ c' = c) := by
  have hn := n.isLt
  have hc' := c'.isLt
  unfold ScatterDims.resultIdx?
  by_cases h : ∀ a, 0 ≤ (rowDims N E C wf).start (ix2 e c') idx a + (rowDims N E C wf).window (ix2 e c') a
      ∧ (rowDims N E C wf).start (ix2 e c') idx a + (rowDims N E C wf).window (ix2 e c') a
        < ((⟨2, ![N, C]⟩ : Shape).size a : Int)
  · rw [dif_pos h, Option.some.injEq]
    have h0 := h 0
    rw [start_row, window_row] at h0
    constructor
    · intro heq
      have e0 := congrArg Fin.val (congrFun heq 0)
      have e1 := congrArg Fin.val (congrFun heq 1)
      change ((rowDims N E C wf).start (ix2 e c') idx 0 + ((rowDims N E C wf).window (ix2 e c') 0 : Nat)).toNat = n.val at e0
      change ((rowDims N E C wf).start (ix2 e c') idx 1 + ((rowDims N E C wf).window (ix2 e c') 1 : Nat)).toNat = c.val at e1
      rw [start_row, window_row] at e0
      rw [start_col, window_col] at e1
      refine ⟨by omega, Fin.ext (by omega)⟩
    · rintro ⟨ht, rfl⟩
      funext a
      refine Fin.ext ?_
      match a with
      | ⟨0, _⟩ =>
        show ((rowDims N E C wf).start (ix2 e c') idx 0 + ((rowDims N E C wf).window (ix2 e c') 0 : Nat)).toNat = n.val
        rw [start_row, window_row]; omega
      | ⟨1, _⟩ =>
        show ((rowDims N E C wf).start (ix2 e c') idx 1 + ((rowDims N E C wf).window (ix2 e c') 1 : Nat)).toNat = c'.val
        rw [start_col, window_col]; omega
  · rw [dif_neg h]
    refine ⟨fun hh => absurd hh (by simp), ?_⟩
    rintro ⟨ht, rfl⟩
    refine absurd (fun a => ?_) h
    match a with
    | ⟨0, _⟩ =>
      show 0 ≤ (rowDims N E C wf).start (ix2 e c') idx 0 + ((rowDims N E C wf).window (ix2 e c') 0 : Nat)
        ∧ (rowDims N E C wf).start (ix2 e c') idx 0 + ((rowDims N E C wf).window (ix2 e c') 0 : Nat) < (N : Int)
      rw [start_row, window_row]; omega
    | ⟨1, _⟩ =>
      show 0 ≤ (rowDims N E C wf).start (ix2 e c') idx 1 + ((rowDims N E C wf).window (ix2 e c') 1 : Nat)
        ∧ (rowDims N E C wf).start (ix2 e c') idx 1 + ((rowDims N E C wf).window (ix2 e c') 1 : Nat) < (C : Int)
      rw [start_col, window_col]; omega

/-- THE ROW SCATTER-ADD READ AT `(n, c)`, on the extended reals: the operand's entry plus the sum, over the update rows
    whose index (read signed) is `n`, of the update's entry in column `c`. -/
theorem scatterAdd_rows_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_eq_some_iff]
  by_cases ht : (idx (ix2 e (0 : Fin 1))).toInt = (n.val : Int)
  · simp only [ht, true_and, if_true]
    rw [Finset.sum_ite_eq' Finset.univ c (fun c' => upd (ix2 e c'))]
    simp
  · simp only [ht, false_and, if_false, Finset.sum_const_zero]

/-- The same for the host operation as a program spells it, at any record of these dimension numbers that is the row
    record (`hd`, by `rfl` on a program's literal record). -/
theorem host_scatterAdd_rows_apply {φ : FTy} (d : ScatterDims ⟨2, ![N, C]⟩ ⟨2, ![E, 1]⟩ ⟨2, ![E, C]⟩)
    (hd : d = rowDims N E C wf) (x : FVec Ideal ⟨2, ![N, C]⟩ φ) (idx : IVec ⟨2, ![E, 1]⟩ w)
    (upd : FVec Ideal ⟨2, ![E, C]⟩ φ) (n : Fin N) (c : Fin C) :
    Host.scatterAdd d x idx upd (ix2 n c)
      = x (ix2 n c) + ∑ e : Fin E, if (idx (ix2 e (0 : Fin 1))).toInt = (n.val : Int) then upd (ix2 e c) else 0 := by
  subst hd
  exact scatterAdd_rows_apply wf x idx upd n c

end Idealize.ShloMosaic.ScatterRows

end
-- ==== Proof.LibGatherRows.lean ====
/-
  A reusable general lemma: `stablehlo.gather` of WHOLE ROWS of a rank-2 operand, read at an index.

  What `x[idx]` of a table `x : [N, C]` at an integer array `idx : [R]` lowers to: a gather with offset_dims `[1]`,
  collapsed_slice_dims `[0]`, start_index_map `[0]`, index_vector_dim 1 and slice sizes `[1, C]` over the indices as a
  column `[R, 1]`. Result element `(r, c)` is `x` at row `idx[r, 0]` — read as a signed integer and clamped into
  `[0, N − 1]`, as the operation clamps every start index so that the slice fits — and column `c`: on the collapsed
  axis the operand index is the clamped start alone, on the other axis (which the start index map does not name) it is
  the result's own offset coordinate. Stated at any extents `N`, `R`, `C` and any index width.
-/
import Idealize.ShloMosaic.Lib.ValueIdx

noncomputable section

namespace Idealize.ShloMosaic.GatherRows

open Idealize.ShloMosaic Idealize.ShloMosaic.ValueIdx

variable {α : Type}

/-- The row gather's dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ =>
    show (rowDims N R C wf).start (ix2 r c) idx 0 + (rowDims N R C wf).batchCoord (ix2 r c) 0
        + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
        + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ [(0 : Fin 2)]))]
    simp only [Nat.add_zero, Nat.zero_add]
    rfl

end Idealize.ShloMosaic.GatherRows

end
-- ==== Proof.LibSparseProduct.lean ====
/-
  A reusable general lemma: a sparse matrix in coordinate form times a dense matrix, read at an entry, for any extents
  (it cites the row-scatter and row-gather lemmas of LibScatterRows and LibGatherRows, which sit beside it).

  A sparse matrix in coordinate form — row indices, column indices and values, one of each per stored entry `e` — acts
  on a dense matrix `D` with `N` rows: row `cols[e]` of `D` (the index read signed and clamped into `[0, N − 1]`) is
  scaled by `vals[e]` and added into row `rows[e]` of a zero matrix, an entry whose row index is negative or at least
  `N` landing nowhere. On the extended reals the result at `(n, c)` is the sum, over the stored entries whose row index
  is `n`, of `vals[e] · D (cols[e], c)`: the product acts column by column.
-/
import proofs.«174434_j60601988546853_1_alg».proof.Proof.LibScatterRows
import proofs.«174434_j60601988546853_1_alg».proof.Proof.LibGatherRows
import Idealize.ShloMosaic.Lib.Pipeline.Value
import Idealize.ShloMosaic.Lib.ValueIdx
import Idealize.ShloMosaic.PureOps.Ideal.Laws

noncomputable section

open scoped BigOperators

namespace Cert.Bridge

open Idealize.ShloMosaic Idealize.ShloMosaic.ValueIdx

variable {α : Type}

/-- A vector stood up as a column reads, in row `e`, the vector's entry `e`. -/
theorem column_apply {E : Nat} (h : (⟨1, ![E]⟩ : Shape).BroadcastsInDim ⟨2, ![E, 1]⟩ ![0])
    (v : (⟨1, ![E]⟩ : Shape).Idx → α) (e : Fin E) (z : Fin 1) :
    broadcastInDim (⟨2, ![E, 1]⟩ : Shape) ![0] h v (ix2 e z) = v (ix1 e) :=
  broadcastInDim_apply _ h v _ (ix1 e) (fun a => match a with
    | ⟨0, _⟩ => by
      show e.val = if E = 1 then 0 else e.val
      have := e.isLt
      split <;> omega)

/-- A column repeated across `C` columns reads, at `(e, c)`, the column's entry `e`. -/
theorem spread_apply {E C : Nat} (h : (⟨2, ![E, 1]⟩ : Shape).BroadcastsInDim ⟨2, ![E, C]⟩ ![0, 1])
    (v : (⟨2, ![E, 1]⟩ : Shape).Idx → α) (e : Fin E) (c : Fin C) :
    broadcastInDim (⟨2, ![E, C]⟩ : Shape) ![0, 1] h v (ix2 e c) = v (ix2 e (0 : Fin 1)) :=
  broadcastInDim_apply _ h v _ (ix2 e (0 : Fin 1)) (fun a => match a with
    | ⟨0, _⟩ => by
      show e.val = if E = 1 then 0 else e.val
      have := e.isLt
      split <;> omega
    | ⟨1, _⟩ => by
      show 0 = if (1 : Nat) = 1 then 0 else c.val
      rw [if_pos rfl])

/-- The zero matrix reads `0` everywhere. -/
theorem zeros_apply {s : Shape} (h : (⟨0, ![]⟩ : Shape).BroadcastsInDim s ![]) (j : s.Idx) :
    broadcastInDim s ![] h (constant (F := Ideal) (⟨0, ![]⟩ : Shape) .f32 0x00000000#32) j = (0 : EReal) :=
  (broadcastInDim_apply _ h _ j (fun a => a.elim0) (fun a => a.elim0)).trans Ideal.ofBits_zero_f32

/-- THE SPARSE PRODUCT READ AT `(n, c)`: the sum, over the stored entries whose row index is `n`, of the entry's value
    times `D` at the entry's clamped column index and column `c`. -/
theorem spmm_apply {N E C : Nat} (hN : 0 < N)
    (swf : ScatterDims.WF ⟨2, ![N, C]⟩ ⟨2, ![E, 1]⟩ ⟨2, ![E, C]⟩ [1] [0] [0] 1)
    (gwf : GatherDims.WF ⟨2, ![N, C]⟩ ⟨2, ![E, 1]⟩ ⟨2, ![E, C]⟩ [1] [0] [] [0] [] 1 ![1, C])
    (sd : ScatterDims ⟨2, ![N, C]⟩ ⟨2, ![E, 1]⟩ ⟨2, ![E, C]⟩) (hsd : sd = ScatterRows.rowDims N E C swf)
    (gd : GatherDims ⟨2, ![N, C]⟩ ⟨2, ![E, 1]⟩ ⟨2, ![E, C]⟩) (hgd : gd = GatherRows.rowDims N E C gwf)
    (h0 : (⟨0, ![]⟩ : Shape).BroadcastsInDim ⟨2, ![N, C]⟩ ![])
    (hE : (⟨1, ![E]⟩ : Shape).BroadcastsInDim ⟨2, ![E, 1]⟩ ![0])
    (hEC : (⟨2, ![E, 1]⟩ : Shape).BroadcastsInDim ⟨2, ![E, C]⟩ ![0, 1])
    (rows colsW : IVec ⟨1, ![E]⟩ 32) (vals : FVec Ideal ⟨1, ![E]⟩ .f32) (D : FVec Ideal ⟨2, ![N, C]⟩ .f32)
    (n : Fin N) (c : Fin C) :
    Host.scatterAdd (F := Ideal) sd
        (broadcastInDim ⟨2, ![N, C]⟩ ![] h0 (constant (F := Ideal) (⟨0, ![]⟩ : Shape) .f32 0x00000000#32))
        (broadcastInDim ⟨2, ![E, 1]⟩ ![0] hE rows)
        (mulf (broadcastInDim ⟨2, ![E, C]⟩ ![0, 1] hEC (broadcastInDim ⟨2, ![E, 1]⟩ ![0] hE vals))
          (Host.gather gd D (broadcastInDim ⟨2, ![E, 1]⟩ ![0] hE colsW))) (ix2 n c)
      = ∑ e : Fin E, if (rows (ix1 e)).toInt = (n.val : Int) then
          (vals (ix1 e) : EReal) * D (ix2 ⟨min (colsW (ix1 e)).toInt.toNat (N - 1), by omega⟩ c) else 0 := by
  subst hgd
  rw [ScatterRows.host_scatterAdd_rows_apply swf sd hsd, zeros_apply, zero_add]
  refine Finset.sum_congr rfl fun e _ => ?_
  have hr : broadcastInDim (⟨2, ![E, 1]⟩ : Shape) ![0] hE rows (ix2 e (0 : Fin 1)) = rows (ix1 e) := column_apply hE rows e 0
  have hc : broadcastInDim (⟨2, ![E, 1]⟩ : Shape) ![0] hE colsW (ix2 e (0 : Fin 1)) = colsW (ix1 e) := column_apply hE colsW e 0
  rw [hr, mulf_apply, spread_apply, column_apply, GatherRows.gather_rows_apply hN gwf]
  have hi : (⟨min (broadcastInDim (⟨2, ![E, 1]⟩ : Shape) ![0] hE colsW (ix2 e (0 : Fin 1))).toInt.toNat (N - 1), by omega⟩ : Fin N)
      = ⟨min (colsW (ix1 e)).toInt.toNat (N - 1), by omega⟩ := Fin.ext (by simp only [hc])
  rw [hi]

end Cert.Bridge

end
-- ==== Proof.BridgeLayers.lean ====
/-
  The network's two layers agree, entry by entry, on the extended reals.

  The first layer: the kernel's hidden features are the rectified sparse product of a matrix `M0` plus a bias row, and
  the reference's are the same expression of the product of the features with the first weight matrix; so they agree as
  soon as `M0` is that product. The second layer: the kernel applies the sparse product to a matrix `M1` of 128 columns,
  the hidden features times the two weight matrices laid side by side; column `c < 64` of `M1` is column `c` of the hidden
  features times the mean's weights, column `64 + c` is column `c` of the hidden features times the log-variance's
  weights, and the sparse product acts column by column: its columns `0..63` are the reference's sparse product for the
  mean, its columns `64..127` the one for the log-variance.
-/
import proofs.«174434_j60601988546853_1_alg».proof.Proof.Net
import proofs.«174434_j60601988546853_1_alg».proof.Proof.Gen.KernelIdeal
import proofs.«174434_j60601988546853_1_alg».proof.Proof.Gen.ReferenceIdeal
import proofs.«174434_j60601988546853_1_alg».proof.Proof.Gen.ReferenceIdeal.Read
import proofs.«174434_j60601988546853_1_alg».proof.Proof.LibConcatCols
import proofs.«174434_j60601988546853_1_alg».proof.Proof.BridgeDefs
import proofs.«174434_j60601988546853_1_alg».proof.Proof.LibSparseProduct

noncomputable section

open scoped BigOperators

namespace Cert.Bridge

open Idealize.ShloMosaic Idealize.ShloMosaic.ValueIdx

variable (x : (⟨Cert.KernelIdeal.S16384x512, .f32⟩ : BufTy).Contents (Elt Ideal))
  (rows cols : (⟨Cert.KernelIdeal.S524288, .i32⟩ : BufTy).Contents (Elt Ideal))
  (vals : (⟨Cert.KernelIdeal.S524288, .f32⟩ : BufTy).Contents (Elt Ideal))
  (W1 : (⟨Cert.KernelIdeal.S512x256, .f32⟩ : BufTy).Contents (Elt Ideal))
  (b1 : (⟨Cert.KernelIdeal.S256, .f32⟩ : BufTy).Contents (Elt Ideal))
  (W2 W3 : (⟨Cert.KernelIdeal.S256x64, .f32⟩ : BufTy).Contents (Elt Ideal))
  (b2 b3 : (⟨Cert.KernelIdeal.S64, .f32⟩ : BufTy).Contents (Elt Ideal))

/-- The column indices as both programs read them: a negative index is first wrapped by the row count 16384. -/
def wrapped (cols : IVec Cert.KernelIdeal.S524288 32) : IVec Cert.KernelIdeal.S524288 32 :=
  select (cmpi .slt cols (broadcastInDim Cert.KernelIdeal.S524288 ![] Cert.KernelIdeal.Gen.bcast_S_S524288 (constantI Cert.KernelIdeal.S_ 32 0#32)))
    (addi cols (broadcastInDim Cert.KernelIdeal.S524288 ![] Cert.KernelIdeal.Gen.bcast_S_S524288 (constantI Cert.KernelIdeal.S_ 32 16384#32))) cols

/-- The row of the dense matrix that stored entry `e` reads: its wrapped column index, clamped into `[0, 16383]`. -/
def source (cols : IVec Cert.KernelIdeal.S524288 32) (e : Fin 524288) : Fin 16384 :=
  ⟨min (wrapped cols (ix1 e)).toInt.toNat (16384 - 1), by omega⟩

/-! ## The first layer -/

/-- A matrix that is, entry by entry, the product of the features with the first weight matrix is the reference's. -/
theorem firstDot_eq (M0 : FVec Ideal Cert.KernelIdeal.S16384x256 .f32)
    (hM0 : ∀ (p : Fin 16384) (c : Fin 256), M0 (ix2 p c) = ∑ k : Fin 512, x (ix2 p k) * W1 (ix2 k c)) :
    M0 = Cert.ReferenceIdeal.Read.val_main_v0 (F := Ideal) x W1 := by
  funext i
  obtain ⟨p, c, rfl⟩ : ∃ p c, i = ix2 p c := ⟨i 0, i 1, eq_ix2 i⟩
  rw [hM0, Cert.ReferenceIdeal.Read.val_main_v0_apply]
  refine Finset.sum_congr rfl fun k _ => ?_
  have hl : Cert.ReferenceIdeal.Read.lidx_main_v0 (ix2 p c) k = ix2 p k := funext fun a => match a with
    | ⟨0, _⟩ => rfl
    | ⟨1, _⟩ => rfl
  have hr : Cert.ReferenceIdeal.Read.ridx_main_v0 (ix2 p c) k = ix2 k c := funext fun a => match a with
    | ⟨0, _⟩ => rfl
    | ⟨1, _⟩ => rfl
  rw [hl, hr]

/-- The kernel's hidden features of such a matrix are the reference's: the two are the same expression, written with
    each program's own shape records. -/
theorem hidden_eq (M0 : FVec Ideal Cert.KernelIdeal.S16384x256 .f32)
    (hM0 : ∀ (p : Fin 16384) (c : Fin 256), M0 (ix2 p c) = ∑ k : Fin 512, x (ix2 p k) * W1 (ix2 k c)) :
    Cert.KernelIdeal.Net.hidden rows cols vals b1 M0 = Cert.ReferenceIdeal.Read.val_main_v17 (F := Ideal) x rows cols vals W1 b1 := by
  rw [firstDot_eq x W1 M0 hM0]
  rfl

/-! ## The sparse product, in each program's own records -/

/-- The kernel's sparse product with a matrix of 128 columns, read at an entry. -/
theorem spmm128_apply (D : FVec Ideal Cert.KernelIdeal.S16384x128 .f32) (n : Fin 16384) (c : Fin 128) :
    Cert.KernelIdeal.Net.spmm128 rows cols vals D (ix2 n c)
      = ∑ e : Fin 524288, if BitVec.toInt (rows (ix1 e)) = (n.val : Int) then
          (vals (ix1 e) : EReal) * D (ix2 (source cols e) c) else 0 := by
  unfold Cert.KernelIdeal.Net.spmm128 Cert.KernelIdeal.Net.rowIdx Cert.KernelIdeal.Net.colIdx
  exact spmm_apply (N := 16384) (E := 524288) (C := 128) (by decide)
    Cert.KernelIdeal.Gen.scatter_S16384x128_S524288x1_S524288x128_1_0_0_1_wf Cert.KernelIdeal.Gen.gather_S16384x128_S524288x1_S524288x128_1_0_n_n_0_1_1128_wf _ rfl _ rfl _ _ _ rows (wrapped cols) vals D n c

/-- The reference's sparse product for the mean, read at an entry. -/
theorem ref_spmm_mean_apply (n : Fin 16384) (c : Fin 64) :
    Cert.ReferenceIdeal.Read.val_main_v31 (F := Ideal) x rows cols vals W1 b1 W2 (ix2 n c)
      = ∑ e : Fin 524288, if BitVec.toInt (rows (ix1 e)) = (n.val : Int) then
          (vals (ix1 e) : EReal) * Cert.ReferenceIdeal.Read.val_main_v18 (F := Ideal) x rows cols vals W1 b1 W2 (ix2 (source cols e) c) else 0 := by
  unfold Cert.ReferenceIdeal.Read.val_main_v31 Cert.ReferenceIdeal.Read.val_main_v28 Cert.ReferenceIdeal.Read.val_main_v26
  generalize Cert.ReferenceIdeal.Read.val_main_v18 (F := Ideal) x rows cols vals W1 b1 W2 = D
  exact spmm_apply (N := 16384) (E := 524288) (C := 64) (by decide)
    Cert.ReferenceIdeal.Gen.scatter_S16384x64_S524288x1_S524288x64_1_0_0_1_wf Cert.ReferenceIdeal.Gen.gather_S16384x64_S524288x1_S524288x64_1_0_n_n_0_1_164_wf _ rfl _ rfl _ _ _ rows (wrapped cols) vals D n c

/-- The reference's sparse product for the log-variance, read at an entry. -/
theorem ref_spmm_logvar_apply (n : Fin 16384) (c : Fin 64) :
    Cert.ReferenceIdeal.Read.val_main_v48 (F := Ideal) x rows cols vals W1 b1 W3 (ix2 n c)
      = ∑ e : Fin 524288, if BitVec.toInt (rows (ix1 e)) = (n.val : Int) then
          (vals (ix1 e) : EReal) * Cert.ReferenceIdeal.Read.val_main_v35 (F := Ideal) x rows cols vals W1 b1 W3 (ix2 (source cols e) c) else 0 := by
  unfold Cert.ReferenceIdeal.Read.val_main_v48 Cert.ReferenceIdeal.Read.val_main_v45 Cert.ReferenceIdeal.Read.val_main_v43
  generalize Cert.ReferenceIdeal.Read.val_main_v35 (F := Ideal) x rows cols vals W1 b1 W3 = D
  exact spmm_apply (N := 16384) (E := 524288) (C := 64) (by decide)
    Cert.ReferenceIdeal.Gen.scatter_S16384x64_S524288x1_S524288x64_1_0_0_1_wf Cert.ReferenceIdeal.Gen.gather_S16384x64_S524288x1_S524288x64_1_0_n_n_0_1_164_wf _ rfl _ rfl _ _ _ rows (wrapped cols) vals D n c

/-! ## The second layer's dense matrix, column by column -/

section
variable (M0 : FVec Ideal Cert.KernelIdeal.S16384x256 .f32) (M1 : FVec Ideal Cert.KernelIdeal.S16384x128 .f32)
    (hM0 : ∀ (p : Fin 16384) (c : Fin 256), M0 (ix2 p c) = ∑ k : Fin 512, x (ix2 p k) * W1 (ix2 k c))
    (hM1 : ∀ (p : Fin 16384) (c : Fin 128), M1 (ix2 p c)
      = ∑ k : Fin 256, Cert.KernelIdeal.Net.hidden rows cols vals b1 M0 (ix2 p k) * Cert.KernelIdeal.Net.weights23 W2 W3 (ix2 k c))
include hM0 hM1

/-- Column `c < 64` of the 128-column matrix is column `c` of the hidden features times the mean's weights. -/
theorem dense_left (q : Fin 16384) (c : Fin 64) (c' : Fin 128) (hc : c'.val = c.val) :
    M1 (ix2 q c') = Cert.ReferenceIdeal.Read.val_main_v18 (F := Ideal) x rows cols vals W1 b1 W2 (ix2 q c) := by
  rw [hM1, Cert.ReferenceIdeal.Read.val_main_v18_apply, hidden_eq x rows cols vals W1 b1 M0 hM0]
  refine Finset.sum_congr rfl fun k _ => ?_
  have hw : Cert.KernelIdeal.Net.weights23 W2 W3 (ix2 k c') = W2 (ix2 k c) := by
    unfold Cert.KernelIdeal.Net.weights23
    exact concatenate_cols_left W2 W3 _ k c' c hc
  have hl : Cert.ReferenceIdeal.Read.lidx_main_v18 (ix2 q c) k = ix2 q k := funext fun a => match a with
    | ⟨0, _⟩ => rfl
    | ⟨1, _⟩ => rfl
  have hr : Cert.ReferenceIdeal.Read.ridx_main_v18 (ix2 q c) k = ix2 k c := funext fun a => match a with
    | ⟨0, _⟩ => rfl
    | ⟨1, _⟩ => rfl
  rw [hw, hl, hr]

/-- Column `64 + c` of the 128-column matrix is column `c` of the hidden features times the log-variance's weights. -/
theorem dense_right (q : Fin 16384) (c : Fin 64) (c' : Fin 128) (hc : c.val + 64 = c'.val) :
    M1 (ix2 q c') = Cert.ReferenceIdeal.Read.val_main_v35 (F := Ideal) x rows cols vals W1 b1 W3 (ix2 q c) := by
  rw [hM1, Cert.ReferenceIdeal.Read.val_main_v35_apply, hidden_eq x rows cols vals W1 b1 M0 hM0]
  refine Finset.sum_congr rfl fun k _ => ?_
  have hw : Cert.KernelIdeal.Net.weights23 W2 W3 (ix2 k c') = W3 (ix2 k c) := by
    unfold Cert.KernelIdeal.Net.weights23
    exact concatenate_cols_right W2 W3 _ k c' c hc
  have hl : Cert.ReferenceIdeal.Read.lidx_main_v35 (ix2 q c) k = ix2 q k := funext fun a => match a with
    | ⟨0, _⟩ => rfl
    | ⟨1, _⟩ => rfl
  have hr : Cert.ReferenceIdeal.Read.ridx_main_v35 (ix2 q c) k = ix2 k c := funext fun a => match a with
    | ⟨0, _⟩ => rfl
    | ⟨1, _⟩ => rfl
  rw [hw, hl, hr]

/-! ## The mean and the log-variance -/

/-- The kernel's mean — columns 0..63 of its 128-column sparse product, plus the bias row — is the reference's. -/
theorem mean_eq :
    Cert.KernelIdeal.Net.meanOf rows cols vals b2 M1 = refMean x rows cols vals W1 b1 W2 b2 := by
  funext i
  obtain ⟨n, c, rfl⟩ : ∃ (n : Fin 16384) (c : Fin 64), i = ix2 n c := ⟨i 0, i 1, eq_ix2 i⟩
  unfold Cert.KernelIdeal.Net.meanOf refMean Cert.ReferenceIdeal.Read.val_main_v34
  rw [addf_apply, addf_apply]
  refine congrArg₂ (· + ·) ?_ rfl
  rw [extractStridedSlice_apply ![0, 0] _ _ (ix2 n c) (ix2 n (⟨c.val, by omega⟩ : Fin 128)) (fun a => match a with
      | ⟨0, _⟩ => by show n.val = 0 + n.val; omega
      | ⟨1, _⟩ => by show c.val = 0 + c.val; omega),
    spmm128_apply, ref_spmm_mean_apply]
  refine Finset.sum_congr rfl fun e _ => ?_
  rw [dense_left x rows cols vals W1 b1 W2 W3 M0 M1 hM0 hM1 (source cols e) c ⟨c.val, by omega⟩ rfl]

/-- The kernel's log-variance — columns 64..127 of its 128-column sparse product, plus the bias row — is the
    reference's. -/
theorem logvar_eq :
    Cert.KernelIdeal.Net.logvarOf rows cols vals b3 M1 = refLogvar x rows cols vals W1 b1 W3 b3 := by
  funext i
  obtain ⟨n, c, rfl⟩ : ∃ (n : Fin 16384) (c : Fin 64), i = ix2 n c := ⟨i 0, i 1, eq_ix2 i⟩
  unfold Cert.KernelIdeal.Net.logvarOf refLogvar Cert.ReferenceIdeal.Read.val_main_v51
  rw [addf_apply, addf_apply]
  refine congrArg₂ (· + ·) ?_ rfl
  rw [extractStridedSlice_apply ![0, 64] _ _ (ix2 n c) (ix2 n (⟨64 + c.val, by omega⟩ : Fin 128)) (fun a => match a with
      | ⟨0, _⟩ => by show n.val = 0 + n.val; omega
      | ⟨1, _⟩ => by show 64 + c.val = 64 + c.val; rfl),
    spmm128_apply, ref_spmm_logvar_apply]
  refine Finset.sum_congr rfl fun e _ => ?_
  rw [dense_right x rows cols vals W1 b1 W2 W3 M0 M1 hM0 hM1 (source cols e) c ⟨64 + c.val, by omega⟩ (by show c.val + 64 = 64 + c.val; omega)]

end

end Cert.Bridge

end
-- ==== Proof.BridgeAdj.lean ====
/-
  The adjacency: a matrix whose entry `(i, j)` is the sum over `k` of `z (i, k) · z (j, k)`, for `z` the reference's mean,
  is the reference's product of the mean with its own transpose, entry by entry on the extended reals.
-/
import proofs.«174434_j60601988546853_1_alg».proof.Proof.Net
import proofs.«174434_j60601988546853_1_alg».proof.Proof.Gen.KernelIdeal
import proofs.«174434_j60601988546853_1_alg».proof.Proof.Gen.ReferenceIdeal
import proofs.«174434_j60601988546853_1_alg».proof.Proof.Gen.ReferenceIdeal.Read
import proofs.«174434_j60601988546853_1_alg».proof.Proof.BridgeDefs

noncomputable section

open scoped BigOperators

namespace Cert.Bridge

open Idealize.ShloMosaic Idealize.ShloMosaic.ValueIdx

variable (x : (⟨Cert.KernelIdeal.S16384x512, .f32⟩ : BufTy).Contents (Elt Ideal))
  (rows cols : (⟨Cert.KernelIdeal.S524288, .i32⟩ : BufTy).Contents (Elt Ideal))
  (vals : (⟨Cert.KernelIdeal.S524288, .f32⟩ : BufTy).Contents (Elt Ideal))
  (W1 : (⟨Cert.KernelIdeal.S512x256, .f32⟩ : BufTy).Contents (Elt Ideal))
  (b1 : (⟨Cert.KernelIdeal.S256, .f32⟩ : BufTy).Contents (Elt Ideal))
  (W2 W3 : (⟨Cert.KernelIdeal.S256x64, .f32⟩ : BufTy).Contents (Elt Ideal))
  (b2 b3 : (⟨Cert.KernelIdeal.S64, .f32⟩ : BufTy).Contents (Elt Ideal))

theorem adj_eq (Z : FVec Ideal Cert.KernelIdeal.S16384x16384 .f32) (z : FVec Ideal Cert.KernelIdeal.S16384x64 .f32)
    (hz : z = refMean x rows cols vals W1 b1 W2 b2)
    (hZ : ∀ (i j : Fin 16384), Z (ix2 i j) = ∑ k : Fin 64, z (ix2 i k) * z (ix2 j k)) :
    Z = refAdj x rows cols vals W1 b1 W2 b2 := by
  subst hz
  funext i
  obtain ⟨p, q, rfl⟩ : ∃ p q, i = ix2 p q := ⟨i 0, i 1, eq_ix2 i⟩
  rw [hZ]
  unfold refAdj
  rw [Cert.ReferenceIdeal.Read.val_main_v53_apply]
  refine Finset.sum_congr rfl fun k _ => ?_
  rw [Cert.ReferenceIdeal.Read.val_main_v52_apply]
  have hl : Cert.ReferenceIdeal.Read.lidx_main_v53 (ix2 p q) k = ix2 p k := funext fun a => match a with
    | ⟨0, _⟩ => rfl
    | ⟨1, _⟩ => rfl
  have hr : Cert.ReferenceIdeal.Read.idx_main_v52 (Cert.ReferenceIdeal.Read.ridx_main_v53 (ix2 p q) k) = ix2 q k := funext fun a => match a with
    | ⟨0, _⟩ => rfl
    | ⟨1, _⟩ => rfl
  rw [hl, hr]
  rfl

end Cert.Bridge

end
-- ==== Proof.ValueI.lean ====
/-
  What the program's three results hold at the end, on the extended reals: the mean, the log-variance and the product of
  the mean with its own transpose, each as the reference's function of the argument arrays.

  The first call's output is the plain product x·W1 (its blocks are restrictions of one whole-array product); the hidden
  features are the network's first layer of it; the second call's output is the hidden features times the two weight
  matrices side by side; the mean and log-variance are the network's second layer of that, which is the reference's
  (column c of the side-by-side product is column c of the product with the first matrix, column 64 + c is column c of
  the product with the second, and the sparse product acts column by column); the third call's output at (i, j) is the
  sum over k of mean(i, k) · mean(j, k).
-/
import proofs.«174434_j60601988546853_1_alg».proof.Proof.HostI
import proofs.«174434_j60601988546853_1_alg».proof.Proof.Reals
import proofs.«174434_j60601988546853_1_alg».proof.Proof.Blocks0
import proofs.«174434_j60601988546853_1_alg».proof.Proof.Blocks1
import proofs.«174434_j60601988546853_1_alg».proof.Proof.Blocks2
import proofs.«174434_j60601988546853_1_alg».proof.Proof.BridgeLayers
import proofs.«174434_j60601988546853_1_alg».proof.Proof.BridgeAdj

set_option maxRecDepth 16384

noncomputable section

open scoped BigOperators

namespace Cert.KernelIdeal.Hand

open Idealize.ShloMosaic Idealize.ShloMosaic.TcCoe Idealize.ShloMosaic.StableHlo Idealize.ShloMosaic.ValueIdx
open Idealize.SL Idealize.SL.RA Idealize.SL.Sem
open Cert.KernelIdeal Cert.KernelIdeal.Gen Cert.KernelIdeal.Net

variable (m : (ℓ : Loc nD τ sig) → Buf (Elt Ideal) ℓ) (c : Dev nD)

/-- A buffer written by no call and no host stretch before the second call's exit is as launched there. -/
theorem mem5_launch (r : Ref sig .tc) (hY : ∀ w, Pipeline.arrRef spec1 w ≠ r) (h12 : r ∉ hostOps1_2_W)
    (h11 : r ∉ hostOps1_1_W) (h1 : r ∉ hostOps1_W) (hX : ∀ w, Pipeline.arrRef spec0 w ≠ r) :
    mem5 m c (Proc.devRef .tc r) = m ((c : Thread nD τ).loc r) :=
  (mem5_keep m c r hY h12 h11 h1).trans ((mem1_of_ne m c r hX).trans rfl)

/-- The first call's output array, after its write-backs. -/
abbrev firstProduct : FVec Ideal S16384x256 .f32 := mem1 m c (Proc.devRef .tc main_v0)
/-- The second call's output array, after its write-backs. -/
abbrev secondProduct : FVec Ideal S16384x128 .f32 := mem5 m c (Proc.devRef .tc main_v19)

theorem firstProduct_apply (p : Fin 16384) (j : Fin 256) :
    firstProduct m c (ix2 p j)
      = ∑ k : Fin 512, entry (S := S16384x512) (m ((c : Thread nD τ).loc main_arg0)) (ix2 p k)
          * entry (S := S512x256) (m ((c : Thread nD τ).loc main_arg4)) (ix2 k j) := by
  unfold firstProduct
  rw [show mem1 m c (Proc.devRef .tc main_v0) = (datX m c).arrAt 2 cfg0.N from mem1_arr m c 2]
  exact product0_whole (at0 m) fullShare fullShare c p j

/-- The hidden features the second call reads are the network's first layer of the first product. -/
theorem hidden_read :
    mem4 m c (Proc.devRef .tc main_v17)
      = hidden (m ((c : Thread nD τ).loc main_arg1)) (m ((c : Thread nD τ).loc main_arg2)) (m ((c : Thread nD τ).loc main_arg3))
          (m ((c : Thread nD τ).loc main_arg5)) (firstProduct m c) := by
  have e1 : mem4 m c (Proc.devRef .tc main_v17) = mem3 m c (Proc.devRef .tc main_v17) :=
    StableHlo.after_of_writes_sub hostOps1_2 _ hostOps1_2_writes (by decide)
  rw [e1, show mem3 m c = StableHlo.after hostOps1_1 (mem2 m c) from rfl, rectify_after,
    show mem2 m c = StableHlo.after hostOps1 (mem1 m c) from rfl, layer1_after,
    mem1_of_ne m c main_arg1 (by decide), mem1_of_ne m c main_arg2 (by decide), mem1_of_ne m c main_arg3 (by decide),
    mem1_of_ne m c main_arg5 (by decide)]
  rfl

/-- The weights the second call reads are the two matrices side by side. -/
theorem weights_read :
    mem4 m c (Proc.devRef .tc main_v18) = weights23 (m ((c : Thread nD τ).loc main_arg6)) (m ((c : Thread nD τ).loc main_arg8)) := by
  rw [show mem4 m c = StableHlo.after hostOps1_2 (mem3 m c) from rfl, weights_after]
  have e6 : mem3 m c (Proc.devRef .tc main_arg6) = m ((c : Thread nD τ).loc main_arg6) :=
    (StableHlo.after_of_writes_sub hostOps1_1 _ hostOps1_1_writes (by decide)).trans <|
      (StableHlo.after_of_writes_sub hostOps1 _ hostOps1_writes (by decide)).trans ((mem1_of_ne m c main_arg6 (by decide)).trans rfl)
  have e8 : mem3 m c (Proc.devRef .tc main_arg8) = m ((c : Thread nD τ).loc main_arg8) :=
    (StableHlo.after_of_writes_sub hostOps1_1 _ hostOps1_1_writes (by decide)).trans <|
      (StableHlo.after_of_writes_sub hostOps1 _ hostOps1_writes (by decide)).trans ((mem1_of_ne m c main_arg8 (by decide)).trans rfl)
  rw [e6, e8]

theorem secondProduct_apply (p : Fin 16384) (j : Fin 128) :
    secondProduct m c (ix2 p j)
      = ∑ k : Fin 256, hidden (m ((c : Thread nD τ).loc main_arg1)) (m ((c : Thread nD τ).loc main_arg2)) (m ((c : Thread nD τ).loc main_arg3))
            (m ((c : Thread nD τ).loc main_arg5)) (firstProduct m c) (ix2 p k)
          * weights23 (m ((c : Thread nD τ).loc main_arg6)) (m ((c : Thread nD τ).loc main_arg8)) (ix2 k j) := by
  unfold secondProduct
  rw [show mem5 m c (Proc.devRef .tc main_v19) = (datY m c).arrAt 2 cfg1.N from mem5_arr m c 2,
    ← hidden_read m c, ← weights_read m c]
  exact product1_whole (at4 m) fullShare fullShare c p j

/-- The mean's buffer at the end. -/
theorem mean_read :
    mem7 m c (Proc.devRef .tc main_v36)
      = meanOf (m ((c : Thread nD τ).loc main_arg1)) (m ((c : Thread nD τ).loc main_arg2)) (m ((c : Thread nD τ).loc main_arg3))
          (m ((c : Thread nD τ).loc main_arg7)) (secondProduct m c) := by
  rw [mem7_of_ne m c main_v36 (by decide), show mem6 m c = StableHlo.after hostOps2 (mem5 m c) from rfl, mean_after,
    mem5_launch m c main_arg1 (by decide) (by decide) (by decide) (by decide) (by decide),
    mem5_launch m c main_arg2 (by decide) (by decide) (by decide) (by decide) (by decide),
    mem5_launch m c main_arg3 (by decide) (by decide) (by decide) (by decide) (by decide),
    mem5_launch m c main_arg7 (by decide) (by decide) (by decide) (by decide) (by decide)]

/-- The log-variance's buffer at the end. -/
theorem logvar_read :
    mem7 m c (Proc.devRef .tc main_v40)
      = logvarOf (m ((c : Thread nD τ).loc main_arg1)) (m ((c : Thread nD τ).loc main_arg2)) (m ((c : Thread nD τ).loc main_arg3))
          (m ((c : Thread nD τ).loc main_arg9)) (secondProduct m c) := by
  rw [mem7_of_ne m c main_v40 (by decide), show mem6 m c = StableHlo.after hostOps2 (mem5 m c) from rfl, logvar_after,
    mem5_launch m c main_arg1 (by decide) (by decide) (by decide) (by decide) (by decide),
    mem5_launch m c main_arg2 (by decide) (by decide) (by decide) (by decide) (by decide),
    mem5_launch m c main_arg3 (by decide) (by decide) (by decide) (by decide) (by decide),
    mem5_launch m c main_arg9 (by decide) (by decide) (by decide) (by decide) (by decide)]

/-- THE MEAN is the reference's. -/
theorem mean_value :
    mem7 m c (Proc.devRef .tc main_v36)
      = Cert.Bridge.refMean (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  (mean_read m c).trans (Cert.Bridge.mean_eq _ _ _ _ _ _ _ (m ((c : Thread nD τ).loc main_arg8)) _ (firstProduct m c) (secondProduct m c)
    (firstProduct_apply m c) (secondProduct_apply m c))

/-- THE LOG-VARIANCE is the reference's. -/
theorem logvar_value :
    mem7 m c (Proc.devRef .tc main_v40)
      = Cert.Bridge.refLogvar (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg8)) (m ((c : Thread nD τ).loc main_arg9)) :=
  (logvar_read m c).trans (Cert.Bridge.logvar_eq _ _ _ _ _ _ (m ((c : Thread nD τ).loc main_arg6)) _ _ (firstProduct m c) (secondProduct m c)
    (firstProduct_apply m c) (secondProduct_apply m c))

/-- THE PRODUCT of the mean with its transpose is the reference's. -/
theorem adj_value :
    mem7 m c (Proc.devRef .tc main_v41)
      = Cert.Bridge.refAdj (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine Cert.Bridge.adj_eq _ _ _ _ _ _ _ _ (mem7 m c (Proc.devRef .tc main_v41)) (mem6 m c (Proc.devRef .tc main_v36)) ?_ ?_
  · exact (mem7_of_ne m c main_v36 (by decide)).symm.trans (mean_value m c)
  · intro i j
    rw [mem7_out m c]
    exact product2_whole (at6 m) fullShare.left fullShare.right c i j

end Cert.KernelIdeal.Hand

end
-- ==== Proof.lean ====
/-
  The certificate of a two-layer graph-convolution encoder with an inner-product decoder: the kernel's program against
  its reference.

  Both programs compute h = relu(A·(x·W1) + b1), then a mean and a log-variance as A·(h·W) + b with their own W and b,
  and the product of the mean with its own transpose; A is a sparse matrix given by its entries' rows, columns and
  values, applied by gathering rows, scaling them and adding them into place. The kernel forms the three dense products
  in pipelined Pallas calls — the two second-layer products as ONE product with the two weight matrices laid side by side,
  whose columns 0..63 and 64..127 are then taken apart — and the reference forms them as whole-array products.

  The three frames: each Pallas call's body loads its two input blocks, multiplies, and stores the whole output block, so
  every call runs without a fault and writes only its output array; no host operation writes an argument; the reference
  is host operations only. On the extended reals the results agree entry by entry: a blocked product is the whole
  product, column c of h·[W2 | W3] is column c of h·W2 and column 64 + c is column c of h·W3, the sparse product acts
  column by column, and the decoder's entry (i, j) is the sum over k of mean(i, k)·mean(j, k) in both programs. No
  operation of the kernel is rewritten by the idealization, so its faithfulness claim is the trivial one.
-/
import proofs.«174434_j60601988546853_1_alg».proof.Defs
import proofs.«174434_j60601988546853_1_alg».proof.Proof.Gen.Kernel
import proofs.«174434_j60601988546853_1_alg».proof.Proof.Gen.KernelIdeal
import proofs.«174434_j60601988546853_1_alg».proof.Proof.Gen.ReferenceIdeal
import proofs.«174434_j60601988546853_1_alg».proof.Proof.Gen.Pre_finite_inputs
import proofs.«174434_j60601988546853_1_alg».proof.Proof.Gen.ReferenceIdeal.Run
import proofs.«174434_j60601988546853_1_alg».proof.Proof.Gen.ReferenceIdeal.Read
import proofs.«174434_j60601988546853_1_alg».proof.Proof.RunB
import proofs.«174434_j60601988546853_1_alg».proof.Proof.ValueI
import Idealize.ShloMosaic.Adequacy
import Idealize.ShloMosaic.Init

set_option maxRecDepth 16384

noncomputable section

namespace Cert.Proof

open Idealize.ShloMosaic Idealize.ShloMosaic.TcCoe Idealize.SL.Sem

/-- The kernel's program runs to the end without a fault and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is host operations only: its run, with the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- On the extended reals, from memories agreeing on the arguments, both programs end with the same adjacency, mean and
    log-variance. -/
theorem algebraic : Cert.algebraic_KernelIdeal_ReferenceIdeal := by
  intro m ρ m' ρ' _ hagree
  refine ⟨fun c => Cert.KernelIdeal.Hand.mem7 m c (Proc.devRef .tc Cert.KernelIdeal.main_v41),
    fun c => Cert.KernelIdeal.Hand.mem7 m c (Proc.devRef .tc Cert.KernelIdeal.main_v36),
    fun c => Cert.KernelIdeal.Hand.mem7 m c (Proc.devRef .tc Cert.KernelIdeal.main_v40),
    fun c => Cert.KernelIdeal.Hand.mem7 m c (Proc.devRef .tc Cert.KernelIdeal.main_v36), ?_, ?_⟩
  · exact (θ_run Cert.KernelIdeal.defs _ _).mono (fun r h c =>
      ⟨h c _ (Cert.KernelIdeal.Hand.mem_uc Cert.KernelIdeal.main_v41 (by decide)),
       h c _ (Cert.KernelIdeal.Hand.mem_uc Cert.KernelIdeal.main_v36 (by decide)),
       h c _ (Cert.KernelIdeal.Hand.mem_uc Cert.KernelIdeal.main_v40 (by decide)),
       h c _ (Cert.KernelIdeal.Hand.mem_uc Cert.KernelIdeal.main_v36 (by decide)),
       (h c _ (Cert.KernelIdeal.Hand.mem_uc Cert.KernelIdeal.main_arg0 (by decide))).trans (Cert.KernelIdeal.Hand.mem7_main_arg0 m c),
       (h c _ (Cert.KernelIdeal.Hand.mem_uc Cert.KernelIdeal.main_arg1 (by decide))).trans (Cert.KernelIdeal.Hand.mem7_main_arg1 m c),
       (h c _ (Cert.KernelIdeal.Hand.mem_uc Cert.KernelIdeal.main_arg2 (by decide))).trans (Cert.KernelIdeal.Hand.mem7_main_arg2 m c),
       (h c _ (Cert.KernelIdeal.Hand.mem_uc Cert.KernelIdeal.main_arg3 (by decide))).trans (Cert.KernelIdeal.Hand.mem7_main_arg3 m c),
       (h c _ (Cert.KernelIdeal.Hand.mem_uc Cert.KernelIdeal.main_arg4 (by decide))).trans (Cert.KernelIdeal.Hand.mem7_main_arg4 m c),
       (h c _ (Cert.KernelIdeal.Hand.mem_uc Cert.KernelIdeal.main_arg5 (by decide))).trans (Cert.KernelIdeal.Hand.mem7_main_arg5 m c),
       (h c _ (Cert.KernelIdeal.Hand.mem_uc Cert.KernelIdeal.main_arg6 (by decide))).trans (Cert.KernelIdeal.Hand.mem7_main_arg6 m c),
       (h c _ (Cert.KernelIdeal.Hand.mem_uc Cert.KernelIdeal.main_arg7 (by decide))).trans (Cert.KernelIdeal.Hand.mem7_main_arg7 m c),
       (h c _ (Cert.KernelIdeal.Hand.mem_uc Cert.KernelIdeal.main_arg8 (by decide))).trans (Cert.KernelIdeal.Hand.mem7_main_arg8 m c),
       (h c _ (Cert.KernelIdeal.Hand.mem_uc Cert.KernelIdeal.main_arg9 (by decide))).trans (Cert.KernelIdeal.Hand.mem7_main_arg9 m c)⟩)
      (Cert.KernelIdeal.Hand.run m ρ)
  · refine (θ_run Cert.ReferenceIdeal.defs _ _).mono (fun r h c => ?_) (Cert.Bridge.run_named m' ρ')
    obtain ⟨hadj, hmean, hlogvar, hargs⟩ := h c
    obtain ⟨e0, e1, e2, e3, e4, e5, e6, e7, e8, e9⟩ := hagree c
    refine ⟨hadj.trans ?_, hmean.trans ?_, hlogvar.trans ?_, hmean.trans ?_, hargs⟩
    · rw [e0, e1, e2, e3, e4, e5, e6, e7]; exact (Cert.KernelIdeal.Hand.adj_value m c).symm
    · rw [e0, e1, e2, e3, e4, e5, e6, e7]; exact (Cert.KernelIdeal.Hand.mean_value m c).symm
    · rw [e0, e1, e2, e3, e4, e5, e8, e9]; exact (Cert.KernelIdeal.Hand.logvar_value m c).symm
    · rw [e0, e1, e2, e3, e4, e5, e6, e7]; exact (Cert.KernelIdeal.Hand.mean_value m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
